-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x196x576 : Shape := ⟨3, ![256, 196, 576]⟩
abbrev S576 : Shape := ⟨1, ![576]⟩
abbrev S576x3456 : Shape := ⟨2, ![576, 3456]⟩
abbrev S3456 : Shape := ⟨1, ![3456]⟩
abbrev S2304x576 : Shape := ⟨2, ![2304, 576]⟩
abbrev S18x196 : Shape := ⟨2, ![18, 196]⟩
abbrev S196x196 : Shape := ⟨2, ![196, 196]⟩
abbrev S_ : Shape := ⟨0, ![]⟩

class Facts : Prop where
  bcast_S_S256x196x576 : S_.BroadcastsInDim S256x196x576 (![] : Fin 0 → Fin S256x196x576.rank)
  reducesTo_S256x196x576_S_d0_1_2 : S256x196x576.ReducesTo [0, 1, 2] S_
  h_S_ : 0 < S_.numel
  bcast_S_S576 : S_.BroadcastsInDim S576 (![] : Fin 0 → Fin S576.rank)
  reducesTo_S576_S_d0 : S576.ReducesTo [0] S_
  bcast_S_S576x3456 : S_.BroadcastsInDim S576x3456 (![] : Fin 0 → Fin S576x3456.rank)
  reducesTo_S576x3456_S_d0_1 : S576x3456.ReducesTo [0, 1] S_
  bcast_S_S3456 : S_.BroadcastsInDim S3456 (![] : Fin 0 → Fin S3456.rank)
  reducesTo_S3456_S_d0 : S3456.ReducesTo [0] S_
  bcast_S_S2304x576 : S_.BroadcastsInDim S2304x576 (![] : Fin 0 → Fin S2304x576.rank)
  reducesTo_S2304x576_S_d0_1 : S2304x576.ReducesTo [0, 1] S_
  bcast_S_S18x196 : S_.BroadcastsInDim S18x196 (![] : Fin 0 → Fin S18x196.rank)
  reducesTo_S18x196_S_d0_1 : S18x196.ReducesTo [0, 1] S_

variable [Facts]

def fn_part2 {F : FTy → Type} [FloatOps F] (main_arg7 : FVec F S18x196 .f32) (main_v33 : IVec S_ 1) : IVec S_ 1 :=
  let main_v34 : FVec F S18x196 .f32 := Host.absf main_arg7
  let main_cst_12 : FVec F S_ .f32 := constant S_ .f32 0x7F800000#32
  let main_v35 : FVec F S18x196 .f32 := broadcastInDim S18x196 ![] bcast_S_S18x196 main_cst_12
  let main_v36 : IVec S18x196 1 := cmpf .olt main_v34 main_v35
  let main_c_13 : IVec S_ 1 := constantI S_ 1 1#1
  let main_v37 : IVec S_ 1 := (fun x v => Host.reduce IntOp.andi x v reducesTo_S18x196_S_d0_1 h_S_) main_v36 main_c_13
  let main_v38 : IVec S_ 1 := andi main_v33 main_v37
  main_v38

def fn_part1 {F : FTy → Type} [FloatOps F] (main_arg4 : FVec F S3456 .f32) (main_arg5 : FVec F S2304x576 .f32) (main_arg6 : FVec F S576 .f32) (main_arg7 : FVec F S18x196 .f32) (main_v13 : IVec S_ 1) (main_v16 : IVec S576x3456 1) : IVec S_ 1 :=
  let main_c_5 : IVec S_ 1 := constantI S_ 1 1#1
  let main_v17 : IVec S_ 1 := (fun x v => Host.reduce IntOp.andi x v reducesTo_S576x3456_S_d0_1 h_S_) main_v16 main_c_5
  let main_v18 : IVec S_ 1 := andi main_v13 main_v17
  let main_v19 : FVec F S3456 .f32 := Host.absf main_arg4
  let main_cst_6 : FVec F S_ .f32 := constant S_ .f32 0x7F800000#32
  let main_v20 : FVec F S3456 .f32 := broadcastInDim S3456 ![] bcast_S_S3456 main_cst_6
  let main_v21 : IVec S3456 1 := cmpf .olt main_v19 main_v20
  let main_c_7 : IVec S_ 1 := constantI S_ 1 1#1
  let main_v22 : IVec S_ 1 := (fun x v => Host.reduce IntOp.andi x v reducesTo_S3456_S_d0 h_S_) main_v21 main_c_7
  let main_v23 : IVec S_ 1 := andi main_v18 main_v22
  let main_v24 : FVec F S2304x576 .f32 := Host.absf main_arg5
  let main_cst_8 : FVec F S_ .f32 := constant S_ .f32 0x7F800000#32
  let main_v25 : FVec F S2304x576 .f32 := broadcastInDim S2304x576 ![] bcast_S_S2304x576 main_cst_8
  let main_v26 : IVec S2304x576 1 := cmpf .olt main_v24 main_v25
  let main_c_9 : IVec S_ 1 := constantI S_ 1 1#1
  let main_v27 : IVec S_ 1 := (fun x v => Host.reduce IntOp.andi x v reducesTo_S2304x576_S_d0_1 h_S_) main_v26 main_c_9
  let main_v28 : IVec S_ 1 := andi main_v23 main_v27
  let main_v29 : FVec F S576 .f32 := Host.absf main_arg6
  let main_cst_10 : FVec F S_ .f32 := constant S_ .f32 0x7F800000#32
  let main_v30 : FVec F S576 .f32 := broadcastInDim S576 ![] bcast_S_S576 main_cst_10
  let main_v31 : IVec S576 1 := cmpf .olt main_v29 main_v30
  let main_c_11 : IVec S_ 1 := constantI S_ 1 1#1
  let main_v32 : IVec S_ 1 := (fun x v => Host.reduce IntOp.andi x v reducesTo_S576_S_d0 h_S_) main_v31 main_c_11
  let main_v33 : IVec S_ 1 := andi main_v28 main_v32
  fn_part2 (F := F) main_arg7 main_v33

def fn {F : FTy → Type} [FloatOps F] (main_arg0 : FVec F S256x196x576 .f32) (main_arg1 : FVec F S576 .f32) (main_arg2 : FVec F S576 .f32) (main_arg3 : FVec F S576x3456 .f32) (main_arg4 : FVec F S3456 .f32) (main_arg5 : FVec F S2304x576 .f32) (main_arg6 : FVec F S576 .f32) (main_arg7 : FVec F S18x196 .f32) (main_arg8 : IVec S196x196 32) : IVec S_ 1 :=
  let main_v0 : FVec F S256x196x576 .f32 := Host.absf main_arg0
  let main_cst : FVec F S_ .f32 := constant S_ .f32 0x7F800000#32
  let main_v1 : FVec F S256x196x576 .f32 := broadcastInDim S256x196x576 ![] bcast_S_S256x196x576 main_cst
  let main_v2 : IVec S256x196x576 1 := cmpf .olt main_v0 main_v1
  let main_c : IVec S_ 1 := constantI S_ 1 1#1
  let main_v3 : IVec S_ 1 := (fun x v => Host.reduce IntOp.andi x v reducesTo_S256x196x576_S_d0_1_2 h_S_) main_v2 main_c
  let main_v4 : FVec F S576 .f32 := Host.absf main_arg1
  let main_cst_0 : FVec F S_ .f32 := constant S_ .f32 0x7F800000#32
  let main_v5 : FVec F S576 .f32 := broadcastInDim S576 ![] bcast_S_S576 main_cst_0
  let main_v6 : IVec S576 1 := cmpf .olt main_v4 main_v5
  let main_c_1 : IVec S_ 1 := constantI S_ 1 1#1
  let main_v7 : IVec S_ 1 := (fun x v => Host.reduce IntOp.andi x v reducesTo_S576_S_d0 h_S_) main_v6 main_c_1
  let main_v8 : IVec S_ 1 := andi main_v3 main_v7
  let main_v9 : FVec F S576 .f32 := Host.absf main_arg2
  let main_cst_2 : FVec F S_ .f32 := constant S_ .f32 0x7F800000#32
  let main_v10 : FVec F S576 .f32 := broadcastInDim S576 ![] bcast_S_S576 main_cst_2
  let main_v11 : IVec S576 1 := cmpf .olt main_v9 main_v10
  let main_c_3 : IVec S_ 1 := constantI S_ 1 1#1
  let main_v12 : IVec S_ 1 := (fun x v => Host.reduce IntOp.andi x v reducesTo_S576_S_d0 h_S_) main_v11 main_c_3
  let main_v13 : IVec S_ 1 := andi main_v8 main_v12
  let main_v14 : FVec F S576x3456 .f32 := Host.absf main_arg3
  let main_cst_4 : FVec F S_ .f32 := constant S_ .f32 0x7F800000#32
  let main_v15 : FVec F S576x3456 .f32 := broadcastInDim S576x3456 ![] bcast_S_S576x3456 main_cst_4
  let main_v16 : IVec S576x3456 1 := cmpf .olt main_v14 main_v15
  fn_part1 (F := F) main_arg4 main_arg5 main_arg6 main_arg7 main_v13 main_v16
-- ==== Kernel.lean ====
abbrev S256x196x576 : Shape := ⟨3, ![256, 196, 576]⟩
abbrev S576 : Shape := ⟨1, ![576]⟩
abbrev S576x3456 : Shape := ⟨2, ![576, 3456]⟩
abbrev S3456 : Shape := ⟨1, ![3456]⟩
abbrev S2304x576 : Shape := ⟨2, ![2304, 576]⟩
abbrev S18x196 : Shape := ⟨2, ![18, 196]⟩
abbrev S196x196 : Shape := ⟨2, ![196, 196]⟩
abbrev S_ : Shape := ⟨0, ![]⟩
abbrev S196x196x1 : Shape := ⟨3, ![196, 196, 1]⟩
abbrev S18x196x196 : Shape := ⟨3, ![18, 196, 196]⟩
abbrev S3456x1 : Shape := ⟨2, ![3456, 1]⟩
abbrev S1 : Shape := ⟨1, ![1]⟩
abbrev S1x1 : Shape := ⟨2, ![1, 1]⟩
abbrev S4x196x576 : Shape := ⟨3, ![4, 196, 576]⟩
abbrev S784x3456 : Shape := ⟨2, ![784, 3456]⟩
abbrev S784x2304 : Shape := ⟨2, ![784, 2304]⟩
abbrev S4x196 : Shape := ⟨2, ![4, 196]⟩
abbrev S4x196x1 : Shape := ⟨3, ![4, 196, 1]⟩
abbrev S1x1x576 : Shape := ⟨3, ![1, 1, 576]⟩
abbrev S784x576 : Shape := ⟨2, ![784, 576]⟩
abbrev S1x3456 : Shape := ⟨2, ![1, 3456]⟩
abbrev S784x192 : Shape := ⟨2, ![784, 192]⟩
abbrev S784x768 : Shape := ⟨2, ![784, 768]⟩
abbrev S4x196x6x32 : Shape := ⟨4, ![4, 196, 6, 32]⟩
abbrev S4x6x196x32 : Shape := ⟨4, ![4, 6, 196, 32]⟩
abbrev S24x196x32 : Shape := ⟨3, ![24, 196, 32]⟩
abbrev S4x196x6x128 : Shape := ⟨4, ![4, 196, 6, 128]⟩
abbrev S4x6x196x128 : Shape := ⟨4, ![4, 6, 196, 128]⟩
abbrev S24x196x128 : Shape := ⟨3, ![24, 196, 128]⟩
abbrev S24x196x196 : Shape := ⟨3, ![24, 196, 196]⟩
abbrev S4x6x196x196 : Shape := ⟨4, ![4, 6, 196, 196]⟩
abbrev S6x196x196 : Shape := ⟨3, ![6, 196, 196]⟩
abbrev S1x6x196x196 : Shape := ⟨4, ![1, 6, 196, 196]⟩
abbrev S24x196 : Shape := ⟨2, ![24, 196]⟩
abbrev S24x196x1 : Shape := ⟨3, ![24, 196, 1]⟩
abbrev S1x576 : Shape := ⟨2, ![1, 576]⟩

abbrev nBuf : Space → Nat
  | .hbm => 67
  | .vmem => 13
  | .smem => 0
  | _ => 0

abbrev bufTy : (tb : Table) → Fin (tcTables nBuf tb) → BufTy
  | .hbm, ⟨0, _⟩ => ⟨S256x196x576, .f32⟩
  | .hbm, ⟨1, _⟩ => ⟨S576, .f32⟩
  | .hbm, ⟨2, _⟩ => ⟨S576, .f32⟩
  | .hbm, ⟨3, _⟩ => ⟨S576x3456, .f32⟩
  | .hbm, ⟨4, _⟩ => ⟨S3456, .f32⟩
  | .hbm, ⟨5, _⟩ => ⟨S2304x576, .f32⟩
  | .hbm, ⟨6, _⟩ => ⟨S576, .f32⟩
  | .hbm, ⟨7, _⟩ => ⟨S18x196, .f32⟩
  | .hbm, ⟨8, _⟩ => ⟨S196x196, .i32⟩
  | .hbm, ⟨9, _⟩ => ⟨S3456, .i32⟩
  | .hbm, ⟨10, _⟩ => ⟨S_, .i32⟩
  | .hbm, ⟨11, _⟩ => ⟨S196x196, .i32⟩
  | .hbm, ⟨12, _⟩ => ⟨S196x196, .i1⟩
  | .hbm, ⟨13, _⟩ => ⟨S_, .i32⟩
  | .hbm, ⟨14, _⟩ => ⟨S196x196, .i32⟩
  | .hbm, ⟨15, _⟩ => ⟨S196x196, .i32⟩
  | .hbm, ⟨16, _⟩ => ⟨S196x196, .i32⟩
  | .hbm, ⟨17, _⟩ => ⟨S196x196x1, .i32⟩
  | .hbm, ⟨18, _⟩ => ⟨S18x196x196, .f32⟩
  | .hbm, ⟨19, _⟩ => ⟨S_, .i32⟩
  | .hbm, ⟨20, _⟩ => ⟨S3456, .i32⟩
  | .hbm, ⟨21, _⟩ => ⟨S3456, .i1⟩
  | .hbm, ⟨22, _⟩ => ⟨S_, .i32⟩
  | .hbm, ⟨23, _⟩ => ⟨S3456, .i32⟩
  | .hbm, ⟨24, _⟩ => ⟨S3456, .i32⟩
  | .hbm, ⟨25, _⟩ => ⟨S3456, .i32⟩
  | .hbm, ⟨26, _⟩ => ⟨S3456x1, .i32⟩
  | .hbm, ⟨27, _⟩ => ⟨S1, .i32⟩
  | .hbm, ⟨28, _⟩ => ⟨S_, .i32⟩
  | .hbm, ⟨29, _⟩ => ⟨S3456x1, .i32⟩
  | .hbm, ⟨30, _⟩ => ⟨S3456x1, .i1⟩
  | .hbm, ⟨31, _⟩ => ⟨S1x1, .i32⟩
  | .hbm, ⟨32, _⟩ => ⟨S3456x1, .i32⟩
  | .hbm, ⟨33, _⟩ => ⟨S3456x1, .i1⟩
  | .hbm, ⟨34, _⟩ => ⟨S3456x1, .i1⟩
  | .hbm, ⟨35, _⟩ => ⟨S_, .i1⟩
  | .hbm, ⟨36, _⟩ => ⟨S3456, .i1⟩
  | .hbm, ⟨37, _⟩ => ⟨S576x3456, .f32⟩
  | .hbm, ⟨38, _⟩ => ⟨S576x3456, .i1⟩
  | .hbm, ⟨39, _⟩ => ⟨S_, .f32⟩
  | .hbm, ⟨40, _⟩ => ⟨S576x3456, .f32⟩
  | .hbm, ⟨41, _⟩ => ⟨S576x3456, .f32⟩
  | .hbm, ⟨42, _⟩ => ⟨S576x3456, .bf16⟩
  | .hbm, ⟨43, _⟩ => ⟨S_, .i32⟩
  | .hbm, ⟨44, _⟩ => ⟨S3456, .i32⟩
  | .hbm, ⟨45, _⟩ => ⟨S3456, .i1⟩
  | .hbm, ⟨46, _⟩ => ⟨S_, .i32⟩
  | .hbm, ⟨47, _⟩ => ⟨S3456, .i32⟩
  | .hbm, ⟨48, _⟩ => ⟨S3456, .i32⟩
  | .hbm, ⟨49, _⟩ => ⟨S3456, .i32⟩
  | .hbm, ⟨50, _⟩ => ⟨S3456x1, .i32⟩
  | .hbm, ⟨51, _⟩ => ⟨S1, .i32⟩
  | .hbm, ⟨52, _⟩ => ⟨S_, .i32⟩
  | .hbm, ⟨53, _⟩ => ⟨S3456x1, .i32⟩
  | .hbm, ⟨54, _⟩ => ⟨S3456x1, .i1⟩
  | .hbm, ⟨55, _⟩ => ⟨S1x1, .i32⟩
  | .hbm, ⟨56, _⟩ => ⟨S3456x1, .i32⟩
  | .hbm, ⟨57, _⟩ => ⟨S3456x1, .i1⟩
  | .hbm, ⟨58, _⟩ => ⟨S3456x1, .i1⟩
  | .hbm, ⟨59, _⟩ => ⟨S_, .i1⟩
  | .hbm, ⟨60, _⟩ => ⟨S3456, .i1⟩
  | .hbm, ⟨61, _⟩ => ⟨S3456, .f32⟩
  | .hbm, ⟨62, _⟩ => ⟨S_, .f32⟩
  | .hbm, ⟨63, _⟩ => ⟨S3456, .f32⟩
  | .hbm, ⟨64, _⟩ => ⟨S3456, .f32⟩
  | .hbm, ⟨65, _⟩ => ⟨S2304x576, .bf16⟩
  | .hbm, ⟨66, _⟩ => ⟨S256x196x576, .f32⟩
  | .local _ .vmem, ⟨0, _⟩ => ⟨S4x196x576, .f32⟩
  | .local _ .vmem, ⟨1, _⟩ => ⟨S4x196x576, .f32⟩
  | .local _ .vmem, ⟨2, _⟩ => ⟨S576, .f32⟩
  | .local _ .vmem, ⟨3, _⟩ => ⟨S576, .f32⟩
  | .local _ .vmem, ⟨4, _⟩ => ⟨S576x3456, .bf16⟩
  | .local _ .vmem, ⟨5, _⟩ => ⟨S3456, .f32⟩
  | .local _ .vmem, ⟨6, _⟩ => ⟨S2304x576, .bf16⟩
  | .local _ .vmem, ⟨7, _⟩ => ⟨S576, .f32⟩
  | .local _ .vmem, ⟨8, _⟩ => ⟨S18x196x196, .f32⟩
  | .local _ .vmem, ⟨9, _⟩ => ⟨S4x196x576, .f32⟩
  | .local _ .vmem, ⟨10, _⟩ => ⟨S4x196x576, .f32⟩
  | .local _ .vmem, ⟨11, _⟩ => ⟨S784x3456, .f32⟩
  | .local _ .vmem, ⟨12, _⟩ => ⟨S784x2304, .bf16⟩
  | _, _ => ⟨S256x196x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v7 : Ref sig .tc := ⟨.hbm, 41, rfl⟩
abbrev main_v8 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x196x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S576x3456 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3456 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2304x576 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S576 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S18x196x196 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x196x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S196x196 : S_.BroadcastsInDim S196x196 (![] : Fin 0 → Fin S196x196.rank)
  bcast_S196x196_S196x196x1_0_1 : S196x196.BroadcastsInDim S196x196x1 (![0, 1] : Fin 2 → Fin S196x196x1.rank)
  bcast_S_S3456 : S_.BroadcastsInDim S3456 (![] : Fin 0 → Fin S3456.rank)
  bcast_S3456_S3456x1_0 : S3456.BroadcastsInDim S3456x1 (![0] : Fin 1 → Fin S3456x1.rank)
  bcast_S_S3456x1 : S_.BroadcastsInDim S3456x1 (![] : Fin 0 → Fin S3456x1.rank)
  bcast_S1_S1x1_1 : S1.BroadcastsInDim S1x1 (![1] : Fin 1 → Fin S1x1.rank)
  bcast_S1x1_S3456x1_0_1 : S1x1.BroadcastsInDim S3456x1 (![0, 1] : Fin 2 → Fin S3456x1.rank)
  reducesTo_S3456x1_S3456_d1 : S3456x1.ReducesTo [1] S3456
  h_S_ : 0 < S_.numel
  bcast_S3456_S576x3456_1 : S3456.BroadcastsInDim S576x3456 (![1] : Fin 1 → Fin S576x3456.rank)
  bcast_S_S576x3456 : S_.BroadcastsInDim S576x3456 (![] : Fin 0 → Fin S576x3456.rank)
  bitsLt_bf16_f32 : FTy.bits .bf16 < FTy.bits .f32
  inb_S4x196x576_S4x196x576_0_0_0 : ∀ a, (![0, 0, 0] : Fin 3 → Nat) a + S4x196x576.size a ≤ S4x196x576.size a
  h_S4x196x576 : 0 < S4x196x576.numel
  reduces_S4x196x576_S4x196 : S4x196x576.Reduces [2] S4x196
  shapeCasts_S4x196_S4x196x1 : S4x196.ShapeCasts S4x196x1
  broadcasts_S4x196x1_S4x196x576 : S4x196x1.Broadcasts S4x196x576
  inb_S576_S576_0 : ∀ a, (![0] : Fin 1 → Nat) a + S576.size a ≤ S576.size a
  h_S576 : 0 < S576.numel
  shapeCasts_S576_S1x1x576 : S576.ShapeCasts S1x1x576
  broadcasts_S1x1x576_S4x196x576 : S1x1x576.Broadcasts S4x196x576
  shapeCasts_S4x196x576_S784x576 : S4x196x576.ShapeCasts S784x576
  inb_S576x3456_S576x3456_0_0 : ∀ a, (![0, 0] : Fin 2 → Nat) a + S576x3456.size a ≤ S576x3456.size a
  h_S576x3456 : 0 < S576x3456.numel
  shapeCasts_S576x3456_S576x3456 : S576x3456.ShapeCasts S576x3456
  inb_S3456_S3456_0 : ∀ a, (![0] : Fin 1 → Nat) a + S3456.size a ≤ S3456.size a
  h_S3456 : 0 < S3456.numel
  shapeCasts_S3456_S3456 : S3456.ShapeCasts S3456
  shapeCasts_S3456_S1x3456 : S3456.ShapeCasts S1x3456
  broadcasts_S1x3456_S784x3456 : S1x3456.Broadcasts S784x3456
  inb_S784x3456_S784x3456_0_0 : ∀ a, (![0, 0] : Fin 2 → Nat) a + S784x3456.size a ≤ S784x3456.size a
  h_S784x3456 : 0 < S784x3456.numel
  shapeCasts_S784x3456_S784x3456 : S784x3456.ShapeCasts S784x3456
  inb_S784x3456_S784x192_0_0 : ∀ a, (![0, 0] : Fin 2 → Nat) a + S784x192.size a ≤ S784x3456.size a
  h_S784x192 : 0 < S784x192.numel
  inb_S784x3456_S784x192_0_576 : ∀ a, (![0, 576] : Fin 2 → Nat) a + S784x192.size a ≤ S784x3456.size a
  inb_S784x3456_S784x768_0_1152 : ∀ a, (![0, 1152] : Fin 2 → Nat) a + S784x768.size a ≤ S784x3456.size a
  h_S784x768 : 0 < S784x768.numel
  shapeCasts_S784x192_S4x196x6x32 : S784x192.ShapeCasts S4x196x6x32
  transposes_S4x196x6x32_p0_2_1_3_S4x6x196x32 : S4x196x6x32.Transposes [0, 2, 1, 3] S4x6x196x32
  shapeCasts_S4x6x196x32_S24x196x32 : S4x6x196x32.ShapeCasts S24x196x32
  shapeCasts_S784x768_S4x196x6x128 : S784x768.ShapeCasts S4x196x6x128
  transposes_S4x196x6x128_p0_2_1_3_S4x6x196x128 : S4x196x6x128.Transposes [0, 2, 1, 3] S4x6x196x128
  shapeCasts_S4x6x196x128_S24x196x128 : S4x6x196x128.ShapeCasts S24x196x128
  shapeCasts_S24x196x196_S4x6x196x196 : S24x196x196.ShapeCasts S4x6x196x196
  inb_S18x196x196_S6x196x196_0_0_0 : ∀ a, (![0, 0, 0] : Fin 3 → Nat) a + S6x196x196.size a ≤ S18x196x196.size a
  h_S6x196x196 : 0 < S6x196x196.numel
  shapeCasts_S6x196x196_S6x196x196 : S6x196x196.ShapeCasts S6x196x196
  shapeCasts_S6x196x196_S1x6x196x196 : S6x196x196.ShapeCasts S1x6x196x196
  broadcasts_S1x6x196x196_S4x6x196x196 : S1x6x196x196.Broadcasts S4x6x196x196
  shapeCasts_S4x6x196x196_S24x196x196 : S4x6x196x196.ShapeCasts S24x196x196
  reduces_S24x196x196_S24x196 : S24x196x196.Reduces [2] S24x196
  shapeCasts_S24x196_S24x196x1 : S24x196.ShapeCasts S24x196x1
  broadcasts_S24x196x1_S24x196x196 : S24x196x1.Broadcasts S24x196x196
  shapeCasts_S24x196x128_S4x6x196x128 : S24x196x128.ShapeCasts S4x6x196x128
  transposes_S4x6x196x128_p0_2_1_3_S4x196x6x128 : S4x6x196x128.Transposes [0, 2, 1, 3] S4x196x6x128
  shapeCasts_S4x196x6x128_S784x768 : S4x196x6x128.ShapeCasts S784x768
  inb_S784x2304_S784x768_0_0 : ∀ a, (![0, 0] : Fin 2 → Nat) a + S784x768.size a ≤ S784x2304.size a
  shapeCasts_S784x768_S784x768 : S784x768.ShapeCasts S784x768
  packedbf16_S784x2304_S784x768_0_0 : (Rect.unit (s := S784x2304) ![0, 0] S784x768.size inb_S784x2304_S784x768_0_0).PackedRows (EltTy.packing .bf16)
  inb_S784x3456_S784x192_0_192 : ∀ a, (![0, 192] : Fin 2 → Nat) a + S784x192.size a ≤ S784x3456.size a
  inb_S784x3456_S784x192_0_768 : ∀ a, (![0, 768] : Fin 2 → Nat) a + S784x192.size a ≤ S784x3456.size a
  inb_S784x3456_S784x768_0_1920 : ∀ a, (![0, 1920] : Fin 2 → Nat) a + S784x768.size a ≤ S784x3456.size a
  inb_S18x196x196_S6x196x196_6_0_0 : ∀ a, (![6, 0, 0] : Fin 3 → Nat) a + S6x196x196.size a ≤ S18x196x196.size a
  inb_S784x2304_S784x768_0_768 : ∀ a, (![0, 768] : Fin 2 → Nat) a + S784x768.size a ≤ S784x2304.size a
  packedbf16_S784x2304_S784x768_0_768 : (Rect.unit (s := S784x2304) ![0, 768] S784x768.size inb_S784x2304_S784x768_0_768).PackedRows (EltTy.packing .bf16)
  inb_S784x3456_S784x192_0_384 : ∀ a, (![0, 384] : Fin 2 → Nat) a + S784x192.size a ≤ S784x3456.size a
  inb_S784x3456_S784x192_0_960 : ∀ a, (![0, 960] : Fin 2 → Nat) a + S784x192.size a ≤ S784x3456.size a
  inb_S784x3456_S784x768_0_2688 : ∀ a, (![0, 2688] : Fin 2 → Nat) a + S784x768.size a ≤ S784x3456.size a
  inb_S18x196x196_S6x196x196_12_0_0 : ∀ a, (![12, 0, 0] : Fin 3 → Nat) a + S6x196x196.size a ≤ S18x196x196.size a
  inb_S784x2304_S784x768_0_1536 : ∀ a, (![0, 1536] : Fin 2 → Nat) a + S784x768.size a ≤ S784x2304.size a
  packedbf16_S784x2304_S784x768_0_1536 : (Rect.unit (s := S784x2304) ![0, 1536] S784x768.size inb_S784x2304_S784x768_0_1536).PackedRows (EltTy.packing .bf16)
  inb_S784x2304_S784x2304_0_0 : ∀ a, (![0, 0] : Fin 2 → Nat) a + S784x2304.size a ≤ S784x2304.size a
  h_S784x2304 : 0 < S784x2304.numel
  inb_S2304x576_S2304x576_0_0 : ∀ a, (![0, 0] : Fin 2 → Nat) a + S2304x576.size a ≤ S2304x576.size a
  h_S2304x576 : 0 < S2304x576.numel
  shapeCasts_S2304x576_S2304x576 : S2304x576.ShapeCasts S2304x576
  shapeCasts_S576_S1x576 : S576.ShapeCasts S1x576
  broadcasts_S1x576_S784x576 : S1x576.Broadcasts S784x576
  shapeCasts_S784x576_S4x196x576 : S784x576.ShapeCasts S4x196x576
  gather_S18x196_S196x196x1_S18x196x196_0_1_n_n_1_2_181_wf : GatherDims.WF S18x196 S196x196x1 S18x196x196 [0] [1] [] [1] [] 2 ![18, 1]
  gather_S576x3456_S3456x1_S576x3456_0_1_n_n_1_1_5761_wf : GatherDims.WF S576x3456 S3456x1 S576x3456 [0] [1] [] [1] [] 1 ![576, 1]
  gather_S3456_S3456x1_S3456_n_0_n_n_0_1_1_wf : GatherDims.WF S3456 S3456x1 S3456 [] [0] [] [0] [] 1 ![1]
  dot_S784x576_S576x3456_S784x3456_1_0_0_1_n_n_wf : DotDims.WF S784x576 S576x3456 S784x3456 [1] [0] [0] [1] [] []
  dot_S24x196x32_S24x196x32_S24x196x196_2_2_1_1_0_0_wf : DotDims.WF S24x196x32 S24x196x32 S24x196x196 [2] [2] [1] [1] [0] [0]
  dot_S24x196x196_S24x196x128_S24x196x128_2_1_1_2_0_0_wf : DotDims.WF S24x196x196 S24x196x128 S24x196x128 [2] [1] [1] [2] [0] [0]
  dot_S784x2304_S2304x576_S784x576_1_0_0_1_n_n_wf : DotDims.WF S784x2304 S2304x576 S784x576 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x196x576.size a ≤ S256x196x576.size a
  hwx0_0 : ∀ i : grid0.Coords, EltTy.bits .f32 = 32 ∨ (Rect.block (s := S256x196x576) S4x196x576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576.size a ≤ S576.size a
  hwx0_1 : ∀ i : grid0.Coords, EltTy.bits .f32 = 32 ∨ (Rect.block (s := S576) S576.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S576.size a ≤ S576.size a
  hwx0_2 : ∀ i : grid0.Coords, EltTy.bits .f32 = 32 ∨ (Rect.block (s := S576) S576.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S576x3456.size a ≤ S576x3456.size a
  hwx0_3 : ∀ i : grid0.Coords, EltTy.bits .bf16 = 32 ∨ (Rect.block (s := S576x3456) S576x3456.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3456.size a ≤ S3456.size a
  hwx0_4 : ∀ i : grid0.Coords, EltTy.bits .f32 = 32 ∨ (Rect.block (s := S3456) S3456.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2304x576.size a ≤ S2304x576.size a
  hwx0_5 : ∀ i : grid0.Coords, EltTy.bits .bf16 = 32 ∨ (Rect.block (s := S2304x576) S2304x576.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S576.size a ≤ S576.size a
  hwx0_6 : ∀ i : grid0.Coords, EltTy.bits .f32 = 32 ∨ (Rect.block (s := S576) S576.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S18x196x196.size a ≤ S18x196x196.size a
  hwx0_7 : ∀ i : grid0.Coords, EltTy.bits .f32 = 32 ∨ (Rect.block (s := S18x196x196) S18x196x196.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x196x576.size a ≤ S256x196x576.size a
  hwx0_8 : ∀ i : grid0.Coords, EltTy.bits .f32 = 32 ∨ (Rect.block (s := S256x196x576) S4x196x576.size (cc0_transform_8 i) (hinb0_8 i)).WholeWords (EltTy.packing .f32)

variable [Facts₀]

def gather_S18x196_S196x196x1_S18x196x196_0_1_n_n_1_2_181 : GatherDims S18x196 S196x196x1 S18x196x196 where
  offsetDims := [0]
  collapsedSliceDims := [1]
  operandBatchingDims := []
  startIndicesBatchingDims := []
  startIndexMap := [1]
  indexVectorDim := 2
  sliceSizes := ![18, 1]
  wf := gather_S18x196_S196x196x1_S18x196x196_0_1_n_n_1_2_181_wf
def gather_S576x3456_S3456x1_S576x3456_0_1_n_n_1_1_5761 : GatherDims S576x3456 S3456x1 S576x3456 where
  offsetDims := [0]
  collapsedSliceDims := [1]
  operandBatchingDims := []
  startIndicesBatchingDims := []
  startIndexMap := [1]
  indexVectorDim := 1
  sliceSizes := ![576, 1]
  wf := gather_S576x3456_S3456x1_S576x3456_0_1_n_n_1_1_5761_wf
def gather_S3456_S3456x1_S3456_n_0_n_n_0_1_1 : GatherDims S3456 S3456x1 S3456 where
  offsetDims := []
  collapsedSliceDims := [0]
  operandBatchingDims := []
  startIndicesBatchingDims := []
  startIndexMap := [0]
  indexVectorDim := 1
  sliceSizes := ![1]
  wf := gather_S3456_S3456x1_S3456_n_0_n_n_0_1_1_wf
def dot_S784x576_S576x3456_S784x3456_1_0_0_1_n_n : DotDims S784x576 S576x3456 S784x3456 where
  lhsContracting := [1]
  rhsContracting := [0]
  lhsNonContracting := [0]
  rhsNonContracting := [1]
  lhsBatch := []
  rhsBatch := []
  wf := dot_S784x576_S576x3456_S784x3456_1_0_0_1_n_n_wf
def dot_S24x196x32_S24x196x32_S24x196x196_2_2_1_1_0_0 : DotDims S24x196x32 S24x196x32 S24x196x196 where
  lhsContracting := [2]
  rhsContracting := [2]
  lhsNonContracting := [1]
  rhsNonContracting := [1]
  lhsBatch := [0]
  rhsBatch := [0]
  wf := dot_S24x196x32_S24x196x32_S24x196x196_2_2_1_1_0_0_wf
def dot_S24x196x196_S24x196x128_S24x196x128_2_1_1_2_0_0 : DotDims S24x196x196 S24x196x128 S24x196x128 where
  lhsContracting := [2]
  rhsContracting := [1]
  lhsNonContracting := [1]
  rhsNonContracting := [2]
  lhsBatch := [0]
  rhsBatch := [0]
  wf := dot_S24x196x196_S24x196x128_S24x196x128_2_1_1_2_0_0_wf
def dot_S784x2304_S2304x576_S784x576_1_0_0_1_n_n : DotDims S784x2304 S2304x576 S784x576 where
  lhsContracting := [1]
  rhsContracting := [0]
  lhsNonContracting := [0]
  rhsNonContracting := [1]
  lhsBatch := []
  rhsBatch := []
  wf := dot_S784x2304_S2304x576_S784x576_1_0_0_1_n_n_wf

abbrev win0_0 : Pipeline.Window sig grid0 :=
  Pipeline.Window.ofSpec (Memref.whole main_arg0) S4x196x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S576.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S576.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S576x3456.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S3456.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2304x576.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S576.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S18x196x196.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S4x196x576.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S256x196x576 : Shape := ⟨3, ![256, 196, 576]⟩
abbrev S576 : Shape := ⟨1, ![576]⟩
abbrev S576x3456 : Shape := ⟨2, ![576, 3456]⟩
abbrev S3456 : Shape := ⟨1, ![3456]⟩
abbrev S2304x576 : Shape := ⟨2, ![2304, 576]⟩
abbrev S18x196 : Shape := ⟨2, ![18, 196]⟩
abbrev S196x196 : Shape := ⟨2, ![196, 196]⟩
abbrev S_ : Shape := ⟨0, ![]⟩
abbrev S256x196 : Shape := ⟨2, ![256, 196]⟩
abbrev S256x196x1 : Shape := ⟨3, ![256, 196, 1]⟩
abbrev S1x1x576 : Shape := ⟨3, ![1, 1, 576]⟩
abbrev S256x196x3456 : Shape := ⟨3, ![256, 196, 3456]⟩
abbrev S1x1x3456 : Shape := ⟨3, ![1, 1, 3456]⟩
abbrev S256x196x18x192 : Shape := ⟨4, ![256, 196, 18, 192]⟩
abbrev S256x18x196x192 : Shape := ⟨4, ![256, 18, 196, 192]⟩
abbrev S256x18x196x32 : Shape := ⟨4, ![256, 18, 196, 32]⟩
abbrev S256x18x196x128 : Shape := ⟨4, ![256, 18, 196, 128]⟩
abbrev S196x196x1 : Shape := ⟨3, ![196, 196, 1]⟩
abbrev S18x196x196 : Shape := ⟨3, ![18, 196, 196]⟩
abbrev S256x18x196x196 : Shape := ⟨4, ![256, 18, 196, 196]⟩
abbrev S1x18x196x196 : Shape := ⟨4, ![1, 18, 196, 196]⟩
abbrev S256x18x196 : Shape := ⟨3, ![256, 18, 196]⟩
abbrev S256x18x196x1 : Shape := ⟨4, ![256, 18, 196, 1]⟩
abbrev S256x196x18x128 : Shape := ⟨4, ![256, 196, 18, 128]⟩
abbrev S256x196x2304 : Shape := ⟨3, ![256, 196, 2304]⟩

abbrev nBuf : Space → Nat
  | .hbm => 84
  | .vmem => 0
  | .smem => 0
  | _ => 0

abbrev bufTy : (tb : Table) → Fin (tcTables nBuf tb) → BufTy
  | .hbm, ⟨0, _⟩ => ⟨S256x196x576, .f32⟩
  | .hbm, ⟨1, _⟩ => ⟨S576, .f32⟩
  | .hbm, ⟨2, _⟩ => ⟨S576, .f32⟩
  | .hbm, ⟨3, _⟩ => ⟨S576x3456, .f32⟩
  | .hbm, ⟨4, _⟩ => ⟨S3456, .f32⟩
  | .hbm, ⟨5, _⟩ => ⟨S2304x576, .f32⟩
  | .hbm, ⟨6, _⟩ => ⟨S576, .f32⟩
  | .hbm, ⟨7, _⟩ => ⟨S18x196, .f32⟩
  | .hbm, ⟨8, _⟩ => ⟨S196x196, .i32⟩
  | .hbm, ⟨9, _⟩ => ⟨S_, .f32⟩
  | .hbm, ⟨10, _⟩ => ⟨S256x196, .f32⟩
  | .hbm, ⟨11, _⟩ => ⟨S256x196x1, .f32⟩
  | .hbm, ⟨12, _⟩ => ⟨S_, .f32⟩
  | .hbm, ⟨13, _⟩ => ⟨S256x196x1, .f32⟩
  | .hbm, ⟨14, _⟩ => ⟨S256x196x1, .f32⟩
  | .hbm, ⟨15, _⟩ => ⟨S256x196x576, .f32⟩
  | .hbm, ⟨16, _⟩ => ⟨S256x196x576, .f32⟩
  | .hbm, ⟨17, _⟩ => ⟨S256x196x576, .f32⟩
  | .hbm, ⟨18, _⟩ => ⟨S_, .f32⟩
  | .hbm, ⟨19, _⟩ => ⟨S256x196, .f32⟩
  | .hbm, ⟨20, _⟩ => ⟨S256x196x1, .f32⟩
  | .hbm, ⟨21, _⟩ => ⟨S_, .f32⟩
  | .hbm, ⟨22, _⟩ => ⟨S256x196x1, .f32⟩
  | .hbm, ⟨23, _⟩ => ⟨S256x196x1, .f32⟩
  | .hbm, ⟨24, _⟩ => ⟨S256x196x576, .f32⟩
  | .hbm, ⟨25, _⟩ => ⟨S256x196x576, .f32⟩
  | .hbm, ⟨26, _⟩ => ⟨S_, .f32⟩
  | .hbm, ⟨27, _⟩ => ⟨S256x196x1, .f32⟩
  | .hbm, ⟨28, _⟩ => ⟨S256x196x1, .f32⟩
  | .hbm, ⟨29, _⟩ => ⟨S256x196x1, .f32⟩
  | .hbm, ⟨30, _⟩ => ⟨S256x196x576, .f32⟩
  | .hbm, ⟨31, _⟩ => ⟨S256x196x576, .f32⟩
  | .hbm, ⟨32, _⟩ => ⟨S1x1x576, .f32⟩
  | .hbm, ⟨33, _⟩ => ⟨S256x196x576, .f32⟩
  | .hbm, ⟨34, _⟩ => ⟨S256x196x576, .f32⟩
  | .hbm, ⟨35, _⟩ => ⟨S1x1x576, .f32⟩
  | .hbm, ⟨36, _⟩ => ⟨S256x196x576, .f32⟩
  | .hbm, ⟨37, _⟩ => ⟨S256x196x576, .f32⟩
  | .hbm, ⟨38, _⟩ => ⟨S256x196x3456, .f32⟩
  | .hbm, ⟨39, _⟩ => ⟨S1x1x3456, .f32⟩
  | .hbm, ⟨40, _⟩ => ⟨S256x196x3456, .f32⟩
  | .hbm, ⟨41, _⟩ => ⟨S256x196x3456, .f32⟩
  | .hbm, ⟨42, _⟩ => ⟨S256x196x18x192, .f32⟩
  | .hbm, ⟨43, _⟩ => ⟨S256x18x196x192, .f32⟩
  | .hbm, ⟨44, _⟩ => ⟨S256x18x196x32, .f32⟩
  | .hbm, ⟨45, _⟩ => ⟨S256x18x196x32, .f32⟩
  | .hbm, ⟨46, _⟩ => ⟨S256x18x196x128, .f32⟩
  | .hbm, ⟨47, _⟩ => ⟨S_, .i32⟩
  | .hbm, ⟨48, _⟩ => ⟨S196x196, .i32⟩
  | .hbm, ⟨49, _⟩ => ⟨S196x196, .i1⟩
  | .hbm, ⟨50, _⟩ => ⟨S_, .i32⟩
  | .hbm, ⟨51, _⟩ => ⟨S196x196, .i32⟩
  | .hbm, ⟨52, _⟩ => ⟨S196x196, .i32⟩
  | .hbm, ⟨53, _⟩ => ⟨S196x196, .i32⟩
  | .hbm, ⟨54, _⟩ => ⟨S196x196x1, .i32⟩
  | .hbm, ⟨55, _⟩ => ⟨S18x196x196, .f32⟩
  | .hbm, ⟨56, _⟩ => ⟨S256x18x196x196, .f32⟩
  | .hbm, ⟨57, _⟩ => ⟨S_, .f32⟩
  | .hbm, ⟨58, _⟩ => ⟨S256x18x196x196, .f32⟩
  | .hbm, ⟨59, _⟩ => ⟨S256x18x196x196, .f32⟩
  | .hbm, ⟨60, _⟩ => ⟨S1x18x196x196, .f32⟩
  | .hbm, ⟨61, _⟩ => ⟨S256x18x196x196, .f32⟩
  | .hbm, ⟨62, _⟩ => ⟨S256x18x196x196, .f32⟩
  | .hbm, ⟨63, _⟩ => ⟨S_, .f32⟩
  | .hbm, ⟨64, _⟩ => ⟨S256x18x196, .f32⟩
  | .hbm, ⟨65, _⟩ => ⟨S_, .f32⟩
  | .hbm, ⟨66, _⟩ => ⟨S256x18x196, .f32⟩
  | .hbm, ⟨67, _⟩ => ⟨S256x18x196, .f32⟩
  | .hbm, ⟨68, _⟩ => ⟨S256x18x196x1, .f32⟩
  | .hbm, ⟨69, _⟩ => ⟨S256x18x196x196, .f32⟩
  | .hbm, ⟨70, _⟩ => ⟨S256x18x196x196, .f32⟩
  | .hbm, ⟨71, _⟩ => ⟨S256x18x196x196, .f32⟩
  | .hbm, ⟨72, _⟩ => ⟨S_, .f32⟩
  | .hbm, ⟨73, _⟩ => ⟨S256x18x196, .f32⟩
  | .hbm, ⟨74, _⟩ => ⟨S256x18x196x1, .f32⟩
  | .hbm, ⟨75, _⟩ => ⟨S256x18x196x196, .f32⟩
  | .hbm, ⟨76, _⟩ => ⟨S256x18x196x196, .f32⟩
  | .hbm, ⟨77, _⟩ => ⟨S256x18x196x128, .f32⟩
  | .hbm, ⟨78, _⟩ => ⟨S256x196x18x128, .f32⟩
  | .hbm, ⟨79, _⟩ => ⟨S256x196x2304, .f32⟩
  | .hbm, ⟨80, _⟩ => ⟨S256x196x576, .f32⟩
  | .hbm, ⟨81, _⟩ => ⟨S1x1x576, .f32⟩
  | .hbm, ⟨82, _⟩ => ⟨S256x196x576, .f32⟩
  | .hbm, ⟨83, _⟩ => ⟨S256x196x576, .f32⟩
  | _, _ => ⟨S256x196x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]

class Facts₀ : Prop where
  reducesTo_S256x196x576_S256x196_d2 : S256x196x576.ReducesTo [2] S256x196
  h_S_ : 0 < S_.numel
  bcast_S256x196_S256x196x1_0_1 : S256x196.BroadcastsInDim S256x196x1 (![0, 1] : Fin 2 → Fin S256x196x1.rank)
  bcast_S_S256x196x1 : S_.BroadcastsInDim S256x196x1 (![] : Fin 0 → Fin S256x196x1.rank)
  bcast_S256x196x1_S256x196x576_0_1_2 : S256x196x1.BroadcastsInDim S256x196x576 (![0, 1, 2] : Fin 3 → Fin S256x196x576.rank)
  bcast_S576_S1x1x576_2 : S576.BroadcastsInDim S1x1x576 (![2] : Fin 1 → Fin S1x1x576.rank)
  bcast_S1x1x576_S256x196x576_0_1_2 : S1x1x576.BroadcastsInDim S256x196x576 (![0, 1, 2] : Fin 3 → Fin S256x196x576.rank)
  bcast_S3456_S1x1x3456_2 : S3456.BroadcastsInDim S1x1x3456 (![2] : Fin 1 → Fin S1x1x3456.rank)
  bcast_S1x1x3456_S256x196x3456_0_1_2 : S1x1x3456.BroadcastsInDim S256x196x3456 (![0, 1, 2] : Fin 3 → Fin S256x196x3456.rank)
  shapeCasts_S256x196x3456_S256x196x18x192 : S256x196x3456.ShapeCasts S256x196x18x192
  transposes_S256x196x18x192_S256x18x196x192_0_2_1_3 : S256x196x18x192.Transposes [0, 2, 1, 3] S256x18x196x192
  slices_S256x18x196x192_S256x18x196x32_0_0_0_0 : S256x18x196x192.Slices ![0, 0, 0, 0] S256x18x196x32
  slices_S256x18x196x192_S256x18x196x32_0_0_0_32 : S256x18x196x192.Slices ![0, 0, 0, 32] S256x18x196x32
  slices_S256x18x196x192_S256x18x196x128_0_0_0_64 : S256x18x196x192.Slices ![0, 0, 0, 64] S256x18x196x128
  bcast_S_S196x196 : S_.BroadcastsInDim S196x196 (![] : Fin 0 → Fin S196x196.rank)
  bcast_S196x196_S196x196x1_0_1 : S196x196.BroadcastsInDim S196x196x1 (![0, 1] : Fin 2 → Fin S196x196x1.rank)
  bcast_S_S256x18x196x196 : S_.BroadcastsInDim S256x18x196x196 (![] : Fin 0 → Fin S256x18x196x196.rank)
  bcast_S18x196x196_S1x18x196x196_1_2_3 : S18x196x196.BroadcastsInDim S1x18x196x196 (![1, 2, 3] : Fin 3 → Fin S1x18x196x196.rank)
  bcast_S1x18x196x196_S256x18x196x196_0_1_2_3 : S1x18x196x196.BroadcastsInDim S256x18x196x196 (![0, 1, 2, 3] : Fin 4 → Fin S256x18x196x196.rank)
  reducesTo_S256x18x196x196_S256x18x196_d3 : S256x18x196x196.ReducesTo [3] S256x18x196
  bcast_S_S256x18x196 : S_.BroadcastsInDim S256x18x196 (![] : Fin 0 → Fin S256x18x196.rank)
  bcast_S256x18x196_S256x18x196x1_0_1_2 : S256x18x196.BroadcastsInDim S256x18x196x1 (![0, 1, 2] : Fin 3 → Fin S256x18x196x1.rank)
  bcast_S256x18x196x1_S256x18x196x196_0_1_2_3 : S256x18x196x1.BroadcastsInDim S256x18x196x196 (![0, 1, 2, 3] : Fin 4 → Fin S256x18x196x196.rank)
  transposes_S256x18x196x128_S256x196x18x128_0_2_1_3 : S256x18x196x128.Transposes [0, 2, 1, 3] S256x196x18x128
  shapeCasts_S256x196x18x128_S256x196x2304 : S256x196x18x128.ShapeCasts S256x196x2304
  dot_S256x196x576_S576x3456_S256x196x3456_2_0_01_1_n_n_wf : DotDims.WF S256x196x576 S576x3456 S256x196x3456 [2] [0] [0, 1] [1] [] []
  gather_S18x196_S196x196x1_S18x196x196_0_1_n_n_1_2_181_wf : GatherDims.WF S18x196 S196x196x1 S18x196x196 [0] [1] [] [1] [] 2 ![18, 1]
  dot_S256x18x196x32_S256x18x196x32_S256x18x196x196_3_3_2_2_01_01_wf : DotDims.WF S256x18x196x32 S256x18x196x32 S256x18x196x196 [3] [3] [2] [2] [0, 1] [0, 1]
  dot_S256x18x196x196_S256x18x196x128_S256x18x196x128_3_2_2_3_01_01_wf : DotDims.WF S256x18x196x196 S256x18x196x128 S256x18x196x128 [3] [2] [2] [3] [0, 1] [0, 1]
  dot_S256x196x2304_S2304x576_S256x196x576_2_0_01_1_n_n_wf : DotDims.WF S256x196x2304 S2304x576 S256x196x576 [2] [0] [0, 1] [1] [] []

variable [Facts₀]

def dot_S256x196x576_S576x3456_S256x196x3456_2_0_01_1_n_n : DotDims S256x196x576 S576x3456 S256x196x3456 where
  lhsContracting := [2]
  rhsContracting := [0]
  lhsNonContracting := [0, 1]
  rhsNonContracting := [1]
  lhsBatch := []
  rhsBatch := []
  wf := dot_S256x196x576_S576x3456_S256x196x3456_2_0_01_1_n_n_wf
def gather_S18x196_S196x196x1_S18x196x196_0_1_n_n_1_2_181 : GatherDims S18x196 S196x196x1 S18x196x196 where
  offsetDims := [0]
  collapsedSliceDims := [1]
  operandBatchingDims := []
  startIndicesBatchingDims := []
  startIndexMap := [1]
  indexVectorDim := 2
  sliceSizes := ![18, 1]
  wf := gather_S18x196_S196x196x1_S18x196x196_0_1_n_n_1_2_181_wf
def dot_S256x18x196x32_S256x18x196x32_S256x18x196x196_3_3_2_2_01_01 : DotDims S256x18x196x32 S256x18x196x32 S256x18x196x196 where
  lhsContracting := [3]
  rhsContracting := [3]
  lhsNonContracting := [2]
  rhsNonContracting := [2]
  lhsBatch := [0, 1]
  rhsBatch := [0, 1]
  wf := dot_S256x18x196x32_S256x18x196x32_S256x18x196x196_3_3_2_2_01_01_wf
def dot_S256x18x196x196_S256x18x196x128_S256x18x196x128_3_2_2_3_01_01 : DotDims S256x18x196x196 S256x18x196x128 S256x18x196x128 where
  lhsContracting := [3]
  rhsContracting := [2]
  lhsNonContracting := [2]
  rhsNonContracting := [3]
  lhsBatch := [0, 1]
  rhsBatch := [0, 1]
  wf := dot_S256x18x196x196_S256x18x196x128_S256x18x196x128_3_2_2_3_01_01_wf
def dot_S256x196x2304_S2304x576_S256x196x576_2_0_01_1_n_n : DotDims S256x196x2304 S2304x576 S256x196x576 where
  lhsContracting := [2]
  rhsContracting := [0]
  lhsNonContracting := [0, 1]
  rhsNonContracting := [1]
  lhsBatch := []
  rhsBatch := []
  wf := dot_S256x196x2304_S2304x576_S256x196x576_2_0_01_1_n_n_wf

class Facts : Prop extends Facts₀ where

variable [Facts]
-- ==== Proof.Spec.lean ====
/-
  The function both programs compute, stated once over the extended reals, every index a coordinate of a
  literal extent.  A token row of 576 features is normalised (mean and variance over the row, a learned scale
  and shift), projected to 3456 columns laid out head by head as [query (32) | key (32) | value (128)]; each of
  the 18 heads scores a query token against the 196 key tokens of its batch element (a 32-term dot product,
  scaled, plus a bias per head, query and key), takes the softmax over the keys and averages the values with
  it; the 18 × 128 attended features of a token are projected back to 576 features.

  The other arrangement of the same projection is by sections, [all queries | all keys | all values]:
  `perm` sends a column of that arrangement to the column of the head-by-head one that holds the same entry.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-! ## Arrays as functions of their coordinates -/

/-- A rank-1 array read at its coordinate. -/
def cur1 {n : Nat} (X : (⟨1, ![n]⟩ : Shape).Idx → EReal) : Fin n → EReal := fun a => X (ix1 a)
/-- A rank-2 array read at its coordinates. -/
def cur2 {n0 n1 : Nat} (X : (⟨2, ![n0, n1]⟩ : Shape).Idx → EReal) : Fin n0 → Fin n1 → EReal := fun a b => X (ix2 a b)
/-- A rank-3 array read at its coordinates. -/
def cur3 {n0 n1 n2 : Nat} (X : (⟨3, ![n0, n1, n2]⟩ : Shape).Idx → EReal) : Fin n0 → Fin n1 → Fin n2 → EReal :=
  fun a b c => X (ix3 a b c)

/-! ## The constants, kept as their binary words -/

/-- 576, the number of features of a row. -/
def c576 : EReal := Ideal.ofBits .f32 0x44100000#32
/-- The variance's guard, the single-precision number nearest 1e-5. -/
def eps : EReal := Ideal.ofBits .f32 0x3727C5AC#32
/-- The score's scale, the single-precision number nearest 32^(-1/2). -/
def scale : EReal := Ideal.ofBits .f32 0x3E3504F3#32
/-- Minus infinity, the value a row maximum starts from. -/
def negInf : EReal := Ideal.ofBits .f32 0xFF800000#32

/-! ## One row normalised -/

/-- The mean of a row. -/
def mean (r : Fin 576 → EReal) : EReal := Ideal.div (∑ d : Fin 576, r d) c576
/-- A row's entry minus the row's mean. -/
def cen (r : Fin 576 → EReal) (d : Fin 576) : EReal := r d - mean r
/-- The variance of a row: the mean of the squared centred entries. -/
def var (r : Fin 576 → EReal) : EReal := Ideal.div (∑ d : Fin 576, cen r d * cen r d) c576
/-- The normalised row: centred, divided by the guarded standard deviation, scaled and shifted feature by feature. -/
def norm (r w b : Fin 576 → EReal) (d : Fin 576) : EReal := cen r d * Ideal.rsqrt (var r + eps) * w d + b d

/-! ## The columns of a head -/

/-- Column of head `h`'s query feature `k`. -/
def qcol (h : Fin 18) (k : Fin 32) : Fin 3456 := ⟨h.val * 192 + k.val, by omega⟩
/-- Column of head `h`'s key feature `k`. -/
def kcol (h : Fin 18) (k : Fin 32) : Fin 3456 := ⟨h.val * 192 + 32 + k.val, by omega⟩
/-- Column of head `h`'s value feature `d`. -/
def vcol (h : Fin 18) (d : Fin 128) : Fin 3456 := ⟨h.val * 192 + 64 + d.val, by omega⟩
/-- The head an attended feature belongs to. -/
def headOf (j : Fin 2304) : Fin 18 := ⟨j.val / 128, by omega⟩
/-- Its place among that head's 128 value features. -/
def featOf (j : Fin 2304) : Fin 128 := ⟨j.val % 128, by omega⟩

/-! ## The whole function -/

section Whole

variable (x : Fin 256 → Fin 196 → Fin 576 → EReal) (lnw lnb : Fin 576 → EReal)
  (wq : Fin 576 → Fin 3456 → EReal) (bq : Fin 3456 → EReal)
  (wp : Fin 2304 → Fin 576 → EReal) (bp : Fin 576 → EReal)
  (bias : Fin 18 → Fin 196 → Fin 196 → EReal)

/-- The projection of token `n` of batch element `b` at column `col`. -/
def qkv (b : Fin 256) (n : Fin 196) (col : Fin 3456) : EReal :=
  (∑ d : Fin 576, norm (x b n) lnw lnb d * wq d col) + bq col

/-- Head `h`'s score of query token `n` against key token `m`. -/
def score (b : Fin 256) (h : Fin 18) (n m : Fin 196) : EReal :=
  (∑ k : Fin 32, qkv x lnw lnb wq bq b n (qcol h k) * qkv x lnw lnb wq bq b m (kcol h k)) * scale + bias h n m

/-- The largest score of a query token, from minus infinity. -/
def rowmax (b : Fin 256) (h : Fin 18) (n : Fin 196) : EReal :=
  max negInf ((Finset.univ : Finset (Fin 196)).fold max negInf fun m => score x lnw lnb wq bq bias b h n m)

/-- The exponential of a score minus its row's maximum. -/
def ex (b : Fin 256) (h : Fin 18) (n m : Fin 196) : EReal :=
  Ideal.exp (score x lnw lnb wq bq bias b h n m - rowmax x lnw lnb wq bq bias b h n)

/-- The sum of a row's exponentials. -/
def den (b : Fin 256) (h : Fin 18) (n : Fin 196) : EReal := ∑ m : Fin 196, ex x lnw lnb wq bq bias b h n m

/-- The softmax weight of key token `m` for query token `n`. -/
def prob (b : Fin 256) (h : Fin 18) (n m : Fin 196) : EReal :=
  Ideal.div (ex x lnw lnb wq bq bias b h n m) (den x lnw lnb wq bq bias b h n)

/-- Head `h`'s attended value feature `d` of token `n`. -/
def att (b : Fin 256) (h : Fin 18) (n : Fin 196) (d : Fin 128) : EReal :=
  ∑ m : Fin 196, prob x lnw lnb wq bq bias b h n m * qkv x lnw lnb wq bq b m (vcol h d)

/-- The result: the attended features of a token, head after head, projected to 576 features. -/
def out (b : Fin 256) (n : Fin 196) (e : Fin 576) : EReal :=
  (∑ j : Fin 2304, att x lnw lnb wq bq bias b (headOf j) n (featOf j) * wp j e) + bp e

end Whole

/-! ## The arrangement by sections -/

/-- Column `j` of the arrangement [all queries | all keys | all values] as a column of the head-by-head one. -/
def permNat (j : Nat) : Nat :=
  if j < 576 then j / 32 * 192 + j % 32
  else if j < 1152 then (j - 576) / 32 * 192 + 32 + (j - 576) % 32
  else (j - 1152) / 128 * 192 + 64 + (j - 1152) % 128

theorem permNat_lt (j : Nat) (h : j < 3456) : permNat j < 3456 := by
  unfold permNat; split_ifs <;> omega

/-- The same on columns. -/
def perm (j : Fin 3456) : Fin 3456 := ⟨permNat j.val, permNat_lt _ j.isLt⟩

/-- In the query section, column 32·h + k holds head `h`'s query feature `k`. -/
theorem perm_q (h : Fin 18) (k : Fin 32) (hl : h.val * 32 + k.val < 3456) : perm ⟨h.val * 32 + k.val, hl⟩ = qcol h k := by
  apply Fin.ext; simp only [perm, permNat, qcol]; split_ifs <;> omega

/-- In the key section, column 576 + 32·h + k holds head `h`'s key feature `k`. -/
theorem perm_k (h : Fin 18) (k : Fin 32) (hl : 576 + h.val * 32 + k.val < 3456) :
    perm ⟨576 + h.val * 32 + k.val, hl⟩ = kcol h k := by
  apply Fin.ext; simp only [perm, permNat, kcol]; split_ifs <;> omega

/-- In the value section, column 1152 + 128·h + d holds head `h`'s value feature `d`. -/
theorem perm_v (h : Fin 18) (d : Fin 128) (hl : 1152 + h.val * 128 + d.val < 3456) :
    perm ⟨1152 + h.val * 128 + d.val, hl⟩ = vcol h d := by
  apply Fin.ext; simp only [perm, permNat, vcol]; split_ifs <;> omega

end Cert.Spec

end
-- ==== Proof.RefSide.lean ====
/-
  The reference program's last stage is the specification.

  Each stage of the reference is read at explicit coordinates and identified with the matching piece of
  `Cert.Spec`: the row mean and variance, the normalised row, the projection to 3456 columns, the three
  head-by-head pieces (query, key, value), the scores, the row maximum, the exponentials, their row sum, the
  softmax weights, the attended values, their arrangement head after head, and the final projection.
  Sums are only re-indexed, never re-ordered, so nothing here needs the entries to be finite.
-/
import proofs.«115814_j15985868275953_2_alg».proof.Proof.Gen.ReferenceIdeal.Read
import proofs.«115814_j15985868275953_2_alg».proof.Proof.Spec
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Cert.ReferenceIdeal.Read
open Idealize.ShloMosaic Idealize.ShloMosaic.ValueIdx

variable (x0 : (⟨S256x196x576, .f32⟩ : BufTy).Contents (Elt Ideal))
  (x1 x2 : (⟨S576, .f32⟩ : BufTy).Contents (Elt Ideal))
  (x3 : (⟨S576x3456, .f32⟩ : BufTy).Contents (Elt Ideal))
  (x4 : (⟨S3456, .f32⟩ : BufTy).Contents (Elt Ideal))
  (x5 : (⟨S2304x576, .f32⟩ : BufTy).Contents (Elt Ideal))
  (x6 : (⟨S576, .f32⟩ : BufTy).Contents (Elt Ideal))
  (x7 : (⟨S18x196, .f32⟩ : BufTy).Contents (Elt Ideal))
  (x8 : (⟨S196x196, .i32⟩ : BufTy).Contents (Elt Ideal))

/-! ## One row: mean, centred entries, variance, the normalised row -/

/-- The sum of a row, from the zero word. -/
theorem rowsum_eq (b : Fin 256) (n : Fin 196) :
    val_main_v0 (F := Ideal) x0 (ix2 b n) = ∑ d : Fin 576, x0 (ix3 b n d) := by
  rw [val_main_v0_apply, val_main_cst_apply, Ideal.ofBits_def, Ideal.ofBits_zero_f32, zero_add]
  exact Finset.sum_congr rfl fun k _ => congrArg x0
    (funext fun a => by match a with | ⟨0, _⟩ => rfl | ⟨1, _⟩ => rfl | ⟨2, _⟩ => rfl)

/-- The mean of row (b, n). -/
theorem mean_eq (b : Fin 256) (n : Fin 196) :
    val_main_v3 (F := Ideal) x0 (ix3 b n (0 : Fin 1)) = Spec.mean (Spec.cur3 x0 b n) := by
  have e : idx_main_v1 (ix3 b n (0 : Fin 1)) = ix2 b n :=
    funext fun a => by match a with | ⟨0, _⟩ => rfl | ⟨1, _⟩ => rfl
  rw [val_main_v3_apply, val_main_v1_apply, val_main_v2_apply, val_main_cst_0_apply, e, rowsum_eq]
  rfl

/-- A row's entry minus the row's mean (the copy the variance is built from). -/
theorem cen_eq (b : Fin 256) (n : Fin 196) (d : Fin 576) :
    val_main_v5 (F := Ideal) x0 (ix3 b n d) = Spec.cen (Spec.cur3 x0 b n) d := by
  have e : idx_main_v4 (ix3 b n d) = ix3 b n (0 : Fin 1) :=
    funext fun a => by match a with | ⟨0, _⟩ => rfl | ⟨1, _⟩ => rfl | ⟨2, _⟩ => rfl
  rw [val_main_v5_apply, val_main_v4_apply, e, mean_eq]
  rfl

/-- The variance of row (b, n). -/
theorem var_eq (b : Fin 256) (n : Fin 196) :
    val_main_v10 (F := Ideal) x0 (ix3 b n (0 : Fin 1)) = Spec.var (Spec.cur3 x0 b n) := by
  have e : ∀ k : Fin 576, idx_main_v7 (idx_main_v8 (ix3 b n (0 : Fin 1))) k = ix3 b n k :=
    fun k => funext fun a => by match a with | ⟨0, _⟩ => rfl | ⟨1, _⟩ => rfl | ⟨2, _⟩ => rfl
  rw [val_main_v10_apply, val_main_v8_apply, val_main_v9_apply, val_main_cst_2_apply, val_main_v7_apply,
    val_main_cst_1_apply, Ideal.ofBits_def, Ideal.ofBits_zero_f32, zero_add]
  simp only [e, val_main_v6_apply, cen_eq]
  rfl

/-- The normalised row (b, n) at feature d. -/
theorem norm_eq (b : Fin 256) (n : Fin 196) (d : Fin 576) :
    val_main_v23 (F := Ideal) x0 x1 x2 (ix3 b n d)
      = Spec.norm (Spec.cur3 x0 b n) (Spec.cur1 x1) (Spec.cur1 x2) d := by
  have e11 : idx_main_v11 (ix3 b n d) = ix3 b n (0 : Fin 1) :=
    funext fun a => by match a with | ⟨0, _⟩ => rfl | ⟨1, _⟩ => rfl | ⟨2, _⟩ => rfl
  have e16 : idx_main_v16 (ix3 b n d) = ix3 b n (0 : Fin 1) :=
    funext fun a => by match a with | ⟨0, _⟩ => rfl | ⟨1, _⟩ => rfl | ⟨2, _⟩ => rfl
  have e18 : idx_main_v18 (idx_main_v19 (ix3 b n d)) = ix1 d :=
    funext fun a => by match a with | ⟨0, _⟩ => rfl
  have e21 : idx_main_v21 (idx_main_v22 (ix3 b n d)) = ix1 d :=
    funext fun a => by match a with | ⟨0, _⟩ => rfl
  rw [val_main_v23_apply, val_main_v20_apply, val_main_v17_apply, val_main_v12_apply, val_main_v11_apply,
    val_main_v16_apply, val_main_v15_apply, val_main_v14_apply, val_main_v13_apply, val_main_cst_3_apply,
    val_main_v19_apply, val_main_v18_apply, val_main_v22_apply, val_main_v21_apply,
    e11, e16, e18, e21, mean_eq, var_eq]
  rfl

/-! ## The projection to 3456 columns -/

/-- The projection of token (b, n) at column col. -/
theorem qkv_eq (b : Fin 256) (n : Fin 196) (col : Fin 3456) :
    val_main_v27 (F := Ideal) x0 x1 x2 x3 x4 (ix3 b n col)
      = Spec.qkv (Spec.cur3 x0) (Spec.cur1 x1) (Spec.cur1 x2) (Spec.cur2 x3) (Spec.cur1 x4) b n col := by
  have e25 : idx_main_v25 (idx_main_v26 (ix3 b n col)) = ix1 col :=
    funext fun a => by match a with | ⟨0, _⟩ => rfl
  have el : ∀ k : Fin 576, lidx_main_v24 (ix3 b n col) k = ix3 b n k :=
    fun k => funext fun a => by match a with | ⟨0, _⟩ => rfl | ⟨1, _⟩ => rfl | ⟨2, _⟩ => rfl
  have er : ∀ k : Fin 576, ridx_main_v24 (ix3 b n col) k = ix2 k col :=
    fun k => funext fun a => by match a with | ⟨0, _⟩ => rfl | ⟨1, _⟩ => rfl
  rw [val_main_v27_apply, val_main_v24_apply, val_main_v26_apply, val_main_v25_apply, e25]
  simp only [el, er, norm_eq]
  rfl

/-! ## Query, key and value of a head -/

/-- Head h's query feature k of token (b, n): the projection at column 192·h + k. -/
theorem q_eq (b : Fin 256) (h : Fin 18) (n : Fin 196) (k : Fin 32) :
    val_main_v30 (F := Ideal) x0 x1 x2 x3 x4 (ix4 b h n k)
      = Spec.qkv (Spec.cur3 x0) (Spec.cur1 x1) (Spec.cur1 x2) (Spec.cur2 x3) (Spec.cur1 x4) b n (Spec.qcol h k) := by
  have e : idx_main_v28 (idx_main_v29 (idx_main_v30 (ix4 b h n k))) = ix3 b n (Spec.qcol h k) := by
    have hb := b.isLt; have hh := h.isLt; have hn := n.isLt; have hk := k.isLt
    funext a; apply Fin.ext
    match a with
    | ⟨0, _⟩ => show (((b.val * 196 + n.val) * 18 + h.val) * 192 + k.val) / 677376 = b.val; omega
    | ⟨1, _⟩ => show (((b.val * 196 + n.val) * 18 + h.val) * 192 + k.val) / 3456 % 196 = n.val; omega
    | ⟨2, _⟩ => show (((b.val * 196 + n.val) * 18 + h.val) * 192 + k.val) % 3456 = h.val * 192 + k.val; omega
  rw [val_main_v30_apply, val_main_v29_apply, val_main_v28_apply, e, qkv_eq]

/-- Head h's key feature k of token (b, n): the projection at column 192·h + 32 + k. -/
theorem k_eq (b : Fin 256) (h : Fin 18) (n : Fin 196) (k : Fin 32) :
    val_main_v31 (F := Ideal) x0 x1 x2 x3 x4 (ix4 b h n k)
      = Spec.qkv (Spec.cur3 x0) (Spec.cur1 x1) (Spec.cur1 x2) (Spec.cur2 x3) (Spec.cur1 x4) b n (Spec.kcol h k) := by
  have e : idx_main_v28 (idx_main_v29 (idx_main_v31 (ix4 b h n k))) = ix3 b n (Spec.kcol h k) := by
    have hb := b.isLt; have hh := h.isLt; have hn := n.isLt; have hk := k.isLt
    funext a; apply Fin.ext
    match a with
    | ⟨0, _⟩ => show (((b.val * 196 + n.val) * 18 + h.val) * 192 + (32 + k.val)) / 677376 = b.val; omega
    | ⟨1, _⟩ => show (((b.val * 196 + n.val) * 18 + h.val) * 192 + (32 + k.val)) / 3456 % 196 = n.val; omega
    | ⟨2, _⟩ => show (((b.val * 196 + n.val) * 18 + h.val) * 192 + (32 + k.val)) % 3456 = h.val * 192 + 32 + k.val; omega
  rw [val_main_v31_apply, val_main_v29_apply, val_main_v28_apply, e, qkv_eq]

/-- Head h's value feature d of token (b, n): the projection at column 192·h + 64 + d. -/
theorem v_eq (b : Fin 256) (h : Fin 18) (n : Fin 196) (d : Fin 128) :
    val_main_v32 (F := Ideal) x0 x1 x2 x3 x4 (ix4 b h n d)
      = Spec.qkv (Spec.cur3 x0) (Spec.cur1 x1) (Spec.cur1 x2) (Spec.cur2 x3) (Spec.cur1 x4) b n (Spec.vcol h d) := by
  have e : idx_main_v28 (idx_main_v29 (idx_main_v32 (ix4 b h n d))) = ix3 b n (Spec.vcol h d) := by
    have hb := b.isLt; have hh := h.isLt; have hn := n.isLt; have hd := d.isLt
    funext a; apply Fin.ext
    match a with
    | ⟨0, _⟩ => show (((b.val * 196 + n.val) * 18 + h.val) * 192 + (64 + d.val)) / 677376 = b.val; omega
    | ⟨1, _⟩ => show (((b.val * 196 + n.val) * 18 + h.val) * 192 + (64 + d.val)) / 3456 % 196 = n.val; omega
    | ⟨2, _⟩ => show (((b.val * 196 + n.val) * 18 + h.val) * 192 + (64 + d.val)) % 3456 = h.val * 192 + 64 + d.val; omega
  rw [val_main_v32_apply, val_main_v29_apply, val_main_v28_apply, e, qkv_eq]

/-! ## Scores and the softmax over the keys -/

/-- Head h's score of query token n against key token m, the gathered bias kept as it is. -/
theorem score_eq (b : Fin 256) (h : Fin 18) (n m : Fin 196) :
    val_main_v45 (F := Ideal) x0 x1 x2 x3 x4 x7 x8 (ix4 b h n m)
      = Spec.score (Spec.cur3 x0) (Spec.cur1 x1) (Spec.cur1 x2) (Spec.cur2 x3) (Spec.cur1 x4)
          (Spec.cur3 (val_main_v39 (F := Ideal) x7 x8)) b h n m := by
  have e43 : idx_main_v43 (idx_main_v44 (ix4 b h n m)) = ix3 h n m :=
    funext fun a => by match a with | ⟨0, _⟩ => rfl | ⟨1, _⟩ => rfl | ⟨2, _⟩ => rfl
  have el : ∀ k : Fin 32, lidx_main_v40 (ix4 b h n m) k = ix4 b h n k :=
    fun k => funext fun a => by match a with | ⟨0, _⟩ => rfl | ⟨1, _⟩ => rfl | ⟨2, _⟩ => rfl | ⟨3, _⟩ => rfl
  have er : ∀ k : Fin 32, ridx_main_v40 (ix4 b h n m) k = ix4 b h m k :=
    fun k => funext fun a => by match a with | ⟨0, _⟩ => rfl | ⟨1, _⟩ => rfl | ⟨2, _⟩ => rfl | ⟨3, _⟩ => rfl
  rw [val_main_v45_apply, val_main_v42_apply, val_main_v40_apply, val_main_v41_apply, val_main_cst_5_apply,
    val_main_v44_apply, val_main_v43_apply, e43]
  simp only [el, er, q_eq, k_eq]
  rfl

/-- The reduced index (b, h, n) with key token k put back is (b, h, n, k). -/
private theorem lift_ix4 (hr : S256x18x196x196.Reduces [3] S256x18x196) (b : Fin 256) (h : Fin 18) (n : Fin 196)
    (k : Fin (S256x18x196x196.size 3)) : hr.lift (ix3 b h n) k = ix4 b h n (⟨k.val, k.isLt⟩ : Fin 196) := by
  funext c; apply Fin.ext
  fin_cases c <;> rfl

/-- The maximum of a query token's scores over the key tokens, from minus infinity. -/
theorem scoremax_eq (b : Fin 256) (h : Fin 18) (n : Fin 196) :
    val_main_v46 (F := Ideal) x0 x1 x2 x3 x4 x7 x8 (ix3 b h n)
      = (Finset.univ : Finset (Fin 196)).fold max Spec.negInf fun m =>
          Spec.score (Spec.cur3 x0) (Spec.cur1 x1) (Spec.cur1 x2) (Spec.cur2 x3) (Spec.cur1 x4)
            (Spec.cur3 (val_main_v39 (F := Ideal) x7 x8)) b h n m := by
  have hr : S256x18x196x196.Reduces [3] S256x18x196 := by decide
  unfold val_main_v46
  rw [Host.reduce_eq_fold_single FloatOps.maximumf _ _ reducesTo_S256x18x196x196_S256x18x196_d3 hr h_S_]
  have hf : (val_main_v45 (F := Ideal) x0 x1 x2 x3 x4 x7 x8 ∘ hr.lift (ix3 b h n))
      = fun m : Fin 196 => Spec.score (Spec.cur3 x0) (Spec.cur1 x1) (Spec.cur1 x2) (Spec.cur2 x3) (Spec.cur1 x4)
          (Spec.cur3 (val_main_v39 (F := Ideal) x7 x8)) b h n m :=
    funext fun k => by
      show val_main_v45 (F := Ideal) x0 x1 x2 x3 x4 x7 x8 (hr.lift (ix3 b h n) k) = _
      rw [lift_ix4 hr b h n k, score_eq]
      rfl
  exact congrArg (fun f => Finset.fold max Spec.negInf f (Finset.univ : Finset (Fin 196))) hf

/-- The largest score of a query token. -/
theorem rowmax_eq (b : Fin 256) (h : Fin 18) (n : Fin 196) :
    val_main_v48 (F := Ideal) x0 x1 x2 x3 x4 x7 x8 (ix3 b h n)
      = Spec.rowmax (Spec.cur3 x0) (Spec.cur1 x1) (Spec.cur1 x2) (Spec.cur2 x3) (Spec.cur1 x4)
          (Spec.cur3 (val_main_v39 (F := Ideal) x7 x8)) b h n := by
  rw [val_main_v48_apply, val_main_v47_apply, val_main_cst_7_apply, scoremax_eq]
  rfl

/-- The exponential of a score minus its row's maximum. -/
theorem ex_eq (b : Fin 256) (h : Fin 18) (n m : Fin 196) :
    val_main_v52 (F := Ideal) x0 x1 x2 x3 x4 x7 x8 (ix4 b h n m)
      = Spec.ex (Spec.cur3 x0) (Spec.cur1 x1) (Spec.cur1 x2) (Spec.cur2 x3) (Spec.cur1 x4)
          (Spec.cur3 (val_main_v39 (F := Ideal) x7 x8)) b h n m := by
  have e : idx_main_v49 (idx_main_v50 (ix4 b h n m)) = ix3 b h n :=
    funext fun a => by match a with | ⟨0, _⟩ => rfl | ⟨1, _⟩ => rfl | ⟨2, _⟩ => rfl
  rw [val_main_v52_apply, val_main_v51_apply, val_main_v50_apply, val_main_v49_apply, e, score_eq, rowmax_eq]
  rfl

/-- The sum of a row's exponentials, from the zero word. -/
theorem den_eq (b : Fin 256) (h : Fin 18) (n : Fin 196) :
    val_main_v53 (F := Ideal) x0 x1 x2 x3 x4 x7 x8 (ix3 b h n)
      = Spec.den (Spec.cur3 x0) (Spec.cur1 x1) (Spec.cur1 x2) (Spec.cur2 x3) (Spec.cur1 x4)
          (Spec.cur3 (val_main_v39 (F := Ideal) x7 x8)) b h n := by
  have e : ∀ k : Fin 196, idx_main_v53 (ix3 b h n) k = ix4 b h n k :=
    fun k => funext fun a => by match a with | ⟨0, _⟩ => rfl | ⟨1, _⟩ => rfl | ⟨2, _⟩ => rfl | ⟨3, _⟩ => rfl
  rw [val_main_v53_apply, val_main_cst_8_apply, Ideal.ofBits_def, Ideal.ofBits_zero_f32, zero_add]
  simp only [e, ex_eq]
  rfl

/-- The softmax weight of key token m for query token n. -/
theorem prob_eq (b : Fin 256) (h : Fin 18) (n m : Fin 196) :
    val_main_v56 (F := Ideal) x0 x1 x2 x3 x4 x7 x8 (ix4 b h n m)
      = Spec.prob (Spec.cur3 x0) (Spec.cur1 x1) (Spec.cur1 x2) (Spec.cur2 x3) (Spec.cur1 x4)
          (Spec.cur3 (val_main_v39 (F := Ideal) x7 x8)) b h n m := by
  have e : idx_main_v54 (idx_main_v55 (ix4 b h n m)) = ix3 b h n :=
    funext fun a => by match a with | ⟨0, _⟩ => rfl | ⟨1, _⟩ => rfl | ⟨2, _⟩ => rfl
  rw [val_main_v56_apply, val_main_v55_apply, val_main_v54_apply, e, ex_eq, den_eq]
  rfl

/-! ## The attended values and the final projection -/

/-- Head h's attended value feature d of token n. -/
theorem att_eq (b : Fin 256) (h : Fin 18) (n : Fin 196) (d : Fin 128) :
    val_main_v57 (F := Ideal) x0 x1 x2 x3 x4 x7 x8 (ix4 b h n d)
      = Spec.att (Spec.cur3 x0) (Spec.cur1 x1) (Spec.cur1 x2) (Spec.cur2 x3) (Spec.cur1 x4)
          (Spec.cur3 (val_main_v39 (F := Ideal) x7 x8)) b h n d := by
  have el : ∀ k : Fin 196, lidx_main_v57 (ix4 b h n d) k = ix4 b h n k :=
    fun k => funext fun a => by match a with | ⟨0, _⟩ => rfl | ⟨1, _⟩ => rfl | ⟨2, _⟩ => rfl | ⟨3, _⟩ => rfl
  have er : ∀ k : Fin 196, ridx_main_v57 (ix4 b h n d) k = ix4 b h k d :=
    fun k => funext fun a => by match a with | ⟨0, _⟩ => rfl | ⟨1, _⟩ => rfl | ⟨2, _⟩ => rfl | ⟨3, _⟩ => rfl
  rw [val_main_v57_apply]
  simp only [el, er, prob_eq, v_eq]
  rfl

/-- The attended features of a token laid head after head: feature j belongs to head j / 128, place j % 128. -/
theorem cat_eq (b : Fin 256) (n : Fin 196) (j : Fin 2304) :
    val_main_v59 (F := Ideal) x0 x1 x2 x3 x4 x7 x8 (ix3 b n j)
      = Spec.att (Spec.cur3 x0) (Spec.cur1 x1) (Spec.cur1 x2) (Spec.cur2 x3) (Spec.cur1 x4)
          (Spec.cur3 (val_main_v39 (F := Ideal) x7 x8)) b (Spec.headOf j) n (Spec.featOf j) := by
  have e : idx_main_v58 (idx_main_v59 (ix3 b n j)) = ix4 b (Spec.headOf j) n (Spec.featOf j) := by
    have hb := b.isLt; have hn := n.isLt; have hj := j.isLt
    funext a; apply Fin.ext
    match a with
    | ⟨0, _⟩ => show ((b.val * 196 + n.val) * 2304 + j.val) / 451584 = b.val; omega
    | ⟨1, _⟩ => show ((b.val * 196 + n.val) * 2304 + j.val) / 128 % 18 = j.val / 128; omega
    | ⟨2, _⟩ => show ((b.val * 196 + n.val) * 2304 + j.val) / 2304 % 196 = n.val; omega
    | ⟨3, _⟩ => show ((b.val * 196 + n.val) * 2304 + j.val) % 128 = j.val % 128; omega
  rw [val_main_v59_apply, val_main_v58_apply, e, att_eq]

/-- The result at token (b, n), feature e. -/
theorem out_eq (b : Fin 256) (n : Fin 196) (e : Fin 576) :
    val_main_v63 (F := Ideal) x0 x1 x2 x3 x4 x5 x6 x7 x8 (ix3 b n e)
      = Spec.out (Spec.cur3 x0) (Spec.cur1 x1) (Spec.cur1 x2) (Spec.cur2 x3) (Spec.cur1 x4) (Spec.cur2 x5) (Spec.cur1 x6)
          (Spec.cur3 (val_main_v39 (F := Ideal) x7 x8)) b n e := by
  have e61 : idx_main_v61 (idx_main_v62 (ix3 b n e)) = ix1 e :=
    funext fun a => by match a with | ⟨0, _⟩ => rfl
  have el : ∀ k : Fin 2304, lidx_main_v60 (ix3 b n e) k = ix3 b n k :=
    fun k => funext fun a => by match a with | ⟨0, _⟩ => rfl | ⟨1, _⟩ => rfl | ⟨2, _⟩ => rfl
  have er : ∀ k : Fin 2304, ridx_main_v60 (ix3 b n e) k = ix2 k e :=
    fun k => funext fun a => by match a with | ⟨0, _⟩ => rfl | ⟨1, _⟩ => rfl
  rw [val_main_v63_apply, val_main_v60_apply, val_main_v62_apply, val_main_v61_apply, e61]
  simp only [el, er, cat_eq]
  rfl

/-- The reference's last stage, as one function of the argument arrays, is the specification
    (the gathered bias is kept as the array the reference computes). -/
theorem ref_eq :
    val_main_v63 (F := Ideal) x0 x1 x2 x3 x4 x5 x6 x7 x8
      = fun i => Spec.out (Spec.cur3 x0) (Spec.cur1 x1) (Spec.cur1 x2) (Spec.cur2 x3) (Spec.cur1 x4) (Spec.cur2 x5)
          (Spec.cur1 x6) (Spec.cur3 (val_main_v39 (F := Ideal) x7 x8)) (i 0) (i 1) (i 2) := by
  funext i
  exact (congrArg (val_main_v63 (F := Ideal) x0 x1 x2 x3 x4 x5 x6 x7 x8) (eq_ix3 i)).trans
    (out_eq x0 x1 x2 x3 x4 x5 x6 x7 x8 (i 0) (i 1) (i 2))

end Cert.RefSide

end
-- ==== Proof.KBlock.lean ====
/-
  What one grid point's body leaves in its output block, as ONE function of the eight input blocks.

  The body first fills a 784 × 3456 scratch with the projection of the point's 4 × 196 normalised token rows
  (columns arranged [all queries | all keys | all values]); then, for each of three chunks of six heads, it
  reads that chunk's query, key and value columns and its six bias planes, and fills a 768-column section of a
  784 × 2304 scratch with the chunk's attended features; finally it multiplies that scratch by the output
  weights, adds the output bias and stores the block.  Nothing is carried from one grid point to the next: every
  scratch entry read was written earlier at the same point, so the block is a pure term of the inputs.
-/
import proofs.«115814_j15985868275953_2_alg».proof.Proof.Gen.KernelIdeal.Frame
import Idealize.ShloMosaic.Lib.Pipeline.Value
import Idealize.ShloMosaic.Lib.Tactic

set_option maxRecDepth 16384

noncomputable section

namespace Cert.KBlock

open Idealize.ShloMosaic Idealize.ShloMosaic.TcCoe Idealize.SL.Sem
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A load through any rectangle of a buffer that ONE whole store filled reads the stored array through the rectangle. -/
theorem readCov_one_whole {sig : RefSig} {κ : Kind} {sp : Space} {S : Shape} {e : EltTy} {Val : EltTy → Type} [∀ e, Nonempty (Val e)]
    (v : View sig κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩),
    View.canon_unit_zero h]

/-- Heads 0–5: their query columns 0–191, key columns 576–767, value columns 1152–1919, bias planes 0–5. -/
def chunk0 (P : FVec F S784x3456 .f32) (x7 : Vec F S18x196x196 .f32) : FVec F S784x768 .bf16 :=
  k0_pay4 (View.ld P (Rect.unit (s := S784x3456) ![0, 0] S784x192.size inb_S784x3456_S784x192_0_0))
    (View.ld P (Rect.unit (s := S784x3456) ![0, 576] S784x192.size inb_S784x3456_S784x192_0_576))
    (View.ld P (Rect.unit (s := S784x3456) ![0, 1152] S784x768.size inb_S784x3456_S784x768_0_1152))
    (View.ld x7 (Rect.unit (s := S18x196x196) ![0, 0, 0] S6x196x196.size inb_S18x196x196_S6x196x196_0_0_0))

/-- Heads 6–11: query columns 192–383, key columns 768–959, value columns 1920–2687, bias planes 6–11. -/
def chunk1 (P : FVec F S784x3456 .f32) (x7 : Vec F S18x196x196 .f32) : FVec F S784x768 .bf16 :=
  k0_pay6 (k0_pay5 (View.ld P (Rect.unit (s := S784x3456) ![0, 192] S784x192.size inb_S784x3456_S784x192_0_192))
    (View.ld P (Rect.unit (s := S784x3456) ![0, 768] S784x192.size inb_S784x3456_S784x192_0_768))
    (View.ld P (Rect.unit (s := S784x3456) ![0, 1920] S784x768.size inb_S784x3456_S784x768_0_1920))
    (View.ld x7 (Rect.unit (s := S18x196x196) ![6, 0, 0] S6x196x196.size inb_S18x196x196_S6x196x196_6_0_0)))

/-- Heads 12–17: query columns 384–575, key columns 960–1151, value columns 2688–3455, bias planes 12–17. -/
def chunk2 (P : FVec F S784x3456 .f32) (x7 : Vec F S18x196x196 .f32) : FVec F S784x768 .bf16 :=
  k0_pay1 (k0_pay7 (View.ld P (Rect.unit (s := S784x3456) ![0, 384] S784x192.size inb_S784x3456_S784x192_0_384))
    (View.ld P (Rect.unit (s := S784x3456) ![0, 960] S784x192.size inb_S784x3456_S784x192_0_960))
    (View.ld P (Rect.unit (s := S784x3456) ![0, 2688] S784x768.size inb_S784x3456_S784x768_0_2688))
    (View.ld x7 (Rect.unit (s := S18x196x196) ![12, 0, 0] S6x196x196.size inb_S18x196x196_S6x196x196_12_0_0)))

/-- The three sections of the attended-feature scratch, last written first. -/
def headPieces (P : FVec F S784x3456 .f32) (x7 : Vec F S18x196x196 .f32) : List (View.Piece (Elt F) S784x2304 .bf16) :=
  [⟨Rect.unit (s := S784x2304) ![0, 1536] S784x768.size inb_S784x2304_S784x768_0_1536, chunk2 P x7⟩,
   ⟨Rect.unit (s := S784x2304) ![0, 768] S784x768.size inb_S784x2304_S784x768_0_768, chunk1 P x7⟩,
   ⟨Rect.unit (s := S784x2304) ![0, 0] S784x768.size inb_S784x2304_S784x768_0_0, chunk0 P x7⟩]

/-- The attended features of the point's 784 token rows, 18 heads × 128 features each. -/
def heads (P : FVec F S784x3456 .f32) (x7 : Vec F S18x196x196 .f32) : S784x2304.Idx → Elt F .bf16 :=
  View.canon (headPieces P x7)

/-- The block a grid point stores, of its input blocks. -/
def blockFn (x0 : Vec F S4x196x576 .f32) (x1 : Vec F S576 .f32) (x2 : Vec F S576 .f32) (x3 : Vec F S576x3456 .bf16)
    (x4 : Vec F S3456 .f32) (x5 : Vec F S2304x576 .bf16) (x6 : Vec F S576 .f32) (x7 : Vec F S18x196x196 .f32) :
    Vec F S4x196x576 .f32 :=
  k0_pay2 (heads (k0_pay3 x0 x1 x2 x3 x4) x7) x5 x6

/-- The three sections tile the 2304 columns. -/
theorem headPieces_cover (P : FVec F S784x3456 .f32) (x7 : Vec F S18x196x196 .f32) (y : S784x2304.Idx) :
    ∃ p ∈ headPieces P x7, y ∈ p.1.set := by
  have h0 : (y 0).val < 784 := (y 0).isLt
  have h1 : (y 1).val < 2304 := (y 1).isLt
  by_cases ha : (y 1).val < 768
  · refine ⟨⟨Rect.unit (s := S784x2304) ![0, 0] S784x768.size inb_S784x2304_S784x768_0_0, chunk0 P x7⟩,
      List.mem_cons_of_mem _ (List.mem_cons_of_mem _ (List.mem_singleton_self _)), ?_⟩
    show y ∈ (Rect.unit (s := S784x2304) ![0, 0] S784x768.size inb_S784x2304_S784x768_0_0).set
    refine Rect.mem_set_unit.mpr fun a => ?_
    match a with
    | ⟨0, _⟩ => exact ⟨Nat.zero_le _, by show (y 0).val < 0 + 784; omega⟩
    | ⟨1, _⟩ => exact ⟨Nat.zero_le _, by show (y 1).val < 0 + 768; omega⟩
  · by_cases hb : (y 1).val < 1536
    · refine ⟨⟨Rect.unit (s := S784x2304) ![0, 768] S784x768.size inb_S784x2304_S784x768_0_768, chunk1 P x7⟩,
        List.mem_cons_of_mem _ (List.mem_cons_self ..), ?_⟩
      show y ∈ (Rect.unit (s := S784x2304) ![0, 768] S784x768.size inb_S784x2304_S784x768_0_768).set
      refine Rect.mem_set_unit.mpr fun a => ?_
      match a with
      | ⟨0, _⟩ => exact ⟨Nat.zero_le _, by show (y 0).val < 0 + 784; omega⟩
      | ⟨1, _⟩ => exact ⟨by show 768 ≤ (y 1).val; omega, by show (y 1).val < 768 + 768; omega⟩
    · refine ⟨⟨Rect.unit (s := S784x2304) ![0, 1536] S784x768.size inb_S784x2304_S784x768_0_1536, chunk2 P x7⟩,
        List.mem_cons_self .., ?_⟩
      show y ∈ (Rect.unit (s := S784x2304) ![0, 1536] S784x768.size inb_S784x2304_S784x768_0_1536).set
      refine Rect.mem_set_unit.mpr fun a => ?_
      match a with
      | ⟨0, _⟩ => exact ⟨Nat.zero_le _, by show (y 0).val < 0 + 784; omega⟩
      | ⟨1, _⟩ => exact ⟨by show 1536 ≤ (y 1).val; omega, by show (y 1).val < 1536 + 768; omega⟩

set_option maxHeartbeats 1000000 in
/-- What the body's one case leaves in the output's staging buffer is `blockFn` of the input blocks. -/
theorem out_eq (c : Dev nD) (i : grid0.Coords) (arg1 : Memref sig .tc .vmem S4x196x576 .f32) (harg1 : arg1.IsWhole) (arg2 : Memref sig .tc .vmem S576 .f32) (harg2 : arg2.IsWhole) (arg3 : Memref sig .tc .vmem S576 .f32) (harg3 : arg3.IsWhole) (arg4 : Memref sig .tc .vmem S576x3456 .bf16) (harg4 : arg4.IsWhole) (arg5 : Memref sig .tc .vmem S3456 .f32) (harg5 : arg5.IsWhole) (arg6 : Memref sig .tc .vmem S2304x576 .bf16) (harg6 : arg6.IsWhole) (arg7 : Memref sig .tc .vmem S576 .f32) (harg7 : arg7.IsWhole) (arg8 : Memref sig .tc .vmem S18x196x196 .f32) (harg8 : arg8.IsWhole) (arg9 : Memref sig .tc .vmem S4x196x576 .f32) (harg9 : arg9.IsWhole) (arg10 : Memref sig .tc .vmem S784x3456 .f32) (harg10 : arg10.IsWhole) (arg11 : Memref sig .tc .vmem S784x2304 .bf16) (harg11 : arg11.IsWhole)
    (x0 : Vec F S4x196x576 .f32) (x1 : Vec F S576 .f32) (x2 : Vec F S576 .f32) (x3 : Vec F S576x3456 .bf16) (x4 : Vec F S3456 .f32) (x5 : Vec F S2304x576 .bf16) (x6 : Vec F S576 .f32) (x7 : Vec F S18x196x196 .f32) :
    out0_A_8 c i arg1 harg1 arg2 harg2 arg3 harg3 arg4 harg4 arg5 harg5 arg6 harg6 arg7 harg7 arg8 harg8 arg9 harg9 arg10 harg10 arg11 harg11 x0 x1 x2 x3 x4 x5 x6 x7 = blockFn x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  rw [View.canon_unit_zero hz3]
  simp only [readCov_one_whole (S := S784x3456) _ hz2]
  simp only [View.readAt_eq_ld, harg1.read_unread, harg2.read_unread, harg3.read_unread, harg4.read_unread, harg5.read_unread,
    harg6.read_unread, harg7.read_unread, harg8.read_unread, View.ld_unit_zero (S := S4x196x576) hz3, View.ld_unit_zero (S := S576) hz1,
    View.ld_unit_zero (S := S576x3456) hz2, View.ld_unit_zero (S := S3456) hz1, View.ld_unit_zero (S := S2304x576) hz2]
  have h := View.readCov_eq_canon_ld arg11.view (headPieces (k0_pay3 x0 x1 x2 x3 x4) x7)
    (Rect.unit (s := S784x2304) ![0, 0] S784x2304.size inb_S784x2304_S784x2304_0_0) (headPieces_cover _ _)
  rw [View.ld_unit_zero hz2] at h
  unfold blockFn heads
  rw [← h]
  rfl

end Cert.KBlock

end
-- ==== Proof.KDots.lean ====
/-
  The body's four matrix products read at an entry, over the extended reals: each is a plain sum over ONE
  contraction coordinate of products of the two operands' entries, the other coordinates read off the entry.
  The two attention products carry a batch coordinate (batch element and head, 4 × 6 = 24 of them) that both
  operands share.
-/
import proofs.«115814_j15985868275953_2_alg».proof.Proof.Gen.KernelIdeal.Skeleton
import Idealize.ShloMosaic.Lib.ValueIdx
import Idealize.ShloMosaic.PureOps.Ideal.Laws

noncomputable section

namespace Cert.KDots

open Idealize.ShloMosaic Idealize.ShloMosaic.ValueIdx
open Cert.KernelIdeal Cert.KernelIdeal.Gen

theorem dot_qkv_lhs0 (i : S784x3456.Idx) (q : dot_S784x576_S576x3456_S784x3456_1_0_0_1_n_n.contr.Idx) :
    (dot_S784x576_S576x3456_S784x3456_1_0_0_1_n_n.lhsIdx i q 0).val = (i 0).val := by
  unfold DotDims.lhsIdx
  rw [dif_neg (show ¬(0 : Fin S784x576.rank) ∈ dot_S784x576_S576x3456_S784x3456_1_0_0_1_n_n.lhsBatch by decide), dif_pos (show (0 : Fin S784x576.rank) ∈ dot_S784x576_S576x3456_S784x3456_1_0_0_1_n_n.lhsNonContracting by decide)]
  rfl
theorem dot_qkv_lhs1 (i : S784x3456.Idx) (q : dot_S784x576_S576x3456_S784x3456_1_0_0_1_n_n.contr.Idx) :
    (dot_S784x576_S576x3456_S784x3456_1_0_0_1_n_n.lhsIdx i q 1).val = (q ⟨0, by decide⟩).val :=
  dot_S784x576_S576x3456_S784x3456_1_0_0_1_n_n.lhsIdx_val_of_single rfl i q
theorem dot_qkv_rhs0 (i : S784x3456.Idx) (q : dot_S784x576_S576x3456_S784x3456_1_0_0_1_n_n.contr.Idx) :
    (dot_S784x576_S576x3456_S784x3456_1_0_0_1_n_n.rhsIdx i q 0).val = (q ⟨0, by decide⟩).val :=
  dot_S784x576_S576x3456_S784x3456_1_0_0_1_n_n.rhsIdx_val_of_single rfl i q
theorem dot_qkv_rhs1 (i : S784x3456.Idx) (q : dot_S784x576_S576x3456_S784x3456_1_0_0_1_n_n.contr.Idx) :
    (dot_S784x576_S576x3456_S784x3456_1_0_0_1_n_n.rhsIdx i q 1).val = (i 1).val := by
  unfold DotDims.rhsIdx
  rw [dif_neg (show ¬(1 : Fin S576x3456.rank) ∈ dot_S784x576_S576x3456_S784x3456_1_0_0_1_n_n.rhsBatch by decide), dif_pos (show (1 : Fin S576x3456.rank) ∈ dot_S784x576_S576x3456_S784x3456_1_0_0_1_n_n.rhsNonContracting by decide)]
  rfl
/-- The projection: 784 token rows of 576 features times the 576 × 3456 weights. -/
theorem dot_qkv (L : FVec Ideal S784x576 .bf16) (R : FVec Ideal S576x3456 .bf16) (r : Fin 784) (col : Fin 3456) :
    matmul dot_S784x576_S576x3456_S784x3456_1_0_0_1_n_n none L R (constant S784x3456 .f32 0x00000000#32) (ix2 r col)
      = ∑ k : Fin 576, L (ix2 r k) * R (ix2 k col) := by
  simp only [matmul]
  rw [Ideal.matmul_constant_zero_apply, ← Equiv.sum_comp (contrEquiv1 dot_S784x576_S576x3456_S784x3456_1_0_0_1_n_n 576 rfl rfl).symm]
  refine Finset.sum_congr rfl fun k _ => ?_
  have hk := contrEquiv1_symm_val dot_S784x576_S576x3456_S784x3456_1_0_0_1_n_n 576 rfl rfl k
  have el : dot_S784x576_S576x3456_S784x3456_1_0_0_1_n_n.lhsIdx (ix2 r col) ((contrEquiv1 dot_S784x576_S576x3456_S784x3456_1_0_0_1_n_n 576 rfl rfl).symm k) = ix2 r k := funext fun a => Fin.ext (by
    match a with
    | ⟨0, _⟩ => exact dot_qkv_lhs0 _ _
    | ⟨1, _⟩ => exact (dot_qkv_lhs1 _ _).trans hk)
  have er : dot_S784x576_S576x3456_S784x3456_1_0_0_1_n_n.rhsIdx (ix2 r col) ((contrEquiv1 dot_S784x576_S576x3456_S784x3456_1_0_0_1_n_n 576 rfl rfl).symm k) = ix2 k col := funext fun a => Fin.ext (by
    match a with
    | ⟨0, _⟩ => exact (dot_qkv_rhs0 _ _).trans hk
    | ⟨1, _⟩ => exact dot_qkv_rhs1 _ _)
  rw [el, er]

theorem dot_scores_lhs0 (i : S24x196x196.Idx) (q : dot_S24x196x32_S24x196x32_S24x196x196_2_2_1_1_0_0.contr.Idx) :
    (dot_S24x196x32_S24x196x32_S24x196x196_2_2_1_1_0_0.lhsIdx i q 0).val = (i 0).val := by
  unfold DotDims.lhsIdx
  rw [dif_pos (show (0 : Fin S24x196x32.rank) ∈ dot_S24x196x32_S24x196x32_S24x196x196_2_2_1_1_0_0.lhsBatch by decide)]
  rfl
theorem dot_scores_lhs1 (i : S24x196x196.Idx) (q : dot_S24x196x32_S24x196x32_S24x196x196_2_2_1_1_0_0.contr.Idx) :
    (dot_S24x196x32_S24x196x32_S24x196x196_2_2_1_1_0_0.lhsIdx i q 1).val = (i 1).val := by
  unfold DotDims.lhsIdx
  rw [dif_neg (show ¬(1 : Fin S24x196x32.rank) ∈ dot_S24x196x32_S24x196x32_S24x196x196_2_2_1_1_0_0.lhsBatch by decide), dif_pos (show (1 : Fin S24x196x32.rank) ∈ dot_S24x196x32_S24x196x32_S24x196x196_2_2_1_1_0_0.lhsNonContracting by decide)]
  rfl
theorem dot_scores_lhs2 (i : S24x196x196.Idx) (q : dot_S24x196x32_S24x196x32_S24x196x196_2_2_1_1_0_0.contr.Idx) :
    (dot_S24x196x32_S24x196x32_S24x196x196_2_2_1_1_0_0.lhsIdx i q 2).val = (q ⟨0, by decide⟩).val :=
  dot_S24x196x32_S24x196x32_S24x196x196_2_2_1_1_0_0.lhsIdx_val_of_single rfl i q
theorem dot_scores_rhs0 (i : S24x196x196.Idx) (q : dot_S24x196x32_S24x196x32_S24x196x196_2_2_1_1_0_0.contr.Idx) :
    (dot_S24x196x32_S24x196x32_S24x196x196_2_2_1_1_0_0.rhsIdx i q 0).val = (i 0).val := by
  unfold DotDims.rhsIdx
  rw [dif_pos (show (0 : Fin S24x196x32.rank) ∈ dot_S24x196x32_S24x196x32_S24x196x196_2_2_1_1_0_0.rhsBatch by decide)]
  rfl
theorem dot_scores_rhs1 (i : S24x196x196.Idx) (q : dot_S24x196x32_S24x196x32_S24x196x196_2_2_1_1_0_0.contr.Idx) :
    (dot_S24x196x32_S24x196x32_S24x196x196_2_2_1_1_0_0.rhsIdx i q 1).val = (i 2).val := by
  unfold DotDims.rhsIdx
  rw [dif_neg (show ¬(1 : Fin S24x196x32.rank) ∈ dot_S24x196x32_S24x196x32_S24x196x196_2_2_1_1_0_0.rhsBatch by decide), dif_pos (show (1 : Fin S24x196x32.rank) ∈ dot_S24x196x32_S24x196x32_S24x196x196_2_2_1_1_0_0.rhsNonContracting by decide)]
  rfl
theorem dot_scores_rhs2 (i : S24x196x196.Idx) (q : dot_S24x196x32_S24x196x32_S24x196x196_2_2_1_1_0_0.contr.Idx) :
    (dot_S24x196x32_S24x196x32_S24x196x196_2_2_1_1_0_0.rhsIdx i q 2).val = (q ⟨0, by decide⟩).val :=
  dot_S24x196x32_S24x196x32_S24x196x196_2_2_1_1_0_0.rhsIdx_val_of_single rfl i q
/-- The scores: for each of the 24 (batch element, head) pairs, query row n against key row m over 32 features. -/
theorem dot_scores (L : FVec Ideal S24x196x32 .bf16) (R : FVec Ideal S24x196x32 .bf16) (g : Fin 24) (n m : Fin 196) :
    matmul dot_S24x196x32_S24x196x32_S24x196x196_2_2_1_1_0_0 none L R (constant S24x196x196 .f32 0x00000000#32) (ix3 g n m)
      = ∑ k : Fin 32, L (ix3 g n k) * R (ix3 g m k) := by
  simp only [matmul]
  rw [Ideal.matmul_constant_zero_apply, ← Equiv.sum_comp (contrEquiv1 dot_S24x196x32_S24x196x32_S24x196x196_2_2_1_1_0_0 32 rfl rfl).symm]
  refine Finset.sum_congr rfl fun k _ => ?_
  have hk := contrEquiv1_symm_val dot_S24x196x32_S24x196x32_S24x196x196_2_2_1_1_0_0 32 rfl rfl k
  have el : dot_S24x196x32_S24x196x32_S24x196x196_2_2_1_1_0_0.lhsIdx (ix3 g n m) ((contrEquiv1 dot_S24x196x32_S24x196x32_S24x196x196_2_2_1_1_0_0 32 rfl rfl).symm k) = ix3 g n k := funext fun a => Fin.ext (by
    match a with
    | ⟨0, _⟩ => exact dot_scores_lhs0 _ _
    | ⟨1, _⟩ => exact dot_scores_lhs1 _ _
    | ⟨2, _⟩ => exact (dot_scores_lhs2 _ _).trans hk)
  have er : dot_S24x196x32_S24x196x32_S24x196x196_2_2_1_1_0_0.rhsIdx (ix3 g n m) ((contrEquiv1 dot_S24x196x32_S24x196x32_S24x196x196_2_2_1_1_0_0 32 rfl rfl).symm k) = ix3 g m k := funext fun a => Fin.ext (by
    match a with
    | ⟨0, _⟩ => exact dot_scores_rhs0 _ _
    | ⟨1, _⟩ => exact dot_scores_rhs1 _ _
    | ⟨2, _⟩ => exact (dot_scores_rhs2 _ _).trans hk)
  rw [el, er]

theorem dot_att_lhs0 (i : S24x196x128.Idx) (q : dot_S24x196x196_S24x196x128_S24x196x128_2_1_1_2_0_0.contr.Idx) :
    (dot_S24x196x196_S24x196x128_S24x196x128_2_1_1_2_0_0.lhsIdx i q 0).val = (i 0).val := by
  unfold DotDims.lhsIdx
  rw [dif_pos (show (0 : Fin S24x196x196.rank) ∈ dot_S24x196x196_S24x196x128_S24x196x128_2_1_1_2_0_0.lhsBatch by decide)]
  rfl
theorem dot_att_lhs1 (i : S24x196x128.Idx) (q : dot_S24x196x196_S24x196x128_S24x196x128_2_1_1_2_0_0.contr.Idx) :
    (dot_S24x196x196_S24x196x128_S24x196x128_2_1_1_2_0_0.lhsIdx i q 1).val = (i 1).val := by
  unfold DotDims.lhsIdx
  rw [dif_neg (show ¬(1 : Fin S24x196x196.rank) ∈ dot_S24x196x196_S24x196x128_S24x196x128_2_1_1_2_0_0.lhsBatch by decide), dif_pos (show (1 : Fin S24x196x196.rank) ∈ dot_S24x196x196_S24x196x128_S24x196x128_2_1_1_2_0_0.lhsNonContracting by decide)]
  rfl
theorem dot_att_lhs2 (i : S24x196x128.Idx) (q : dot_S24x196x196_S24x196x128_S24x196x128_2_1_1_2_0_0.contr.Idx) :
    (dot_S24x196x196_S24x196x128_S24x196x128_2_1_1_2_0_0.lhsIdx i q 2).val = (q ⟨0, by decide⟩).val :=
  dot_S24x196x196_S24x196x128_S24x196x128_2_1_1_2_0_0.lhsIdx_val_of_single rfl i q
theorem dot_att_rhs0 (i : S24x196x128.Idx) (q : dot_S24x196x196_S24x196x128_S24x196x128_2_1_1_2_0_0.contr.Idx) :
    (dot_S24x196x196_S24x196x128_S24x196x128_2_1_1_2_0_0.rhsIdx i q 0).val = (i 0).val := by
  unfold DotDims.rhsIdx
  rw [dif_pos (show (0 : Fin S24x196x128.rank) ∈ dot_S24x196x196_S24x196x128_S24x196x128_2_1_1_2_0_0.rhsBatch by decide)]
  rfl
theorem dot_att_rhs1 (i : S24x196x128.Idx) (q : dot_S24x196x196_S24x196x128_S24x196x128_2_1_1_2_0_0.contr.Idx) :
    (dot_S24x196x196_S24x196x128_S24x196x128_2_1_1_2_0_0.rhsIdx i q 1).val = (q ⟨0, by decide⟩).val :=
  dot_S24x196x196_S24x196x128_S24x196x128_2_1_1_2_0_0.rhsIdx_val_of_single rfl i q
theorem dot_att_rhs2 (i : S24x196x128.Idx) (q : dot_S24x196x196_S24x196x128_S24x196x128_2_1_1_2_0_0.contr.Idx) :
    (dot_S24x196x196_S24x196x128_S24x196x128_2_1_1_2_0_0.rhsIdx i q 2).val = (i 2).val := by
  unfold DotDims.rhsIdx
  rw [dif_neg (show ¬(2 : Fin S24x196x128.rank) ∈ dot_S24x196x196_S24x196x128_S24x196x128_2_1_1_2_0_0.rhsBatch by decide), dif_pos (show (2 : Fin S24x196x128.rank) ∈ dot_S24x196x196_S24x196x128_S24x196x128_2_1_1_2_0_0.rhsNonContracting by decide)]
  rfl
/-- The attended values: for each of the 24 pairs, the weights of query row n over the 196 key rows times the values' feature d. -/
theorem dot_att (L : FVec Ideal S24x196x196 .bf16) (R : FVec Ideal S24x196x128 .bf16) (g : Fin 24) (n : Fin 196) (d : Fin 128) :
    matmul dot_S24x196x196_S24x196x128_S24x196x128_2_1_1_2_0_0 none L R (constant S24x196x128 .f32 0x00000000#32) (ix3 g n d)
      = ∑ k : Fin 196, L (ix3 g n k) * R (ix3 g k d) := by
  simp only [matmul]
  rw [Ideal.matmul_constant_zero_apply, ← Equiv.sum_comp (contrEquiv1 dot_S24x196x196_S24x196x128_S24x196x128_2_1_1_2_0_0 196 rfl rfl).symm]
  refine Finset.sum_congr rfl fun k _ => ?_
  have hk := contrEquiv1_symm_val dot_S24x196x196_S24x196x128_S24x196x128_2_1_1_2_0_0 196 rfl rfl k
  have el : dot_S24x196x196_S24x196x128_S24x196x128_2_1_1_2_0_0.lhsIdx (ix3 g n d) ((contrEquiv1 dot_S24x196x196_S24x196x128_S24x196x128_2_1_1_2_0_0 196 rfl rfl).symm k) = ix3 g n k := funext fun a => Fin.ext (by
    match a with
    | ⟨0, _⟩ => exact dot_att_lhs0 _ _
    | ⟨1, _⟩ => exact dot_att_lhs1 _ _
    | ⟨2, _⟩ => exact (dot_att_lhs2 _ _).trans hk)
  have er : dot_S24x196x196_S24x196x128_S24x196x128_2_1_1_2_0_0.rhsIdx (ix3 g n d) ((contrEquiv1 dot_S24x196x196_S24x196x128_S24x196x128_2_1_1_2_0_0 196 rfl rfl).symm k) = ix3 g k d := funext fun a => Fin.ext (by
    match a with
    | ⟨0, _⟩ => exact dot_att_rhs0 _ _
    | ⟨1, _⟩ => exact (dot_att_rhs1 _ _).trans hk
    | ⟨2, _⟩ => exact dot_att_rhs2 _ _)
  rw [el, er]

theorem dot_proj_lhs0 (i : S784x576.Idx) (q : dot_S784x2304_S2304x576_S784x576_1_0_0_1_n_n.contr.Idx) :
    (dot_S784x2304_S2304x576_S784x576_1_0_0_1_n_n.lhsIdx i q 0).val = (i 0).val := by
  unfold DotDims.lhsIdx
  rw [dif_neg (show ¬(0 : Fin S784x2304.rank) ∈ dot_S784x2304_S2304x576_S784x576_1_0_0_1_n_n.lhsBatch by decide), dif_pos (show (0 : Fin S784x2304.rank) ∈ dot_S784x2304_S2304x576_S784x576_1_0_0_1_n_n.lhsNonContracting by decide)]
  rfl
theorem dot_proj_lhs1 (i : S784x576.Idx) (q : dot_S784x2304_S2304x576_S784x576_1_0_0_1_n_n.contr.Idx) :
    (dot_S784x2304_S2304x576_S784x576_1_0_0_1_n_n.lhsIdx i q 1).val = (q ⟨0, by decide⟩).val :=
  dot_S784x2304_S2304x576_S784x576_1_0_0_1_n_n.lhsIdx_val_of_single rfl i q
theorem dot_proj_rhs0 (i : S784x576.Idx) (q : dot_S784x2304_S2304x576_S784x576_1_0_0_1_n_n.contr.Idx) :
    (dot_S784x2304_S2304x576_S784x576_1_0_0_1_n_n.rhsIdx i q 0).val = (q ⟨0, by decide⟩).val :=
  dot_S784x2304_S2304x576_S784x576_1_0_0_1_n_n.rhsIdx_val_of_single rfl i q
theorem dot_proj_rhs1 (i : S784x576.Idx) (q : dot_S784x2304_S2304x576_S784x576_1_0_0_1_n_n.contr.Idx) :
    (dot_S784x2304_S2304x576_S784x576_1_0_0_1_n_n.rhsIdx i q 1).val = (i 1).val := by
  unfold DotDims.rhsIdx
  rw [dif_neg (show ¬(1 : Fin S2304x576.rank) ∈ dot_S784x2304_S2304x576_S784x576_1_0_0_1_n_n.rhsBatch by decide), dif_pos (show (1 : Fin S2304x576.rank) ∈ dot_S784x2304_S2304x576_S784x576_1_0_0_1_n_n.rhsNonContracting by decide)]
  rfl
/-- The output projection: 784 token rows of 2304 attended features times the 2304 × 576 weights. -/
theorem dot_proj (L : FVec Ideal S784x2304 .bf16) (R : FVec Ideal S2304x576 .bf16) (r : Fin 784) (e : Fin 576) :
    matmul dot_S784x2304_S2304x576_S784x576_1_0_0_1_n_n none L R (constant S784x576 .f32 0x00000000#32) (ix2 r e)
      = ∑ k : Fin 2304, L (ix2 r k) * R (ix2 k e) := by
  simp only [matmul]
  rw [Ideal.matmul_constant_zero_apply, ← Equiv.sum_comp (contrEquiv1 dot_S784x2304_S2304x576_S784x576_1_0_0_1_n_n 2304 rfl rfl).symm]
  refine Finset.sum_congr rfl fun k _ => ?_
  have hk := contrEquiv1_symm_val dot_S784x2304_S2304x576_S784x576_1_0_0_1_n_n 2304 rfl rfl k
  have el : dot_S784x2304_S2304x576_S784x576_1_0_0_1_n_n.lhsIdx (ix2 r e) ((contrEquiv1 dot_S784x2304_S2304x576_S784x576_1_0_0_1_n_n 2304 rfl rfl).symm k) = ix2 r k := funext fun a => Fin.ext (by
    match a with
    | ⟨0, _⟩ => exact dot_proj_lhs0 _ _
    | ⟨1, _⟩ => exact (dot_proj_lhs1 _ _).trans hk)
  have er : dot_S784x2304_S2304x576_S784x576_1_0_0_1_n_n.rhsIdx (ix2 r e) ((contrEquiv1 dot_S784x2304_S2304x576_S784x576_1_0_0_1_n_n 2304 rfl rfl).symm k) = ix2 k e := funext fun a => Fin.ext (by
    match a with
    | ⟨0, _⟩ => exact (dot_proj_rhs0 _ _).trans hk
    | ⟨1, _⟩ => exact dot_proj_rhs1 _ _)
  rw [el, er]

end Cert.KDots

end
-- ==== Proof.KNorm.lean ====
/-
  The first stage of a grid point's body, read at an entry over the extended reals: the point's 4 × 196 token
  rows normalised (a row's sum over its 576 features divided by 576 is its mean; the same of the squared centred
  entries is its variance; centred entries times the reciprocal root of the guarded variance, scaled and shifted
  feature by feature), then, rows taken as 784 = 4 · 196, multiplied by the 576 × 3456 weights and shifted by
  the bias row.  Row 196·b + n of the product is token n of the block's batch element b.
-/
import proofs.«115814_j15985868275953_2_alg».proof.Proof.Gen.KernelIdeal.Skeleton
import proofs.«115814_j15985868275953_2_alg».proof.Proof.Spec
import proofs.«115814_j15985868275953_2_alg».proof.Proof.KDots
import Idealize.ShloMosaic.Lib.ValueIdx
import Idealize.ShloMosaic.Lib.Pipeline.Value
import Idealize.ShloMosaic.PureOps.Ideal.Laws

noncomputable section

namespace Cert.KNorm

open Idealize.ShloMosaic Idealize.ShloMosaic.ValueIdx
open Cert.KernelIdeal Cert.KernelIdeal.Gen

section Stages
variable {F : FTy → Type} [FloatOps F]

/-- A row's sum over its 576 features, kept as a column, divided by 576. -/
def rowAvg (v : FVec F S4x196x576 .f32) : FVec F S4x196x1 .f32 :=
  divf (shapeCast S4x196x1 (multiReduction .add [2] S4x196 v 0x00000000#32 reduces_S4x196x576_S4x196 (.inl rfl) rfl) shapeCasts_S4x196_S4x196x1)
    (broadcast S4x196x1 (Scalar.ofBits .f32 0x44100000#32))

/-- Entries minus their row's mean. -/
def centred (v0 : Vec F S4x196x576 .f32) : FVec F S4x196x576 .f32 :=
  subf v0 (broadcastTo S4x196x576 (rowAvg v0) broadcasts_S4x196x1_S4x196x576)

/-- The normalised rows. -/
def normed (v0 : Vec F S4x196x576 .f32) (v17 v21 : Vec F S576 .f32) : FVec F S4x196x576 .f32 :=
  addf (mulf (mulf (centred v0)
        (broadcastTo S4x196x576 (rsqrt (addf (rowAvg (mulf (centred v0) (centred v0))) (broadcast S4x196x1 (Scalar.ofBits .f32 0x3727C5AC#32))))
          broadcasts_S4x196x1_S4x196x576))
      (broadcastTo S4x196x576 (shapeCast S1x1x576 v17 shapeCasts_S576_S1x1x576) broadcasts_S1x1x576_S4x196x576))
    (broadcastTo S4x196x576 (shapeCast S1x1x576 v21 shapeCasts_S576_S1x1x576) broadcasts_S1x1x576_S4x196x576)

/-- The normalised rows times the weights, plus the bias row. -/
def projected (v0 : Vec F S4x196x576 .f32) (v17 v21 : Vec F S576 .f32) (v27 : Vec F S576x3456 .bf16) (v30 : Vec F S3456 .f32) :
    FVec F S784x3456 .f32 :=
  shapeCast S784x3456
    (addf (matmul dot_S784x576_S576x3456_S784x3456_1_0_0_1_n_n none
        (truncf .bf16 (shapeCast S784x576 (normed v0 v17 v21) shapeCasts_S4x196x576_S784x576) bitsLt_bf16_f32)
        (shapeCast S576x3456 v27 shapeCasts_S576x3456_S576x3456) (constant S784x3456 .f32 0x00000000#32))
      (broadcastTo S784x3456 (shapeCast S1x3456 (shapeCast S3456 v30 shapeCasts_S3456_S3456) shapeCasts_S3456_S1x3456) broadcasts_S1x3456_S784x3456))
    shapeCasts_S784x3456_S784x3456

/-- The body's first stored value is these stages composed. -/
theorem pay3_eq (v0 : Vec F S4x196x576 .f32) (v17 v21 : Vec F S576 .f32) (v27 : Vec F S576x3456 .bf16) (v30 : Vec F S3456 .f32) :
    k0_pay3 v0 v17 v21 v27 v30 = projected v0 v17 v21 v27 v30 := rfl

end Stages

/-! ## The stages read at an entry -/

/-- A column spread along the features reads the column's entry of the row. -/
theorem spread_col (c : FVec Ideal S4x196x1 .f32) (b : Fin 4) (n : Fin 196) (d : Fin 576) :
    broadcastTo S4x196x576 c broadcasts_S4x196x1_S4x196x576 (ix3 b n d) = c (ix3 b n 0) :=
  broadcastTo_apply _ _ _ (ix3 b n 0) fun a => by
    match a with
    | ⟨0, _⟩ => exact (if_neg (show ¬(4 : ℕ) = 1 by decide)).symm
    | ⟨1, _⟩ => exact (if_neg (show ¬(196 : ℕ) = 1 by decide)).symm
    | ⟨2, _⟩ => exact (if_pos rfl).symm

/-- A feature vector spread over all rows reads its entry of the feature. -/
theorem spread_row (w : FVec Ideal S576 .f32) (b : Fin 4) (n : Fin 196) (d : Fin 576) :
    broadcastTo S4x196x576 (shapeCast S1x1x576 w shapeCasts_S576_S1x1x576) broadcasts_S1x1x576_S4x196x576 (ix3 b n d) = w (ix1 d) := by
  refine (broadcastTo_apply _ _ _ (ix3 0 0 d) fun a => ?_).trans (shapeCast_apply _ _ _ (ix1 d) ?_)
  · match a with
    | ⟨0, _⟩ => exact (if_pos rfl).symm
    | ⟨1, _⟩ => exact (if_pos rfl).symm
    | ⟨2, _⟩ => exact (if_neg (show ¬(576 : ℕ) = 1 by decide)).symm
  · rw [Shape.rowMajor_val_one, Shape.rowMajor_val_three]
    show d.val = (0 * 1 + 0) * 576 + d.val
    omega

/-- The mean of a row of the block. -/
theorem rowAvg_apply (v : FVec Ideal S4x196x576 .f32) (b : Fin 4) (n : Fin 196) :
    rowAvg (F := Ideal) v (ix3 b n 0) = Ideal.div (∑ d : Fin 576, v (ix3 b n d)) Cert.Spec.c576 := by
  refine (divf_apply _ _ _).trans (congrArg₂ Ideal.div ?_ rfl)
  refine (shapeCast_apply _ _ _ (ix2 b n) ?_).trans ?_
  · rw [Shape.rowMajor_val_two, Shape.rowMajor_val_three]
    show b.val * 196 + n.val = (b.val * 196 + n.val) * 1 + 0
    omega
  · refine (Ideal.multiReduction_add_single _ _ _ _ _ (ix2 b n)).trans (Finset.sum_congr rfl fun d _ => congrArg v ?_)
    funext a
    match a with
    | ⟨0, _⟩ => rfl
    | ⟨1, _⟩ => rfl
    | ⟨2, _⟩ => rfl

theorem centred_apply (v0 : FVec Ideal S4x196x576 .f32) (b : Fin 4) (n : Fin 196) (d : Fin 576) :
    centred (F := Ideal) v0 (ix3 b n d) = Cert.Spec.cen (fun d => v0 (ix3 b n d)) d := by
  refine (subf_apply _ _ _).trans (congrArg (v0 (ix3 b n d) - ·) ?_)
  exact (spread_col _ b n d).trans (rowAvg_apply v0 b n)

theorem var_apply (v0 : FVec Ideal S4x196x576 .f32) (b : Fin 4) (n : Fin 196) :
    rowAvg (F := Ideal) (mulf (centred (F := Ideal) v0) (centred (F := Ideal) v0)) (ix3 b n 0) = Cert.Spec.var (fun d => v0 (ix3 b n d)) := by
  refine (rowAvg_apply _ b n).trans (congrArg (Ideal.div · Cert.Spec.c576) (Finset.sum_congr rfl fun d _ => ?_))
  refine (mulf_apply _ _ _).trans ?_
  rw [centred_apply]

/-- A normalised entry of the block is the specification's normalised row at that feature. -/
theorem normed_apply (v0 : FVec Ideal S4x196x576 .f32) (v17 v21 : FVec Ideal S576 .f32) (b : Fin 4) (n : Fin 196) (d : Fin 576) :
    normed (F := Ideal) v0 v17 v21 (ix3 b n d) = Cert.Spec.norm (fun d => v0 (ix3 b n d)) (Cert.Spec.cur1 v17) (Cert.Spec.cur1 v21) d := by
  refine (addf_apply _ _ _).trans (congrArg₂ (· + ·) ?_ (spread_row v21 b n d))
  refine (mulf_apply _ _ _).trans (congrArg₂ (· * ·) ?_ (spread_row v17 b n d))
  refine (mulf_apply _ _ _).trans (congrArg₂ (· * ·) (centred_apply v0 b n d) ?_)
  refine (spread_col _ b n d).trans ?_
  show Ideal.rsqrt (rowAvg (F := Ideal) (mulf (centred (F := Ideal) v0) (centred (F := Ideal) v0)) (ix3 b n 0) + Cert.Spec.eps) = _
  rw [var_apply]

/-- An entry of the projection: row 196·b + n is token n of the block's batch element b. -/
theorem projected_apply (v0 : FVec Ideal S4x196x576 .f32) (v17 v21 : FVec Ideal S576 .f32) (v27 : FVec Ideal S576x3456 .bf16)
    (v30 : FVec Ideal S3456 .f32) (b : Fin 4) (n : Fin 196) (col : Fin 3456) (hr : b.val * 196 + n.val < 784) :
    projected (F := Ideal) v0 v17 v21 v27 v30 (ix2 ⟨b.val * 196 + n.val, hr⟩ col)
      = (∑ d : Fin 576, Cert.Spec.norm (fun d => v0 (ix3 b n d)) (Cert.Spec.cur1 v17) (Cert.Spec.cur1 v21) d * v27 (ix2 d col))
        + v30 (ix1 col) := by
  refine (shapeCast_apply _ _ _ (ix2 ⟨b.val * 196 + n.val, hr⟩ col) rfl).trans ?_
  refine (addf_apply _ _ _).trans (congrArg₂ (· + ·) ?_ ?_)
  · refine (Cert.KDots.dot_qkv _ _ ⟨b.val * 196 + n.val, hr⟩ col).trans (Finset.sum_congr rfl fun d _ => congrArg₂ (· * ·) ?_ ?_)
    · refine (truncf_apply (ψ := .bf16) _ bitsLt_bf16_f32 _).trans ?_
      refine (shapeCast_apply _ _ _ (ix3 b n d) ?_).trans (normed_apply v0 v17 v21 b n d)
      rw [Shape.rowMajor_val_three, Shape.rowMajor_val_two]
      rfl
    · exact shapeCast_apply _ _ _ (ix2 d col) rfl
  · refine (broadcastTo_apply _ _ _ (ix2 0 col) fun a => ?_).trans ?_
    · match a with
      | ⟨0, _⟩ => exact (if_pos rfl).symm
      | ⟨1, _⟩ => exact (if_neg (show ¬(3456 : ℕ) = 1 by decide)).symm
    · refine (shapeCast_apply _ _ _ (ix1 col) ?_).trans (shapeCast_apply _ _ _ (ix1 col) rfl)
      rw [Shape.rowMajor_val_one, Shape.rowMajor_val_two]
      show col.val = 0 * 3456 + col.val
      omega

end Cert.KNorm

end
-- ==== Proof.Tile.lean ====
/-
  The coordinates of a grid point's tiles: the 4 × 196 token rows of a block taken as 784 rows (row 196·b + n is
  token n of the block's batch element b), and the columns of a chunk of six heads (column 32·h + k is feature k
  of the chunk's head h among 192 query or key columns, column 128·h + d is feature d of head h among 768 value
  columns).
-/
import Mathlib.Data.Fin.Basic
import Mathlib.Tactic

namespace Cert.Tile

/-- Row of token `n` of the block's batch element `b`. -/
def row (b : Fin 4) (n : Fin 196) : Fin 784 := ⟨b.val * 196 + n.val, by omega⟩
/-- Column of feature `k` of the chunk's head `h`, among the chunk's 192 query (or key) columns. -/
def col32 (h : Fin 6) (k : Fin 32) : Fin 192 := ⟨h.val * 32 + k.val, by omega⟩
/-- Column of feature `d` of the chunk's head `h`, among the chunk's 768 value columns. -/
def col128 (h : Fin 6) (d : Fin 128) : Fin 768 := ⟨h.val * 128 + d.val, by omega⟩
/-- The (batch element, head) pair as one of 24. -/
def pair (b : Fin 4) (h : Fin 6) : Fin 24 := ⟨b.val * 6 + h.val, by omega⟩

end Cert.Tile
-- ==== Proof.KProj.lean ====
/-
  The last stage of a grid point's body read at an entry: the 784 × 2304 attended features times the 2304 × 576
  output weights, plus the output bias row, rows 196·b + n taken back as (b, n).
-/
import proofs.«115814_j15985868275953_2_alg».proof.Proof.Gen.KernelIdeal.Skeleton
import proofs.«115814_j15985868275953_2_alg».proof.Proof.Tile
import proofs.«115814_j15985868275953_2_alg».proof.Proof.KDots
import Idealize.ShloMosaic.Lib.ValueIdx
import Idealize.ShloMosaic.Lib.Pipeline.Value
import Idealize.ShloMosaic.PureOps.Ideal.Laws

noncomputable section

namespace Cert.KProj

open Idealize.ShloMosaic Idealize.ShloMosaic.ValueIdx
open Cert.KernelIdeal Cert.KernelIdeal.Gen Cert.Tile

/-- Entry (b, n, e) of the stored block: token row 196·b + n of the attended features against column e of the
    output weights, plus the output bias at e. -/
theorem pay2_apply (A : FVec Ideal S784x2304 .bf16) (W : FVec Ideal S2304x576 .bf16) (c : FVec Ideal S576 .f32)
    (b : Fin 4) (n : Fin 196) (e : Fin 576) :
    k0_pay2 (F := Ideal) A W c (ix3 b n e) = (∑ j : Fin 2304, A (ix2 (row b n) j) * W (ix2 j e)) + c (ix1 e) := by
  unfold k0_pay2
  refine (shapeCast_apply _ _ _ (ix2 (row b n) e) ?_).trans ?_
  · rw [Shape.rowMajor_val_two, Shape.rowMajor_val_three]
    rfl
  refine (addf_apply _ _ _).trans (congrArg₂ (· + ·) ?_ ?_)
  · refine (Cert.KDots.dot_proj _ _ (row b n) e).trans (Finset.sum_congr rfl fun j _ => congrArg (A (ix2 (row b n) j) * ·) ?_)
    exact shapeCast_apply _ _ _ (ix2 j e) rfl
  · refine (broadcastTo_apply _ _ _ (ix2 0 e) fun a => ?_).trans (shapeCast_apply _ _ _ (ix1 e) ?_)
    · match a with
      | ⟨0, _⟩ => exact (if_pos rfl).symm
      | ⟨1, _⟩ => exact (if_neg (show ¬(576 : ℕ) = 1 by decide)).symm
    · rw [Shape.rowMajor_val_one, Shape.rowMajor_val_two]
      show e.val = 0 * 576 + e.val
      omega

end Cert.KProj

end
-- ==== Proof.Attn.lean ====
/-
  One head's attention for ONE query token, over the extended reals, as a function of that token's scores against
  the 196 key tokens and of one value feature of the 196 key tokens: the scores' maximum (from minus infinity),
  the exponentials of the scores minus it, their sum, the quotients, and the quotients' weighted sum of the
  values.  The whole function's attention is this at the scores and values the projection gives.
-/
import proofs.«115814_j15985868275953_2_alg».proof.Proof.Spec

noncomputable section

namespace Cert.Attn

open Idealize.ShloMosaic Cert.Spec

/-- The score of a query (32 features) against key token `m`: the scaled dot product plus the bias. -/
def scoreG (Q : Fin 32 → EReal) (K : Fin 196 → Fin 32 → EReal) (B : Fin 196 → EReal) (m : Fin 196) : EReal :=
  (∑ k : Fin 32, Q k * K m k) * scale + B m

/-- The largest of a row of scores, from minus infinity. -/
def rowmaxG (s : Fin 196 → EReal) : EReal := max negInf ((Finset.univ : Finset (Fin 196)).fold max negInf s)

/-- The exponential of a score minus the row's maximum. -/
def exG (s : Fin 196 → EReal) (m : Fin 196) : EReal := Ideal.exp (s m - rowmaxG s)

/-- The sum of the row's exponentials. -/
def denG (s : Fin 196 → EReal) : EReal := ∑ m : Fin 196, exG s m

/-- The softmax weight of key token `m`. -/
def probG (s : Fin 196 → EReal) (m : Fin 196) : EReal := Ideal.div (exG s m) (denG s)

/-- The weights' sum of one value feature over the key tokens. -/
def attG (s : Fin 196 → EReal) (V : Fin 196 → EReal) : EReal := ∑ m : Fin 196, probG s m * V m

section Instance

variable (x : Fin 256 → Fin 196 → Fin 576 → EReal) (lnw lnb : Fin 576 → EReal)
  (wq : Fin 576 → Fin 3456 → EReal) (bq : Fin 3456 → EReal) (bias : Fin 18 → Fin 196 → Fin 196 → EReal)

/-- The whole function's score is the generic one at the projection's query and key columns of the head. -/
theorem score_eq (b : Fin 256) (h : Fin 18) (n m : Fin 196) :
    score x lnw lnb wq bq bias b h n m
      = scoreG (fun k => qkv x lnw lnb wq bq b n (qcol h k)) (fun m k => qkv x lnw lnb wq bq b m (kcol h k)) (fun m => bias h n m) m := rfl

/-- The whole function's attended feature is the generic one at those scores and the head's value column. -/
theorem att_eq (b : Fin 256) (h : Fin 18) (n : Fin 196) (d : Fin 128) :
    att x lnw lnb wq bq bias b h n d
      = attG (fun m => scoreG (fun k => qkv x lnw lnb wq bq b n (qcol h k)) (fun m k => qkv x lnw lnb wq bq b m (kcol h k)) (fun m => bias h n m) m)
          (fun m => qkv x lnw lnb wq bq b m (vcol h d)) := rfl

end Instance

end Cert.Attn

end
-- ==== Proof.KChunk.lean ====
/-
  One chunk of six heads, for the four batch elements of a block: the attention the body computes from the
  chunk's query, key and value columns and its bias planes, read at one entry of the result.

  The 784 × 192 query (and key) columns are regrouped so that entry (6·b + h, n, k) of a 24 × 196 × 32 array is
  the entry at row 196·b + n, column 32·h + k; the 784 × 768 value columns likewise with 128 features a head.
  For each of the 24 (batch element, head) pairs the scores are the scaled 32-term dot products plus the head's
  bias plane; each query row takes its maximum from minus infinity, the exponentials of the differences, their
  sum, the quotients, and the quotients' weighted sum of the values; the result is regrouped back to 784 × 768.
  Entry (196·b + n, 128·h + d) of the result is one head's attention of token n over that token's scores and the
  value feature d.
-/
import proofs.«115814_j15985868275953_2_alg».proof.Proof.Gen.KernelIdeal.Skeleton
import proofs.«115814_j15985868275953_2_alg».proof.Proof.Attn
import proofs.«115814_j15985868275953_2_alg».proof.Proof.Tile
import proofs.«115814_j15985868275953_2_alg».proof.Proof.KDots
import Idealize.ShloMosaic.Lib.ValueIdx
import Idealize.ShloMosaic.Lib.Pipeline.Value
import Idealize.ShloMosaic.PureOps.Ideal.Laws

noncomputable section

namespace Cert.KChunk

open Idealize.ShloMosaic Idealize.ShloMosaic.ValueIdx
open Cert.KernelIdeal Cert.KernelIdeal.Gen Cert.Tile

/-! ## The payload by stages -/

section Stages

variable {F : FTy → Type} [FloatOps F]

/-- The 784 × 192 query (or key) columns regrouped by (batch element, head) pair: 24 × 196 × 32. -/
def regroup32 (x : Vec F S784x192 .f32) : FVec F S24x196x32 .bf16 :=
  truncf .bf16 (shapeCast S24x196x32 (transpose S4x6x196x32 [0, 2, 1, 3]
    (shapeCast S4x196x6x32 x shapeCasts_S784x192_S4x196x6x32) transposes_S4x196x6x32_p0_2_1_3_S4x6x196x32)
    shapeCasts_S4x6x196x32_S24x196x32) bitsLt_bf16_f32

/-- The 784 × 768 value columns regrouped by pair: 24 × 196 × 128. -/
def regroup128 (x : Vec F S784x768 .f32) : FVec F S24x196x128 .bf16 :=
  truncf .bf16 (shapeCast S24x196x128 (transpose S4x6x196x128 [0, 2, 1, 3]
    (shapeCast S4x196x6x128 x shapeCasts_S784x768_S4x196x6x128) transposes_S4x196x6x128_p0_2_1_3_S4x6x196x128)
    shapeCasts_S4x6x196x128_S24x196x128) bitsLt_bf16_f32

/-- The six bias planes repeated for the four batch elements. -/
def biasPlanes (bias : Vec F S6x196x196 .f32) : FVec F S4x6x196x196 .f32 :=
  broadcastTo S4x6x196x196 (shapeCast S1x6x196x196 (shapeCast S6x196x196 bias shapeCasts_S6x196x196_S6x196x196)
    shapeCasts_S6x196x196_S1x6x196x196) broadcasts_S1x6x196x196_S4x6x196x196

/-- The scores of the 24 pairs: the scaled products plus the bias planes. -/
def scores (q k : FVec F S24x196x32 .bf16) (bias : Vec F S6x196x196 .f32) : FVec F S24x196x196 .f32 :=
  shapeCast S24x196x196 (addf (shapeCast S4x6x196x196
    (mulf (matmul dot_S24x196x32_S24x196x32_S24x196x196_2_2_1_1_0_0 none q k (constant S24x196x196 .f32 0x00000000#32))
      (broadcast S24x196x196 (Scalar.ofBits .f32 0x3E3504F3#32)))
    shapeCasts_S24x196x196_S4x6x196x196) (biasPlanes bias)) shapeCasts_S4x6x196x196_S24x196x196

/-- Each query row's largest score, from minus infinity. -/
def rowMax (s : FVec F S24x196x196 .f32) : FVec F S24x196 .f32 :=
  maximumf (broadcast S24x196 (Scalar.ofBits .f32 0xFF800000#32))
    (multiReduction .maximumf [2] S24x196 s 0xFF800000#32 reduces_S24x196x196_S24x196 (.inl rfl) rfl)

/-- The exponentials of the scores minus their row's maximum. -/
def expo (s : FVec F S24x196x196 .f32) : FVec F S24x196x196 .f32 :=
  exp (subf s (broadcastTo S24x196x196 (shapeCast S24x196x1 (rowMax s) shapeCasts_S24x196_S24x196x1)
    broadcasts_S24x196x1_S24x196x196))

/-- Each row's sum. -/
def rowSum (e : FVec F S24x196x196 .f32) : FVec F S24x196 .f32 :=
  multiReduction .add [2] S24x196 e 0x00000000#32 reduces_S24x196x196_S24x196 (.inl rfl) rfl

/-- The softmax weights: the exponentials over their row's sum. -/
def weights (s : FVec F S24x196x196 .f32) : FVec F S24x196x196 .bf16 :=
  truncf .bf16 (divf (expo s) (broadcastTo S24x196x196 (shapeCast S24x196x1 (rowSum (expo s)) shapeCasts_S24x196_S24x196x1)
    broadcasts_S24x196x1_S24x196x196)) bitsLt_bf16_f32

/-- The weights' products with the values, pair by pair. -/
def attend (w : FVec F S24x196x196 .bf16) (v : FVec F S24x196x128 .bf16) : FVec F S24x196x128 .f32 :=
  matmul dot_S24x196x196_S24x196x128_S24x196x128_2_1_1_2_0_0 none w v (constant S24x196x128 .f32 0x00000000#32)

/-- The 24 × 196 × 128 attended values regrouped back to 784 × 768. -/
def ungroup (y : FVec F S24x196x128 .f32) : FVec F S784x768 .bf16 :=
  shapeCast S784x768 (truncf .bf16 (shapeCast S784x768 (transpose S4x196x6x128 [0, 2, 1, 3]
    (shapeCast S4x6x196x128 y shapeCasts_S24x196x128_S4x6x196x128) transposes_S4x6x196x128_p0_2_1_3_S4x196x6x128)
    shapeCasts_S4x196x6x128_S784x768) bitsLt_bf16_f32) shapeCasts_S784x768_S784x768

/-- The chunk's payload is the composition of the stages. -/
theorem pay4_eq (a b : Vec F S784x192 .f32) (c : Vec F S784x768 .f32) (d : Vec F S6x196x196 .f32) :
    k0_pay4 a b c d = ungroup (attend (weights (scores (regroup32 a) (regroup32 b) d)) (regroup128 c)) := rfl

/-- The second chunk's payload, through its store, is the first chunk's function. -/
theorem pay65_eq (a b : Vec F S784x192 .f32) (c : Vec F S784x768 .f32) (d : Vec F S6x196x196 .f32) :
    k0_pay6 (k0_pay5 a b c d) = k0_pay4 a b c d := rfl

/-- The third chunk's payload, through its store, is the first chunk's function. -/
theorem pay17_eq (a b : Vec F S784x192 .f32) (c : Vec F S784x768 .f32) (d : Vec F S6x196x196 .f32) :
    k0_pay1 (k0_pay7 a b c d) = k0_pay4 a b c d := rfl

end Stages

/-! ## The stages read at an entry, over the extended reals -/

/-- Entry (6·b + h, n, k) of the regrouped query (or key) columns is the entry at row 196·b + n, column 32·h + k. -/
theorem regroup32_apply (x : FVec Ideal S784x192 .f32) (b : Fin 4) (h : Fin 6) (n : Fin 196) (k : Fin 32) :
    regroup32 (F := Ideal) x (ix3 (pair b h) n k) = x (ix2 (row b n) (col32 h k)) := by
  have hb := b.isLt; have hh := h.isLt; have hn := n.isLt; have hk := k.isLt
  unfold regroup32
  rw [truncf_apply]
  refine (shapeCast_apply _ shapeCasts_S4x6x196x32_S24x196x32 (ix3 (pair b h) n k) (ix4 b h n k) ?_).trans ?_
  · rewrite [Shape.rowMajor_val_four, Shape.rowMajor_val_three]
    show ((b.val * 6 + h.val) * 196 + n.val) * 32 + k.val = ((b.val * 6 + h.val) * 196 + n.val) * 32 + k.val
    rfl
  refine (transpose_apply [0, 2, 1, 3] _ transposes_S4x196x6x32_p0_2_1_3_S4x6x196x32 (ix4 b h n k) (ix4 b n h k)
    (fun c => match c with | ⟨0, _⟩ => rfl | ⟨1, _⟩ => rfl | ⟨2, _⟩ => rfl | ⟨3, _⟩ => rfl)).trans ?_
  refine shapeCast_apply x shapeCasts_S784x192_S4x196x6x32 (ix4 b n h k) (ix2 (row b n) (col32 h k)) ?_
  rewrite [Shape.rowMajor_val_two, Shape.rowMajor_val_four]
  show (b.val * 196 + n.val) * 192 + (h.val * 32 + k.val) = ((b.val * 196 + n.val) * 6 + h.val) * 32 + k.val
  omega

/-- Entry (6·b + h, n, d) of the regrouped value columns is the entry at row 196·b + n, column 128·h + d. -/
theorem regroup128_apply (x : FVec Ideal S784x768 .f32) (b : Fin 4) (h : Fin 6) (n : Fin 196) (d : Fin 128) :
    regroup128 (F := Ideal) x (ix3 (pair b h) n d) = x (ix2 (row b n) (col128 h d)) := by
  have hb := b.isLt; have hh := h.isLt; have hn := n.isLt; have hd := d.isLt
  unfold regroup128
  rw [truncf_apply]
  refine (shapeCast_apply _ shapeCasts_S4x6x196x128_S24x196x128 (ix3 (pair b h) n d) (ix4 b h n d) ?_).trans ?_
  · rewrite [Shape.rowMajor_val_four, Shape.rowMajor_val_three]
    show ((b.val * 6 + h.val) * 196 + n.val) * 128 + d.val = ((b.val * 6 + h.val) * 196 + n.val) * 128 + d.val
    rfl
  refine (transpose_apply [0, 2, 1, 3] _ transposes_S4x196x6x128_p0_2_1_3_S4x6x196x128 (ix4 b h n d) (ix4 b n h d)
    (fun c => match c with | ⟨0, _⟩ => rfl | ⟨1, _⟩ => rfl | ⟨2, _⟩ => rfl | ⟨3, _⟩ => rfl)).trans ?_
  refine shapeCast_apply x shapeCasts_S784x768_S4x196x6x128 (ix4 b n h d) (ix2 (row b n) (col128 h d)) ?_
  rewrite [Shape.rowMajor_val_two, Shape.rowMajor_val_four]
  show (b.val * 196 + n.val) * 768 + (h.val * 128 + d.val) = ((b.val * 196 + n.val) * 6 + h.val) * 128 + d.val
  omega

/-- The bias plane of head h serves every batch element. -/
theorem biasPlanes_apply (bias : FVec Ideal S6x196x196 .f32) (b : Fin 4) (h : Fin 6) (n m : Fin 196) :
    biasPlanes (F := Ideal) bias (ix4 b h n m) = bias (ix3 h n m) := by
  unfold biasPlanes
  rw [shapeCast_self]
  refine (broadcastTo_apply _ broadcasts_S1x6x196x196_S4x6x196x196 (ix4 b h n m) (ix4 (0 : Fin 1) h n m)
    (fun a => ?_)).trans ?_
  · match a with
    | ⟨0, _⟩ => show 0 = if (1 : Nat) = 1 then 0 else b.val; exact (if_pos rfl).symm
    | ⟨1, _⟩ => show h.val = if (6 : Nat) = 1 then 0 else h.val; exact (if_neg (show ¬(6 : Nat) = 1 by decide)).symm
    | ⟨2, _⟩ => show n.val = if (196 : Nat) = 1 then 0 else n.val; exact (if_neg (show ¬(196 : Nat) = 1 by decide)).symm
    | ⟨3, _⟩ => show m.val = if (196 : Nat) = 1 then 0 else m.val; exact (if_neg (show ¬(196 : Nat) = 1 by decide)).symm
  refine shapeCast_apply bias shapeCasts_S6x196x196_S1x6x196x196 (ix4 (0 : Fin 1) h n m) (ix3 h n m) ?_
  rewrite [Shape.rowMajor_val_three, Shape.rowMajor_val_four]
  show (h.val * 196 + n.val) * 196 + m.val = (((0 : Nat) * 6 + h.val) * 196 + n.val) * 196 + m.val
  omega

/-- The score of pair (b, h), query token n against key token m. -/
theorem scores_apply (Q K : FVec Ideal S24x196x32 .bf16) (bias : FVec Ideal S6x196x196 .f32)
    (b : Fin 4) (h : Fin 6) (n m : Fin 196) :
    scores (F := Ideal) Q K bias (ix3 (pair b h) n m)
      = (∑ kk : Fin 32, Q (ix3 (pair b h) n kk) * K (ix3 (pair b h) m kk)) * Spec.scale + bias (ix3 h n m) := by
  unfold scores
  refine (shapeCast_apply _ shapeCasts_S4x6x196x196_S24x196x196 (ix3 (pair b h) n m) (ix4 b h n m) ?_).trans ?_
  · rewrite [Shape.rowMajor_val_four, Shape.rowMajor_val_three]
    show ((b.val * 6 + h.val) * 196 + n.val) * 196 + m.val = ((b.val * 6 + h.val) * 196 + n.val) * 196 + m.val
    rfl
  rw [addf_apply, biasPlanes_apply]
  refine congrArg (· + bias (ix3 h n m)) ?_
  refine (shapeCast_apply _ shapeCasts_S24x196x196_S4x6x196x196 (ix4 b h n m) (ix3 (pair b h) n m) ?_).trans ?_
  · rewrite [Shape.rowMajor_val_three, Shape.rowMajor_val_four]
    show ((b.val * 6 + h.val) * 196 + n.val) * 196 + m.val = ((b.val * 6 + h.val) * 196 + n.val) * 196 + m.val
    rfl
  rw [mulf_apply, broadcast_apply, KDots.dot_scores]
  rfl

/-- The reduced index (g, n) with key token k put back is (g, n, k). -/
private theorem lift_ix3 (g : Fin 24) (n : Fin 196) (k : Fin (S24x196x196.size 2)) :
    reduces_S24x196x196_S24x196.lift (ix2 g n) k = ix3 g n (⟨k.val, k.isLt⟩ : Fin 196) := by
  funext c; apply Fin.ext
  fin_cases c <;> rfl

/-- A column of 24 × 196 entries kept as 24 × 196 × 1 and repeated along the last axis reads its row's entry. -/
theorem keepcol_apply (c : FVec Ideal S24x196 .f32) (g : Fin 24) (n m : Fin 196) :
    broadcastTo S24x196x196 (shapeCast S24x196x1 c shapeCasts_S24x196_S24x196x1) broadcasts_S24x196x1_S24x196x196
      (ix3 g n m) = c (ix2 g n) := by
  refine (broadcastTo_apply _ broadcasts_S24x196x1_S24x196x196 (ix3 g n m) (ix3 g n (0 : Fin 1)) (fun a => ?_)).trans ?_
  · match a with
    | ⟨0, _⟩ => show g.val = if (24 : Nat) = 1 then 0 else g.val; exact (if_neg (show ¬(24 : Nat) = 1 by decide)).symm
    | ⟨1, _⟩ => show n.val = if (196 : Nat) = 1 then 0 else n.val; exact (if_neg (show ¬(196 : Nat) = 1 by decide)).symm
    | ⟨2, _⟩ => show 0 = if (1 : Nat) = 1 then 0 else m.val; exact (if_pos rfl).symm
  refine shapeCast_apply c shapeCasts_S24x196_S24x196x1 (ix3 g n (0 : Fin 1)) (ix2 g n) ?_
  rewrite [Shape.rowMajor_val_two, Shape.rowMajor_val_three]
  show g.val * 196 + n.val = (g.val * 196 + n.val) * 1 + 0
  omega

section Row

variable (s : FVec Ideal S24x196x196 .f32) (g : Fin 24) (n : Fin 196) (S : Fin 196 → EReal)
  (hS : ∀ m : Fin 196, s (ix3 g n m) = S m)

include hS

/-- The largest score of row (g, n). -/
theorem rowMax_apply : rowMax (F := Ideal) s (ix2 g n) = Attn.rowmaxG S := by
  unfold rowMax
  rw [maximumf_apply, broadcast_apply]
  refine congrArg (max Spec.negInf) ?_
  refine (Ideal.multiReduction_maximumf_single s 0xFF800000#32 reduces_S24x196x196_S24x196 (.inl rfl) rfl (ix2 g n)).trans ?_
  have hf : (s ∘ reduces_S24x196x196_S24x196.lift (ix2 g n)) = S :=
    funext fun k => (congrArg s (lift_ix3 g n k)).trans (hS _)
  exact congrArg (fun f => Finset.fold max Spec.negInf f (Finset.univ : Finset (Fin 196))) hf

/-- The exponential of a score of row (g, n) minus the row's maximum. -/
theorem expo_apply (m : Fin 196) : expo (F := Ideal) s (ix3 g n m) = Attn.exG S m := by
  unfold expo
  show Ideal.exp (s (ix3 g n m) - broadcastTo S24x196x196 _ broadcasts_S24x196x1_S24x196x196 (ix3 g n m)) = _
  rw [keepcol_apply, rowMax_apply s g n S hS, hS]
  rfl

/-- The sum of row (g, n)'s exponentials. -/
theorem rowSum_apply : rowSum (F := Ideal) (expo (F := Ideal) s) (ix2 g n) = Attn.denG S := by
  unfold rowSum
  refine (Ideal.multiReduction_add_single (expo (F := Ideal) s) 0x00000000#32 reduces_S24x196x196_S24x196 (.inl rfl) rfl
    (ix2 g n)).trans ?_
  exact Finset.sum_congr rfl fun k _ =>
    (congrArg (expo (F := Ideal) s) (lift_ix3 g n k)).trans (expo_apply s g n S hS _)

/-- The softmax weight of key token m in row (g, n). -/
theorem weights_apply (m : Fin 196) : weights (F := Ideal) s (ix3 g n m) = Attn.probG S m := by
  unfold weights
  rw [truncf_apply, divf_apply, keepcol_apply, rowSum_apply s g n S hS, expo_apply s g n S hS]
  rfl

end Row

/-- Entry (196·b + n, 128·h + d) of the regrouped result is entry (6·b + h, n, d) of the attended values. -/
theorem ungroup_apply (y : FVec Ideal S24x196x128 .f32) (b : Fin 4) (h : Fin 6) (n : Fin 196) (d : Fin 128) :
    ungroup (F := Ideal) y (ix2 (row b n) (col128 h d)) = y (ix3 (pair b h) n d) := by
  have hb := b.isLt; have hh := h.isLt; have hn := n.isLt; have hd := d.isLt
  unfold ungroup
  rw [shapeCast_self, truncf_apply]
  refine (shapeCast_apply _ shapeCasts_S4x196x6x128_S784x768 (ix2 (row b n) (col128 h d)) (ix4 b n h d) ?_).trans ?_
  · rewrite [Shape.rowMajor_val_four, Shape.rowMajor_val_two]
    show ((b.val * 196 + n.val) * 6 + h.val) * 128 + d.val = (b.val * 196 + n.val) * 768 + (h.val * 128 + d.val)
    omega
  refine (transpose_apply [0, 2, 1, 3] _ transposes_S4x6x196x128_p0_2_1_3_S4x196x6x128 (ix4 b n h d) (ix4 b h n d)
    (fun c => match c with | ⟨0, _⟩ => rfl | ⟨1, _⟩ => rfl | ⟨2, _⟩ => rfl | ⟨3, _⟩ => rfl)).trans ?_
  refine shapeCast_apply y shapeCasts_S24x196x128_S4x6x196x128 (ix4 b h n d) (ix3 (pair b h) n d) ?_
  rewrite [Shape.rowMajor_val_three, Shape.rowMajor_val_four]
  show ((b.val * 6 + h.val) * 196 + n.val) * 128 + d.val = ((b.val * 6 + h.val) * 196 + n.val) * 128 + d.val
  rfl

/-! ## The chunk's payload at an entry -/

/-- Entry (196·b + n, 128·h + d) of the chunk's payload is head h's attention of token n of batch element b,
    over that token's scores against the batch element's 196 key tokens and the value feature d. -/
theorem chunk_apply (q k : FVec Ideal S784x192 .f32) (v : FVec Ideal S784x768 .f32) (bias : FVec Ideal S6x196x196 .f32)
    (b : Fin 4) (h : Fin 6) (n : Fin 196) (d : Fin 128) :
    k0_pay4 (F := Ideal) q k v bias (ix2 (row b n) (col128 h d))
      = Attn.attG
          (fun m => Attn.scoreG (fun kk => q (ix2 (row b n) (col32 h kk))) (fun m kk => k (ix2 (row b m) (col32 h kk)))
            (fun m => bias (ix3 h n m)) m)
          (fun m => v (ix2 (row b m) (col128 h d))) := by
  have hS : ∀ m : Fin 196, scores (F := Ideal) (regroup32 (F := Ideal) q) (regroup32 (F := Ideal) k) bias (ix3 (pair b h) n m)
      = Attn.scoreG (fun kk => q (ix2 (row b n) (col32 h kk))) (fun m kk => k (ix2 (row b m) (col32 h kk)))
          (fun m => bias (ix3 h n m)) m := fun m => by
    rw [scores_apply]
    simp only [regroup32_apply]
    rfl
  rw [pay4_eq, ungroup_apply]
  unfold attend
  rw [KDots.dot_att]
  unfold Attn.attG
  refine Finset.sum_congr rfl fun m _ => ?_
  rw [weights_apply _ (pair b h) n _ hS m, regroup128_apply]

end Cert.KChunk

end
-- ==== Proof.KCompose.lean ====
/-
  The block a grid point stores, read at an entry in terms of the block's own projection.

  Column j of the 2304 attended features belongs to head j / 128 (feature j % 128); the chunk of six heads that
  wrote it is j / 768, and within the chunk the head is (j % 768) / 128.  Chunk c read the projection's columns
  192·c … (queries), 576 + 192·c … (keys), 1152 + 768·c … (values) and bias planes 6·c …: with the projection's
  columns arranged [all queries | all keys | all values] these are head 6·c + h's columns 32·(6c + h) + k,
  576 + 32·(6c + h) + k and 1152 + 128·(6c + h) + d.
-/
import proofs.«115814_j15985868275953_2_alg».proof.Proof.KBlock
import proofs.«115814_j15985868275953_2_alg».proof.Proof.KNorm
import proofs.«115814_j15985868275953_2_alg».proof.Proof.KProj
import proofs.«115814_j15985868275953_2_alg».proof.Proof.Attn
import proofs.«115814_j15985868275953_2_alg».proof.Proof.Tile
import proofs.«115814_j15985868275953_2_alg».proof.Proof.KChunk
import Idealize.ShloMosaic.Lib.ValueIdx
import Idealize.ShloMosaic.Lib.Pipeline.Value

set_option maxRecDepth 16384

noncomputable section

namespace Cert.KCompose

open Idealize.ShloMosaic Idealize.ShloMosaic.ValueIdx
open Cert.KernelIdeal Cert.KernelIdeal.Gen Cert.Tile Cert.Attn Cert.KBlock

open Cert.KChunk (chunk_apply pay65_eq pay17_eq)

/-! ## Columns of the arrangement by sections -/

/-- Query feature `k` of head `h`. -/
def qsec (h : Fin 18) (k : Fin 32) : Fin 3456 := ⟨h.val * 32 + k.val, by omega⟩
/-- Key feature `k` of head `h`. -/
def ksec (h : Fin 18) (k : Fin 32) : Fin 3456 := ⟨576 + h.val * 32 + k.val, by omega⟩
/-- Value feature `d` of head `h`. -/
def vsec (h : Fin 18) (d : Fin 128) : Fin 3456 := ⟨1152 + h.val * 128 + d.val, by omega⟩

/-- Head `h`'s attended feature `d` of token `n` of the block's batch element `b`, from the block's projection `P`
    (784 rows, columns by sections) and the 18 bias planes. -/
def attP (P : S784x3456.Idx → EReal) (B : S18x196x196.Idx → EReal) (b : Fin 4) (h : Fin 18) (n : Fin 196) (d : Fin 128) : EReal :=
  attG (fun m => scoreG (fun k => P (ix2 (row b n) (qsec h k))) (fun m k => P (ix2 (row b m) (ksec h k))) (fun m => B (ix3 h n m)) m)
    (fun m => P (ix2 (row b m) (vsec h d)))

/-! ## Slices read at an entry -/

/-- A slice of columns `o …` of a matrix reads the matrix at the shifted column. -/
theorem ld_cols {R C W : Nat} (X : (⟨2, ![R, C]⟩ : Shape).Idx → Elt Ideal .f32) (o : Nat)
    (inb : ∀ a, (![0, o] : Fin 2 → Nat) a + (![R, W] : Fin 2 → Nat) a ≤ (⟨2, ![R, C]⟩ : Shape).size a)
    (r : Fin R) (c : Fin W) (h : o + c.val < C) :
    View.ld (Val := Elt Ideal) (e' := .f32) X (Rect.unit (s := ⟨2, ![R, C]⟩) ![0, o] ![R, W] inb) (ix2 r c) = X (ix2 r ⟨o + c.val, h⟩) := by
  show X ((Rect.unit (s := ⟨2, ![R, C]⟩) ![0, o] ![R, W] inb).idx (ix2 r c)) = _
  refine congrArg X (funext fun a => Fin.ext ?_)
  match a with
  | ⟨0, _⟩ => show 0 + 1 * r.val = r.val; omega
  | ⟨1, _⟩ => show o + 1 * c.val = o + c.val; omega

/-- A slice of planes `o …` of a stack of planes reads the stack at the shifted plane. -/
theorem ld_planes {N M A B : Nat} (X : (⟨3, ![N, A, B]⟩ : Shape).Idx → Elt Ideal .f32) (o : Nat)
    (inb : ∀ a, (![o, 0, 0] : Fin 3 → Nat) a + (![M, A, B] : Fin 3 → Nat) a ≤ (⟨3, ![N, A, B]⟩ : Shape).size a)
    (p : Fin M) (i : Fin A) (j : Fin B) (h : o + p.val < N) :
    View.ld (Val := Elt Ideal) (e' := .f32) X (Rect.unit (s := ⟨3, ![N, A, B]⟩) ![o, 0, 0] ![M, A, B] inb) (ix3 p i j) = X (ix3 ⟨o + p.val, h⟩ i j) := by
  show X ((Rect.unit (s := ⟨3, ![N, A, B]⟩) ![o, 0, 0] ![M, A, B] inb).idx (ix3 p i j)) = _
  refine congrArg X (funext fun a => Fin.ext ?_)
  match a with
  | ⟨0, _⟩ => show o + 1 * p.val = o + p.val; omega
  | ⟨1, _⟩ => show 0 + 1 * i.val = i.val; omega
  | ⟨2, _⟩ => show 0 + 1 * j.val = j.val; omega

/-- A chunk's payload on slices at column offsets `qo`, `ko`, `vo` and plane offset `bo`: the chunk's head `h` is
    head `g` of the eighteen when the offsets are `g`'s. -/
theorem chunk_off (P : FVec Ideal S784x3456 .f32) (B : FVec Ideal S18x196x196 .f32) (qo ko vo bo : Nat)
    (inbq : ∀ a, (![0, qo] : Fin 2 → Nat) a + S784x192.size a ≤ S784x3456.size a)
    (inbk : ∀ a, (![0, ko] : Fin 2 → Nat) a + S784x192.size a ≤ S784x3456.size a)
    (inbv : ∀ a, (![0, vo] : Fin 2 → Nat) a + S784x768.size a ≤ S784x3456.size a)
    (inbb : ∀ a, (![bo, 0, 0] : Fin 3 → Nat) a + S6x196x196.size a ≤ S18x196x196.size a)
    (b : Fin 4) (h : Fin 6) (n : Fin 196) (d : Fin 128) (g : Fin 18)
    (hq : qo + h.val * 32 = g.val * 32) (hk : ko + h.val * 32 = 576 + g.val * 32)
    (hv : vo + h.val * 128 = 1152 + g.val * 128) (hb : bo + h.val = g.val) :
    k0_pay4 (F := Ideal) (View.ld P (Rect.unit (s := S784x3456) ![0, qo] S784x192.size inbq))
        (View.ld P (Rect.unit (s := S784x3456) ![0, ko] S784x192.size inbk))
        (View.ld P (Rect.unit (s := S784x3456) ![0, vo] S784x768.size inbv))
        (View.ld B (Rect.unit (s := S18x196x196) ![bo, 0, 0] S6x196x196.size inbb)) (ix2 (row b n) (col128 h d))
      = attP P B b g n d := by
  rw [chunk_apply]
  unfold attP
  have e1 : ∀ (m : Fin 196) (k : Fin 32), View.ld (Val := Elt Ideal) (e' := .f32) P (Rect.unit (s := S784x3456) ![0, qo] S784x192.size inbq) (ix2 (row b m) (col32 h k))
      = P (ix2 (row b m) (qsec g k)) := fun m k => by
    refine (ld_cols P qo inbq (row b m) (col32 h k) (by have := inbq 1; show qo + (h.val * 32 + k.val) < 3456; have : qo + 192 ≤ 3456 := this; omega)).trans ?_
    exact congrArg (fun c => P (ix2 (row b m) c)) (Fin.ext (by show qo + (h.val * 32 + k.val) = g.val * 32 + k.val; omega))
  have e2 : ∀ (m : Fin 196) (k : Fin 32), View.ld (Val := Elt Ideal) (e' := .f32) P (Rect.unit (s := S784x3456) ![0, ko] S784x192.size inbk) (ix2 (row b m) (col32 h k))
      = P (ix2 (row b m) (ksec g k)) := fun m k => by
    refine (ld_cols P ko inbk (row b m) (col32 h k) (by have : ko + 192 ≤ 3456 := inbk 1; show ko + (h.val * 32 + k.val) < 3456; omega)).trans ?_
    exact congrArg (fun c => P (ix2 (row b m) c)) (Fin.ext (by show ko + (h.val * 32 + k.val) = 576 + g.val * 32 + k.val; omega))
  have e3 : ∀ (m : Fin 196), View.ld (Val := Elt Ideal) (e' := .f32) P (Rect.unit (s := S784x3456) ![0, vo] S784x768.size inbv) (ix2 (row b m) (col128 h d))
      = P (ix2 (row b m) (vsec g d)) := fun m => by
    refine (ld_cols P vo inbv (row b m) (col128 h d) (by have : vo + 768 ≤ 3456 := inbv 1; show vo + (h.val * 128 + d.val) < 3456; omega)).trans ?_
    exact congrArg (fun c => P (ix2 (row b m) c)) (Fin.ext (by show vo + (h.val * 128 + d.val) = 1152 + g.val * 128 + d.val; omega))
  have e4 : ∀ (m : Fin 196), View.ld (Val := Elt Ideal) (e' := .f32) B (Rect.unit (s := S18x196x196) ![bo, 0, 0] S6x196x196.size inbb) (ix3 h n m) = B (ix3 g n m) := fun m => by
    refine (ld_planes B bo inbb h n m (by have : bo + 6 ≤ 18 := inbb 0; omega)).trans ?_
    exact congrArg (fun p => B (ix3 p n m)) (Fin.ext (by show bo + h.val = g.val; omega))
  simp only [e1, e2, e3, e4]

/-! ## The attended-feature scratch read at a column -/

/-- A column outside a 768-column section is not in that section's rectangle. -/
theorem notin_cols (o : Nat) (inb : ∀ a, (![0, o] : Fin 2 → Nat) a + S784x768.size a ≤ S784x2304.size a) (r : Fin 784) (j : Fin 2304)
    (h : j.val < o ∨ o + 768 ≤ j.val) : ix2 r j ∉ (Rect.unit (s := S784x2304) ![0, o] S784x768.size inb).set := fun hm => by
  have h1 : o ≤ j.val ∧ j.val < o + 768 := (Rect.mem_set_unit.mp hm) 1
  omega

/-- Column `o + jj` of the scratch is column `jj` of the section at offset `o`. -/
theorem emb_cols (o : Nat) (inb : ∀ a, (![0, o] : Fin 2 → Nat) a + S784x768.size a ≤ S784x2304.size a) (r : Fin 784) (jj : Fin 768)
    (hj : o + jj.val < 2304) :
    (ix2 r (⟨o + jj.val, hj⟩ : Fin 2304) : S784x2304.Idx) = (Rect.unit (s := S784x2304) ![0, o] S784x768.size inb).emb (ix2 r jj) := by
  funext a
  apply Fin.ext
  match a with
  | ⟨0, _⟩ => show r.val = 0 + 1 * r.val; omega
  | ⟨1, _⟩ => show o + jj.val = o + 1 * jj.val; omega

/-- A section the column lies outside of is passed over. -/
theorem canon_skip (o : Nat) (inb : ∀ a, (![0, o] : Fin 2 → Nat) a + S784x768.size a ≤ S784x2304.size a)
    (w : (Rect.unit (s := S784x2304) ![0, o] S784x768.size inb).shape.Idx → Elt Ideal .bf16)
    (L : List (View.Piece (Elt Ideal) S784x2304 .bf16)) (r : Fin 784) (j : Fin 2304) (h : j.val < o ∨ o + 768 ≤ j.val) :
    View.canon ((⟨Rect.unit (s := S784x2304) ![0, o] S784x768.size inb, w⟩ : View.Piece (Elt Ideal) S784x2304 .bf16) :: L) (ix2 r j)
      = View.canon L (ix2 r j) :=
  View.canon_cons_of_not_mem _ L (notin_cols o inb r j h)

/-- The section the column lies in gives its payload at the column within the section. -/
theorem canon_hit (o : Nat) (inb : ∀ a, (![0, o] : Fin 2 → Nat) a + S784x768.size a ≤ S784x2304.size a)
    (w : (Rect.unit (s := S784x2304) ![0, o] S784x768.size inb).shape.Idx → Elt Ideal .bf16)
    (L : List (View.Piece (Elt Ideal) S784x2304 .bf16)) (r : Fin 784) (jj : Fin 768) (hj : o + jj.val < 2304) :
    View.canon ((⟨Rect.unit (s := S784x2304) ![0, o] S784x768.size inb, w⟩ : View.Piece (Elt Ideal) S784x2304 .bf16) :: L)
        (ix2 r (⟨o + jj.val, hj⟩ : Fin 2304))
      = w (ix2 r jj) := by
  rw [emb_cols o inb r jj hj]
  exact View.canon_cons_emb _ _ _ _

/-- Columns 0–767: heads 0–5. -/
theorem heads_c0 (P : FVec Ideal S784x3456 .f32) (B : FVec Ideal S18x196x196 .f32) (b : Fin 4) (n : Fin 196) (h : Fin 6) (d : Fin 128)
    (hj : 0 + (col128 h d).val < 2304) (g : Fin 18) (hg : g.val = 0 + h.val) :
    heads (F := Ideal) P B (ix2 (row b n) ⟨0 + (col128 h d).val, hj⟩) = attP P B b g n d := by
  unfold heads headPieces
  refine (canon_skip 1536 _ _ _ (row b n) _ (Or.inl (by show 0 + (h.val * 128 + d.val) < 1536; omega))).trans ?_
  refine (canon_skip 768 _ _ _ (row b n) _ (Or.inl (by show 0 + (h.val * 128 + d.val) < 768; omega))).trans ?_
  refine (canon_hit 0 _ _ _ (row b n) (col128 h d) hj).trans ?_
  unfold chunk0
  exact chunk_off P B 0 576 1152 0 _ _ _ _ b h n d g (by omega) (by omega) (by omega) (by omega)

/-- Columns 768–1535: heads 6–11. -/
theorem heads_c1 (P : FVec Ideal S784x3456 .f32) (B : FVec Ideal S18x196x196 .f32) (b : Fin 4) (n : Fin 196) (h : Fin 6) (d : Fin 128)
    (hj : 768 + (col128 h d).val < 2304) (g : Fin 18) (hg : g.val = 6 + h.val) :
    heads (F := Ideal) P B (ix2 (row b n) ⟨768 + (col128 h d).val, hj⟩) = attP P B b g n d := by
  unfold heads headPieces
  refine (canon_skip 1536 _ _ _ (row b n) _ (Or.inl (by show 768 + (h.val * 128 + d.val) < 1536; omega))).trans ?_
  refine (canon_hit 768 _ _ _ (row b n) (col128 h d) hj).trans ?_
  unfold chunk1
  rw [pay65_eq]
  exact chunk_off P B 192 768 1920 6 _ _ _ _ b h n d g (by omega) (by omega) (by omega) (by omega)

/-- Columns 1536–2303: heads 12–17. -/
theorem heads_c2 (P : FVec Ideal S784x3456 .f32) (B : FVec Ideal S18x196x196 .f32) (b : Fin 4) (n : Fin 196) (h : Fin 6) (d : Fin 128)
    (hj : 1536 + (col128 h d).val < 2304) (g : Fin 18) (hg : g.val = 12 + h.val) :
    heads (F := Ideal) P B (ix2 (row b n) ⟨1536 + (col128 h d).val, hj⟩) = attP P B b g n d := by
  unfold heads headPieces
  refine (canon_hit 1536 _ _ _ (row b n) (col128 h d) hj).trans ?_
  unfold chunk2
  rw [pay17_eq]
  exact chunk_off P B 384 960 2688 12 _ _ _ _ b h n d g (by omega) (by omega) (by omega) (by omega)

/-- Any column `j` of the scratch holds head `j / 128`'s attended feature `j % 128`. -/
theorem heads_at (P : FVec Ideal S784x3456 .f32) (B : FVec Ideal S18x196x196 .f32) (b : Fin 4) (n : Fin 196) (j : Fin 2304) :
    heads (F := Ideal) P B (ix2 (row b n) j) = attP P B b (Cert.Spec.headOf j) n (Cert.Spec.featOf j) := by
  have hj := j.isLt
  by_cases h0 : j.val < 768
  · obtain ⟨h, d, hjj, rfl⟩ : ∃ (h : Fin 6) (d : Fin 128) (hjj : 0 + (col128 h d).val < 2304), j = ⟨0 + (col128 h d).val, hjj⟩ :=
      ⟨⟨j.val / 128, by omega⟩, ⟨j.val % 128, by omega⟩, by show 0 + (j.val / 128 * 128 + j.val % 128) < 2304; omega,
        Fin.ext (by show j.val = 0 + (j.val / 128 * 128 + j.val % 128); omega)⟩
    rw [show Cert.Spec.featOf ⟨0 + (col128 h d).val, hjj⟩ = d from Fin.ext (by show (0 + (h.val * 128 + d.val)) % 128 = d.val; omega)]
    exact heads_c0 P B b n h d hjj _ (by show (0 + (h.val * 128 + d.val)) / 128 = 0 + h.val; omega)
  · by_cases h1 : j.val < 1536
    · obtain ⟨h, d, hjj, rfl⟩ : ∃ (h : Fin 6) (d : Fin 128) (hjj : 768 + (col128 h d).val < 2304), j = ⟨768 + (col128 h d).val, hjj⟩ :=
        ⟨⟨(j.val - 768) / 128, by omega⟩, ⟨(j.val - 768) % 128, by omega⟩, by show 768 + ((j.val - 768) / 128 * 128 + (j.val - 768) % 128) < 2304; omega,
          Fin.ext (by show j.val = 768 + ((j.val - 768) / 128 * 128 + (j.val - 768) % 128); omega)⟩
      rw [show Cert.Spec.featOf ⟨768 + (col128 h d).val, hjj⟩ = d from Fin.ext (by show (768 + (h.val * 128 + d.val)) % 128 = d.val; omega)]
      exact heads_c1 P B b n h d hjj _ (by show (768 + (h.val * 128 + d.val)) / 128 = 6 + h.val; omega)
    · obtain ⟨h, d, hjj, rfl⟩ : ∃ (h : Fin 6) (d : Fin 128) (hjj : 1536 + (col128 h d).val < 2304), j = ⟨1536 + (col128 h d).val, hjj⟩ :=
        ⟨⟨(j.val - 1536) / 128, by omega⟩, ⟨(j.val - 1536) % 128, by omega⟩, by show 1536 + ((j.val - 1536) / 128 * 128 + (j.val - 1536) % 128) < 2304; omega,
          Fin.ext (by show j.val = 1536 + ((j.val - 1536) / 128 * 128 + (j.val - 1536) % 128); omega)⟩
      rw [show Cert.Spec.featOf ⟨1536 + (col128 h d).val, hjj⟩ = d from Fin.ext (by show (1536 + (h.val * 128 + d.val)) % 128 = d.val; omega)]
      exact heads_c2 P B b n h d hjj _ (by show (1536 + (h.val * 128 + d.val)) / 128 = 12 + h.val; omega)

/-! ## The stored block at an entry -/

/-- Entry (b, n, e) of the block a grid point stores: the 2304 attended features of token n of the block's batch
    element b — head j / 128, feature j % 128, from the block's own projection and the bias planes — against column e
    of the output weights, plus the output bias. -/
theorem blockFn_apply (x0 : FVec Ideal S4x196x576 .f32) (x1 x2 : FVec Ideal S576 .f32) (x3 : FVec Ideal S576x3456 .bf16)
    (x4 : FVec Ideal S3456 .f32) (x5 : FVec Ideal S2304x576 .bf16) (x6 : FVec Ideal S576 .f32) (x7 : FVec Ideal S18x196x196 .f32)
    (b : Fin 4) (n : Fin 196) (e : Fin 576) :
    blockFn (F := Ideal) x0 x1 x2 x3 x4 x5 x6 x7 (ix3 b n e)
      = (∑ j : Fin 2304, attP (Cert.KNorm.projected (F := Ideal) x0 x1 x2 x3 x4) x7 b (Cert.Spec.headOf j) n (Cert.Spec.featOf j) * x5 (ix2 j e))
        + x6 (ix1 e) := by
  unfold blockFn
  rw [Cert.KNorm.pay3_eq]
  exact (Cert.KProj.pay2_apply _ _ _ b n e).trans
    (congrArg (· + x6 (ix1 e)) (Finset.sum_congr rfl fun j _ => congrArg (· * x5 (ix2 j e)) (heads_at _ _ b n j)))

end Cert.KCompose

end
-- ==== Proof.KPoint.lean ====
/-
  One grid point's block against the specification.

  Grid point T works on the four batch elements 4·T, …, 4·T + 3.  Its input blocks are the four batch elements
  of the tokens, the layer-norm scale and shift, the projection's weights and bias with their 3456 columns
  arranged by sections — [all queries | all keys | all values], column j of that arrangement being column
  `perm j` of the head-by-head one —, the output weights and bias, and the 18 bias planes.  The block it stores,
  at token n of its batch element b and output feature e, is the specification's result at batch element
  4·T + b: the block's projection at column j is the specification's projection at column `perm j`, so the
  section columns of a head are that head's query, key and value columns, each head's attention is the
  specification's, and the final projection is the same sum.
-/
import proofs.«115814_j15985868275953_2_alg».proof.Proof.KCompose
import Idealize.ShloMosaic.Lib.ValueIdx
import Idealize.ShloMosaic.PureOps.Ideal.Laws

noncomputable section

namespace Cert.KPoint

open Idealize.ShloMosaic Idealize.ShloMosaic.ValueIdx
open Cert.KernelIdeal Cert.KernelIdeal.Gen Cert.Tile Cert.KCompose

/-- Batch element 4·T + b of the 256: element b of grid point T's tile. -/
def gb (T : Fin 64) (bl : Fin 4) : Fin 256 := ⟨T.val * 4 + bl.val, by omega⟩

/-! ## The section columns of a head -/

/-- In the arrangement by sections, head h's query column k is the head-by-head query column. -/
theorem perm_qsec (h : Fin 18) (k : Fin 32) : Spec.perm (qsec h k) = Spec.qcol h k :=
  Spec.perm_q h k (qsec h k).isLt

/-- Likewise for head h's key column k. -/
theorem perm_ksec (h : Fin 18) (k : Fin 32) : Spec.perm (ksec h k) = Spec.kcol h k :=
  Spec.perm_k h k (ksec h k).isLt

/-- Likewise for head h's value column d. -/
theorem perm_vsec (h : Fin 18) (d : Fin 128) : Spec.perm (vsec h d) = Spec.vcol h d :=
  Spec.perm_v h d (vsec h d).isLt

/-! ## The block's projection -/

/-- The block's projection of token n of its batch element b at column j of the arrangement by sections is the
    specification's projection of that token of batch element 4·T + b at column `perm j`. -/
theorem proj_entry
    (X0 : S256x196x576.Idx → EReal) (X1 X2 : S576.Idx → EReal) (X3 : S576x3456.Idx → EReal) (X4 : S3456.Idx → EReal)
    (x0 : FVec Ideal S4x196x576 .f32) (x1 x2 : FVec Ideal S576 .f32) (x3 : FVec Ideal S576x3456 .bf16)
    (x4 : FVec Ideal S3456 .f32) (T : Fin 64)
    (h0 : ∀ (bl : Fin 4) (n : Fin 196) (d : Fin 576), x0 (ix3 bl n d) = X0 (ix3 (gb T bl) n d))
    (h1 : ∀ d : Fin 576, x1 (ix1 d) = X1 (ix1 d)) (h2 : ∀ d : Fin 576, x2 (ix1 d) = X2 (ix1 d))
    (h3 : ∀ (d : Fin 576) (j : Fin 3456), x3 (ix2 d j) = X3 (ix2 d (Spec.perm j)))
    (h4 : ∀ j : Fin 3456, x4 (ix1 j) = X4 (ix1 (Spec.perm j)))
    (bl : Fin 4) (n : Fin 196) (j : Fin 3456) :
    KNorm.projected (F := Ideal) x0 x1 x2 x3 x4 (ix2 (row bl n) j)
      = Spec.qkv (Spec.cur3 X0) (Spec.cur1 X1) (Spec.cur1 X2) (Spec.cur2 X3) (Spec.cur1 X4) (gb T bl) n (Spec.perm j) := by
  have e0 : (fun d => x0 (ix3 bl n d)) = Spec.cur3 X0 (gb T bl) n := funext fun d => h0 bl n d
  have e1 : Spec.cur1 x1 = Spec.cur1 X1 := funext fun d => h1 d
  have e2 : Spec.cur1 x2 = Spec.cur1 X2 := funext fun d => h2 d
  refine (KNorm.projected_apply x0 x1 x2 x3 x4 bl n j (row bl n).isLt).trans ?_
  rw [e0, e1, e2, h4]
  exact congrArg (· + X4 (ix1 (Spec.perm j))) (Finset.sum_congr rfl fun d _ => by rw [h3]; rfl)

/-! ## One head's attention -/

/-- A head's attention from a projection P arranged by sections and the bias planes B is the specification's,
    when P's row of token m at column j is the specification's projection at column `perm j` and B is its bias. -/
theorem attP_eq (P : S784x3456.Idx → EReal) (B : S18x196x196.Idx → EReal)
    (x : Fin 256 → Fin 196 → Fin 576 → EReal) (lnw lnb : Fin 576 → EReal) (wq : Fin 576 → Fin 3456 → EReal)
    (bq : Fin 3456 → EReal) (bias : Fin 18 → Fin 196 → Fin 196 → EReal) (g : Fin 256) (bl : Fin 4)
    (hP : ∀ (m : Fin 196) (j : Fin 3456), P (ix2 (row bl m) j) = Spec.qkv x lnw lnb wq bq g m (Spec.perm j))
    (hB : ∀ (h : Fin 18) (n m : Fin 196), B (ix3 h n m) = bias h n m)
    (h : Fin 18) (n : Fin 196) (d : Fin 128) :
    attP P B bl h n d = Spec.att x lnw lnb wq bq bias g h n d := by
  unfold attP
  simp only [hP, hB, perm_qsec, perm_ksec, perm_vsec]
  rfl

/-! ## The block a grid point stores -/

/-- Entry (b, n, e) of the block grid point T stores is the specification's result at batch element 4·T + b,
    token n, feature e, when the point's input blocks are the arguments' blocks: the tile of four batch
    elements, the projection's weights and bias with their columns arranged by sections, the rest whole. -/
theorem point_eq
    (X0 : S256x196x576.Idx → EReal) (X1 X2 : S576.Idx → EReal) (X3 : S576x3456.Idx → EReal) (X4 : S3456.Idx → EReal)
    (X5 : S2304x576.Idx → EReal) (X6 : S576.Idx → EReal) (BI : S18x196x196.Idx → EReal)
    (x0 : FVec Ideal S4x196x576 .f32) (x1 x2 : FVec Ideal S576 .f32) (x3 : FVec Ideal S576x3456 .bf16)
    (x4 : FVec Ideal S3456 .f32) (x5 : FVec Ideal S2304x576 .bf16) (x6 : FVec Ideal S576 .f32)
    (x7 : FVec Ideal S18x196x196 .f32) (T : Fin 64)
    (h0 : ∀ (bl : Fin 4) (n : Fin 196) (d : Fin 576), x0 (ix3 bl n d) = X0 (ix3 (gb T bl) n d))
    (h1 : ∀ d : Fin 576, x1 (ix1 d) = X1 (ix1 d)) (h2 : ∀ d : Fin 576, x2 (ix1 d) = X2 (ix1 d))
    (h3 : ∀ (d : Fin 576) (j : Fin 3456), x3 (ix2 d j) = X3 (ix2 d (Spec.perm j)))
    (h4 : ∀ j : Fin 3456, x4 (ix1 j) = X4 (ix1 (Spec.perm j)))
    (h5 : ∀ (j : Fin 2304) (e : Fin 576), x5 (ix2 j e) = X5 (ix2 j e)) (h6 : ∀ e : Fin 576, x6 (ix1 e) = X6 (ix1 e))
    (h7 : ∀ (h : Fin 18) (n m : Fin 196), x7 (ix3 h n m) = BI (ix3 h n m))
    (bl : Fin 4) (n : Fin 196) (e : Fin 576) :
    Cert.KBlock.blockFn (F := Ideal) x0 x1 x2 x3 x4 x5 x6 x7 (ix3 bl n e)
      = Spec.out (Spec.cur3 X0) (Spec.cur1 X1) (Spec.cur1 X2) (Spec.cur2 X3) (Spec.cur1 X4) (Spec.cur2 X5) (Spec.cur1 X6)
          (Spec.cur3 BI) (gb T bl) n e := by
  refine (blockFn_apply x0 x1 x2 x3 x4 x5 x6 x7 bl n e).trans ?_
  rw [h6]
  refine congrArg (· + X6 (ix1 e)) (Finset.sum_congr rfl fun j _ => ?_)
  rw [h5, attP_eq (KNorm.projected (F := Ideal) x0 x1 x2 x3 x4) x7 (Spec.cur3 X0) (Spec.cur1 X1) (Spec.cur1 X2)
    (Spec.cur2 X3) (Spec.cur1 X4) (Spec.cur3 BI) (gb T bl) bl
    (fun m j => proj_entry X0 X1 X2 X3 X4 x0 x1 x2 x3 x4 T h0 h1 h2 h3 h4 bl m j) (fun h n m => h7 h n m)]
  rfl

end Cert.KPoint

end
-- ==== Proof.KHost.lean ====
/-
  What the kernel's region finds in the four arrays that are computed before it, each as a function of the argument
  arrays, on the extended reals.

  Four arrays are prepared: the bias table gathered per head, query and key (`V_bias`, the gather kept whole); the
  projection's weight matrix with its columns taken at a constant array of 3456 column numbers and then changed to a
  narrower float format (`V_wqkv`); the projection's bias vector taken at the same constant (`V_bqkv`); and the output
  projection's weights changed to the narrower format (`V_wproj`). On the extended reals a change of format is the
  identity. A take first moves a negative index up by the axis length, gathers with the index clamped into range, and
  keeps the gathered entry only where the index was in range, a fill value elsewhere. The constant's entries are the
  columns `Spec.permNat 0, …, Spec.permNat 3455`, decided entry by entry: none is negative and none exceeds 3455, so
  the normalisation changes nothing, the clamp changes nothing, the mask is one everywhere, and the taken array is the
  argument with its columns permuted by `Spec.perm`.
-/
import proofs.«115814_j15985868275953_2_alg».proof.Proof.Gen.KernelIdeal.Frame
import proofs.«115814_j15985868275953_2_alg».proof.Proof.Spec
import Idealize.ShloMosaic.Lib.ValueIdx
import Idealize.ShloMosaic.Lib.StableHlo.Run

set_option maxRecDepth 16384

noncomputable section

namespace Cert.KHost

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (c : Dev nD)

/-! ## The two plain stretches: the bias table and the output projection's weights -/

/-- The bias table gathered per head, query and key: the key-position table read at the index array, an index below zero
    first moved up by the table's length. The gather is kept whole: the other program applies the same operations. -/
def biasK (ab : S18x196.Idx → EReal) (idx : IVec S196x196 32) : S18x196x196.Idx → EReal :=
  Host.gather gather_S18x196_S196x196x1_S18x196x196_0_1_n_n_1_2_181 ab
    (broadcastInDim S196x196x1 ![0, 1] bcast_S196x196_S196x196x1_0_1
      (select (cmpi .slt idx (broadcastInDim S196x196 ![] bcast_S_S196x196 (constantI S_ 32 0#32)))
        (addi idx (broadcastInDim S196x196 ![] bcast_S_S196x196 (constantI S_ 32 196#32))) idx))

/-- The gathered bias table the region finds is that term of the two arguments. -/
theorem V_bias : (Gen.V m c main_v6 : S18x196x196.Idx → EReal)
    = biasK (m ((c : Thread nD τ).loc main_arg7)) (m ((c : Thread nD τ).loc main_arg8)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The output projection's weights the region finds are the argument's: a change of float format is the identity on
    the extended reals. -/
theorem V_wproj : (Gen.V m c main_v10 : S2304x576.Idx → EReal) = m ((c : Thread nD τ).loc main_arg5) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-! ## The constant index array -/

/-- The constant index array, entry by entry: entry `j` is the 32-bit word of the column the arrangement by sections
    takes its column `j` from. -/
theorem lit_perm : ∀ j : Fin 3456, lit0 j = BitVec.ofNat 32 (Cert.Spec.permNat j.val) := by
  decide +kernel

/-- What the index normalisation and the range test of a take see of the constant: no entry is negative, every entry is
    at most 3455, and the entry read as a signed integer and clamped to the last column is the permuted column. -/
theorem lit_words : ∀ j : Fin 3456,
    IntOp.cmpi .slt (lit0 j) 0#32 = 0#1 ∧ IntOp.cmpi .sge (lit0 j) 0#32 = 1#1 ∧ IntOp.cmpi .sle (lit0 j) 3455#32 = 1#1
      ∧ min (lit0 j).toInt.toNat (3456 - 1) = Cert.Spec.permNat j.val := by
  decide +kernel

/-! ## A take's pieces: the start indices, the in-range mask, the two gathers read at an index -/

/-- A conjunction over an array of ones, started from one, is one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  generalize List.filter _ _ = l
  induction l with
  | nil => rfl
  | cons a l ih => rw [List.foldl_cons, hx]; exact ih

/-- The gather of a vector at a column of start indices, read at `j`: the vector at the start index of row `j`, read
    signed and clamped to the vector's last position. -/
theorem gather_vec_apply {α : Type} (x : S3456.Idx → α) (idx : IVec S3456x1 32) (j : S3456.Idx) :
    Host.gather gather_S3456_S3456x1_S3456_n_0_n_n_0_1_1 x idx j
      = x (ix1 ⟨min (idx (ix2 (j 0) 0)).toInt.toNat (3456 - 1), by omega⟩) := by
  unfold Host.gather
  congr 1
  funext a
  obtain rfl : a = 0 := Subsingleton.elim _ _
  refine Fin.ext ?_
  show gather_S3456_S3456x1_S3456_n_0_n_n_0_1_1.start j idx 0 + gather_S3456_S3456x1_S3456_n_0_n_n_0_1_1.batchCoord j 0
    + gather_S3456_S3456x1_S3456_n_0_n_n_0_1_1.offCoord j 0 = _
  rw [GatherDims.batchCoord_eq_zero _ _ _ (show (0 : Fin 1) ∉ gather_S3456_S3456x1_S3456_n_0_n_n_0_1_1.operandBatchingDims from List.not_mem_nil),
    GatherDims.offCoord_eq_zero _ _ _ (fun h => ((GatherDims.mem_sKept _ _).mp h).1
      (show (0 : Fin 1) ∈ gather_S3456_S3456x1_S3456_n_0_n_n_0_1_1.collapsedSliceDims from List.mem_singleton.mpr rfl))]
  simp only [Nat.add_zero]
  unfold GatherDims.start
  rw [dif_pos (show (0 : Fin 1) ∈ gather_S3456_S3456x1_S3456_n_0_n_n_0_1_1.startIndexMap from List.mem_singleton.mpr rfl)]
  have hsi : gather_S3456_S3456x1_S3456_n_0_n_n_0_1_1.siIdx j ⟨List.idxOf (0 : Fin 1) gather_S3456_S3456x1_S3456_n_0_n_n_0_1_1.startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The gather of a matrix's columns at a column of start indices, read at `(d, j)`: row `d` of the matrix at the start
    index of row `j`, read signed and clamped to the matrix's last column. -/
theorem gather_cols_apply {α : Type} (x : S576x3456.Idx → α) (idx : IVec S3456x1 32) (j : S576x3456.Idx) :
    Host.gather gather_S576x3456_S3456x1_S576x3456_0_1_n_n_1_1_5761 x idx j
      = x (ix2 (j 0) ⟨min (idx (ix2 (j 1) 0)).toInt.toNat (3456 - 1), by omega⟩) := by
  have h0 : gather_S576x3456_S3456x1_S576x3456_0_1_n_n_1_1_5761.start j idx 0
      + gather_S576x3456_S3456x1_S576x3456_0_1_n_n_1_1_5761.batchCoord j 0
      + gather_S576x3456_S3456x1_S576x3456_0_1_n_n_1_1_5761.offCoord j 0 = (j 0).val := by
    rw [GatherDims.batchCoord_eq_zero _ _ _ (show (0 : Fin 2) ∉ gather_S576x3456_S3456x1_S576x3456_0_1_n_n_1_1_5761.operandBatchingDims from List.not_mem_nil)]
    unfold GatherDims.start GatherDims.offCoord
    rw [dif_neg (show (0 : Fin 2) ∉ gather_S576x3456_S3456x1_S576x3456_0_1_n_n_1_1_5761.startIndexMap from by decide),
      dif_pos (show (0 : Fin 2) ∈ gather_S576x3456_S3456x1_S576x3456_0_1_n_n_1_1_5761.sKept from by decide)]
    show 0 + 0 + (j 0).val = (j 0).val
    omega
  have h1 : gather_S576x3456_S3456x1_S576x3456_0_1_n_n_1_1_5761.start j idx 1
      + gather_S576x3456_S3456x1_S576x3456_0_1_n_n_1_1_5761.batchCoord j 1
      + gather_S576x3456_S3456x1_S576x3456_0_1_n_n_1_1_5761.offCoord j 1 = min (idx (ix2 (j 1) 0)).toInt.toNat (3456 - 1) := by
    rw [GatherDims.batchCoord_eq_zero _ _ _ (show (1 : Fin 2) ∉ gather_S576x3456_S3456x1_S576x3456_0_1_n_n_1_1_5761.operandBatchingDims from List.not_mem_nil),
      GatherDims.offCoord_eq_zero _ _ _ (fun h => ((GatherDims.mem_sKept _ _).mp h).1
        (show (1 : Fin 2) ∈ gather_S576x3456_S3456x1_S576x3456_0_1_n_n_1_1_5761.collapsedSliceDims from List.mem_singleton.mpr rfl))]
    simp only [Nat.add_zero]
    unfold GatherDims.start
    rw [dif_pos (show (1 : Fin 2) ∈ gather_S576x3456_S3456x1_S576x3456_0_1_n_n_1_1_5761.startIndexMap from List.mem_singleton.mpr rfl)]
    have hsi : gather_S576x3456_S3456x1_S576x3456_0_1_n_n_1_1_5761.siIdx j ⟨List.idxOf (1 : Fin 2) gather_S576x3456_S3456x1_S576x3456_0_1_n_n_1_1_5761.startIndexMap,
        List.idxOf_lt_length_iff.2 (List.mem_singleton.mpr rfl)⟩ = ix2 (j 1) 0 := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0
  | ⟨1, _⟩ => exact h1

/-! ## The take by the constant -/

/-- The constant index array as the host reads it: its 3456 words in order. -/
def colIdx : IVec S3456 32 := fun i => lit0 (S3456.rowMajor i)

/-- The normalised indices: an entry below zero is moved up by 3456. -/
def normIdx : IVec S3456 32 :=
  select (cmpi .slt colIdx (broadcastInDim S3456 ![] bcast_S_S3456 (constantI S_ 32 0#32)))
    (addi colIdx (broadcastInDim S3456 ![] bcast_S_S3456 (constantI S_ 32 3456#32))) colIdx

/-- The start indices of the gather: the normalised indices as a column. -/
def takeIdx : IVec S3456x1 32 := broadcastInDim S3456x1 ![0] bcast_S3456_S3456x1_0 normIdx

/-- The in-range mask: per index, 0 ≤ index and index ≤ 3455, the conjunction taken over the column's one entry. -/
def takeMask : IVec S3456 1 :=
  Host.reduce IntOp.andi
    (andi (cmpi .sge takeIdx (broadcastInDim S3456x1 ![] bcast_S_S3456x1 (constantI S_ 32 0#32)))
      (cmpi .sle takeIdx (broadcastInDim S3456x1 ![0, 1] bcast_S1x1_S3456x1_0_1
        (broadcastInDim S1x1 ![1] bcast_S1_S1x1_1 (constantI S1 32 3455#32)))))
    (constantI S_ 1 1#1) reducesTo_S3456x1_S3456_d1 h_S_

/-- No entry of the constant is negative, so normalising changes nothing: entry `i` is the constant's. -/
theorem normIdx_apply (i : S3456.Idx) : normIdx i = lit0 ⟨(i 0).val, (i 0).isLt⟩ := by
  have e : colIdx i = lit0 ⟨(i 0).val, (i 0).isLt⟩ := congrArg lit0 (Fin.ext (Shape.rowMajor_val_one i))
  show Scalar.select (IntOp.cmpi .slt (colIdx i) 0#32) (IntOp.addi (colIdx i) 3456#32) (colIdx i) = _
  rw [e, (lit_words _).1, select_zero]

/-- Row `k` of the start indices is entry `k` of the constant. -/
theorem takeIdx_apply (k : S3456x1.Idx) : takeIdx k = lit0 ⟨(k 0).val, (k 0).isLt⟩ :=
  (normIdx_apply _).trans rfl

/-- Every entry of the constant is a column of the matrix, so the mask is one everywhere. -/
theorem takeMask_apply (j : S3456.Idx) : takeMask j = 1#1 := by
  refine reduce_andi_ones _ _ _ _ (fun k => ?_) (fun _ => rfl) j
  show IntOp.andi (IntOp.cmpi .sge (takeIdx k) 0#32) (IntOp.cmpi .sle (takeIdx k) 3455#32) = 1#1
  rw [takeIdx_apply, (lit_words _).2.1, (lit_words _).2.2.1]
  rfl

/-- The start index of row `j`, read signed and clamped to the last column, is the permuted column. -/
theorem takeIdx_clamp (j : Fin 3456) :
    min (takeIdx (ix2 j 0)).toInt.toNat (3456 - 1) = (Cert.Spec.perm j).val := by
  rw [takeIdx_apply]
  exact (lit_words j).2.2.2

/-- The bias vector taken by the constant: the gathered entry where the mask is one, the fill value elsewhere. -/
def takeVec (x : S3456.Idx → EReal) : S3456.Idx → EReal :=
  select takeMask (Host.gather gather_S3456_S3456x1_S3456_n_0_n_n_0_1_1 x takeIdx)
    (broadcastInDim S3456 ![] bcast_S_S3456 (constant (F := Ideal) S_ .f32 0x7FC00000#32))

/-- The taken vector at `i` is the vector at the permuted column: the mask is one, the start index the column. -/
theorem takeVec_apply (x : S3456.Idx → EReal) (i : S3456.Idx) : takeVec x i = x (ix1 (Cert.Spec.perm (i 0))) := by
  show Scalar.select (takeMask i) (Host.gather gather_S3456_S3456x1_S3456_n_0_n_n_0_1_1 x takeIdx i) _ = _
  rw [takeMask_apply, select_one, gather_vec_apply]
  exact congrArg x (congrArg ix1 (Fin.ext (takeIdx_clamp (i 0))))

set_option maxHeartbeats 1000000 in
/-- The projection's bias vector the region finds is the take of the argument. -/
theorem V_bqkv_eq : (Gen.V m c main_v9 : S3456.Idx → EReal) = takeVec (m ((c : Thread nD τ).loc main_arg4)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-- The projection's bias vector the region finds is the argument's with its entries permuted. -/
theorem V_bqkv (i : S3456.Idx) :
    (Gen.V m c main_v9 : S3456.Idx → EReal) i = m ((c : Thread nD τ).loc main_arg4) (ix1 (Cert.Spec.perm (i 0))) := by
  rw [V_bqkv_eq, takeVec_apply]

/-- The weight matrix taken by the constant along its columns: the gathered entry where the column's mask is one, the
    fill value elsewhere. -/
def takeMat (x : S576x3456.Idx → EReal) : S576x3456.Idx → EReal :=
  select (broadcastInDim S576x3456 ![1] bcast_S3456_S576x3456_1 takeMask)
    (Host.gather gather_S576x3456_S3456x1_S576x3456_0_1_n_n_1_1_5761 x takeIdx)
    (broadcastInDim S576x3456 ![] bcast_S_S576x3456 (constant (F := Ideal) S_ .f32 0x7FC00000#32))

/-- The taken matrix at `(d, j)` is row `d` of the matrix at the permuted column. -/
theorem takeMat_apply (x : S576x3456.Idx → EReal) (i : S576x3456.Idx) :
    takeMat x i = x (ix2 (i 0) (Cert.Spec.perm (i 1))) := by
  show Scalar.select (takeMask _) (Host.gather gather_S576x3456_S3456x1_S576x3456_0_1_n_n_1_1_5761 x takeIdx i) _ = _
  rw [takeMask_apply, select_one, gather_cols_apply]
  exact congrArg x (congrArg (ix2 (i 0)) (Fin.ext (takeIdx_clamp (i 1))))

set_option maxHeartbeats 1000000 in
/-- The projection's weights the region finds are the take of the argument: the change of format after the take is the
    identity. -/
theorem V_wqkv_eq : (Gen.V m c main_v8 : S576x3456.Idx → EReal) = takeMat (m ((c : Thread nD τ).loc main_arg3)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-- The projection's weights the region finds are the argument's with its columns permuted. -/
theorem V_wqkv (i : S576x3456.Idx) :
    (Gen.V m c main_v8 : S576x3456.Idx → EReal) i
      = m ((c : Thread nD τ).loc main_arg3) (ix2 (i 0) (Cert.Spec.perm (i 1))) := by
  rw [V_wqkv_eq, takeMat_apply]

end Cert.KHost

end
-- ==== Proof.KFinal.lean ====
/-
  From tiles to the whole result.  The grid has 64 points; point t stages the four batch elements 4t … 4t + 3 of
  the token array and writes back the same tile of the result, every other operand being staged whole.  What a
  point finds in its staging buffers is read off the arrays as the host operations before the region leave them:
  the arguments themselves, the projection weights and bias with their columns arranged by sections (and changed
  of format, which is the identity over the extended reals), and the gathered bias planes.  With those, a point's
  stored tile is the specification's tile; the 64 tiles fill the result, so after the run the result array is the
  specification at the argument arrays.
-/
import proofs.«115814_j15985868275953_2_alg».proof.Proof.Gen.KernelIdeal.Value
import proofs.«115814_j15985868275953_2_alg».proof.Proof.KCompose
import proofs.«115814_j15985868275953_2_alg».proof.Proof.KPoint
import proofs.«115814_j15985868275953_2_alg».proof.Proof.KHost
import Idealize.ShloMosaic.Lib.Pipeline.Value
import Idealize.ShloMosaic.Lib.ValueIdx

set_option maxRecDepth 16384

noncomputable section

namespace Cert.KFinal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KPoint

variable (m : (ℓ : Loc nD τ sig) → Buf (Elt Ideal) ℓ) (ρ : Dev nD → PrngReg)

/-- The specification at the program's argument arrays, as the result array. -/
def G (c : Dev nD) : S256x196x576.Idx → EReal := fun i =>
  Spec.out (Spec.cur3 (n0 := 256) (n1 := 196) (n2 := 576) (m ((c : Thread nD τ).loc main_arg0))) (Spec.cur1 (n := 576) (m ((c : Thread nD τ).loc main_arg1))) (Spec.cur1 (n := 576) (m ((c : Thread nD τ).loc main_arg2)))
    (Spec.cur2 (n0 := 576) (n1 := 3456) (m ((c : Thread nD τ).loc main_arg3))) (Spec.cur1 (n := 3456) (m ((c : Thread nD τ).loc main_arg4))) (Spec.cur2 (n0 := 2304) (n1 := 576) (m ((c : Thread nD τ).loc main_arg5)))
    (Spec.cur1 (n := 576) (m ((c : Thread nD τ).loc main_arg6))) (Spec.cur3 (n0 := 18) (n1 := 196) (n2 := 196) (Cert.KHost.biasK (m ((c : Thread nD τ).loc main_arg7)) (m ((c : Thread nD τ).loc main_arg8)))) (i 0) (i 1) (i 2)

/-- The windows' block indices over the 64 grid points: the token array and the result move one tile of four batch
    elements per point; every other operand is staged whole. -/
theorem idx_facts : ∀ t : Fin cfg0.N, win0_8.index t (0 : Fin 3) = t.val ∧ win0_8.index t (1 : Fin 3) = 0 ∧ win0_8.index t (2 : Fin 3) = 0
    ∧ win0_0.index t (0 : Fin 3) = t.val ∧ win0_0.index t (1 : Fin 3) = 0 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 3) = 0 ∧ win0_7.index t (1 : Fin 3) = 0 ∧ win0_7.index t (2 : Fin 3) = 0 :=
  (by decide +kernel : ∀ t : Fin grid0.N, _)

/-- Every tile of the result is some grid point's. -/
theorem idx_onto : ∀ q : Fin 64, ∃ t : Fin cfg0.N, win0_8.index t = ![q.val, 0, 0] :=
  (by decide +kernel : ∀ q : Fin 64, ∃ t : Fin grid0.N, win0_8.index t = ![q.val, 0, 0])

/-- Every grid point writes its tile back. -/
theorem flush8 : ∀ t : Fin cfg0.N, (cfg0.win 8).flush t = true :=
  (by decide +kernel : ∀ t : Fin grid0.N, (cfg0.win 8).flush t = true)

/-! ## What a grid point finds in its staging buffers -/

/-- The token tile: batch element b of point t's tile is batch element 4t + b. -/
theorem blk_x (c : Dev nD) (t : Fin cfg0.N) (bl : Fin 4) (n : Fin 196) (d : Fin 576) :
    iblk m c 0 t (ix3 bl n d) = (m ((c : Thread nD τ).loc main_arg0)) (ix3 (gb ⟨t.val, t.isLt.trans_eq N_0⟩ bl) n d) := by
  have e := (idx_facts t)
  show V m c main_arg0 (((cfg0.win 0).blk t).view.emb (ix3 bl n d)) = _
  rw [V_main_arg0]
  refine congrArg (m ((c : Thread nD τ).loc main_arg0)) (funext fun a => Fin.ext ?_)
  match a with
  | ⟨0, _⟩ => show win0_0.index t (0 : Fin 3) * 4 + 1 * bl.val = t.val * 4 + bl.val; omega
  | ⟨1, _⟩ => show win0_0.index t (1 : Fin 3) * 196 + 1 * n.val = n.val; omega
  | ⟨2, _⟩ => show win0_0.index t (2 : Fin 3) * 576 + 1 * d.val = d.val; omega

/-- The normalisation's scale, whole. -/
theorem blk_lnw (c : Dev nD) (t : Fin cfg0.N) (d : Fin 576) : iblk m c 1 t (ix1 d) = (m ((c : Thread nD τ).loc main_arg1)) (ix1 d) := by
  have e := (idx_facts t)
  show V m c main_arg1 (((cfg0.win 1).blk t).view.emb (ix1 d)) = _
  rw [V_main_arg1]
  refine congrArg (m ((c : Thread nD τ).loc main_arg1)) (funext fun a => Fin.ext ?_)
  match a with
  | ⟨0, _⟩ => show win0_1.index t (0 : Fin 1) * 576 + 1 * d.val = d.val; omega

/-- The normalisation's shift, whole. -/
theorem blk_lnb (c : Dev nD) (t : Fin cfg0.N) (d : Fin 576) : iblk m c 2 t (ix1 d) = (m ((c : Thread nD τ).loc main_arg2)) (ix1 d) := by
  have e := (idx_facts t)
  show V m c main_arg2 (((cfg0.win 2).blk t).view.emb (ix1 d)) = _
  rw [V_main_arg2]
  refine congrArg (m ((c : Thread nD τ).loc main_arg2)) (funext fun a => Fin.ext ?_)
  match a with
  | ⟨0, _⟩ => show win0_2.index t (0 : Fin 1) * 576 + 1 * d.val = d.val; omega

/-- The output bias, whole. -/
theorem blk_bp (c : Dev nD) (t : Fin cfg0.N) (d : Fin 576) : iblk m c 6 t (ix1 d) = (m ((c : Thread nD τ).loc main_arg6)) (ix1 d) := by
  have e := (idx_facts t)
  show V m c main_arg6 (((cfg0.win 6).blk t).view.emb (ix1 d)) = _
  rw [V_main_arg6]
  refine congrArg (m ((c : Thread nD τ).loc main_arg6)) (funext fun a => Fin.ext ?_)
  match a with
  | ⟨0, _⟩ => show win0_6.index t (0 : Fin 1) * 576 + 1 * d.val = d.val; omega

/-- The projection weights as the host prepared them: whole, columns arranged by sections. -/
theorem blk_wq (c : Dev nD) (t : Fin cfg0.N) (d : Fin 576) (jj : Fin 3456) :
    iblk m c 3 t (ix2 d jj) = (m ((c : Thread nD τ).loc main_arg3)) (ix2 d (Spec.perm jj)) := by
  have e := (idx_facts t)
  have he : ((cfg0.win 3).blk t).view.emb (ix2 d jj) = ix2 d jj := funext fun a => Fin.ext (by
    match a with
    | ⟨0, _⟩ => show win0_3.index t (0 : Fin 2) * 576 + 1 * d.val = d.val; omega
    | ⟨1, _⟩ => show win0_3.index t (1 : Fin 2) * 3456 + 1 * jj.val = jj.val; omega)
  show V m c main_v8 (((cfg0.win 3).blk t).view.emb (ix2 d jj)) = _
  rw [he]
  exact Cert.KHost.V_wqkv m c (ix2 d jj)

/-- The projection bias as the host prepared it: whole, entries arranged by sections. -/
theorem blk_bq (c : Dev nD) (t : Fin cfg0.N) (jj : Fin 3456) :
    iblk m c 4 t (ix1 jj) = (m ((c : Thread nD τ).loc main_arg4)) (ix1 (Spec.perm jj)) := by
  have e := (idx_facts t)
  have he : ((cfg0.win 4).blk t).view.emb (ix1 jj) = ix1 jj := funext fun a => Fin.ext (by
    match a with
    | ⟨0, _⟩ => show win0_4.index t (0 : Fin 1) * 3456 + 1 * jj.val = jj.val; omega)
  show V m c main_v9 (((cfg0.win 4).blk t).view.emb (ix1 jj)) = _
  rw [he]
  exact Cert.KHost.V_bqkv m c (ix1 jj)

/-- The output weights, whole. -/
theorem blk_wp (c : Dev nD) (t : Fin cfg0.N) (jj : Fin 2304) (e' : Fin 576) :
    iblk m c 5 t (ix2 jj e') = (m ((c : Thread nD τ).loc main_arg5)) (ix2 jj e') := by
  have e := (idx_facts t)
  have he : ((cfg0.win 5).blk t).view.emb (ix2 jj e') = ix2 jj e' := funext fun a => Fin.ext (by
    match a with
    | ⟨0, _⟩ => show win0_5.index t (0 : Fin 2) * 2304 + 1 * jj.val = jj.val; omega
    | ⟨1, _⟩ => show win0_5.index t (1 : Fin 2) * 576 + 1 * e'.val = e'.val; omega)
  show V m c main_v10 (((cfg0.win 5).blk t).view.emb (ix2 jj e')) = _
  rw [he]
  exact congrFun (Cert.KHost.V_wproj m c) (ix2 jj e')

/-- The gathered bias planes, whole. -/
theorem blk_bias (c : Dev nD) (t : Fin cfg0.N) (h : Fin 18) (n mm : Fin 196) :
    iblk m c 7 t (ix3 h n mm) = Cert.KHost.biasK (m ((c : Thread nD τ).loc main_arg7)) (m ((c : Thread nD τ).loc main_arg8)) (ix3 h n mm) := by
  have e := (idx_facts t)
  have he : ((cfg0.win 7).blk t).view.emb (ix3 h n mm) = ix3 h n mm := funext fun a => Fin.ext (by
    match a with
    | ⟨0, _⟩ => show win0_7.index t (0 : Fin 3) * 18 + 1 * h.val = h.val; omega
    | ⟨1, _⟩ => show win0_7.index t (1 : Fin 3) * 196 + 1 * n.val = n.val; omega
    | ⟨2, _⟩ => show win0_7.index t (2 : Fin 3) * 196 + 1 * mm.val = mm.val; omega)
  show V m c main_v6 (((cfg0.win 7).blk t).view.emb (ix3 h n mm)) = _
  rw [he, Cert.KHost.V_bias]

/-! ## From tiles to the array -/

set_option maxHeartbeats 400000 in
/-- WHAT POINT `t` WRITES BACK is tile `t` of the specification at the argument arrays. -/
theorem flushed_eq (c : Dev nD) (t : Fin cfg0.N) :
    (dats m 0 c).flushed 8 t = ((cfg0.win 8).blk t).view.read (Elt Ideal) (G m c) := by
  rw [flushed8_A, Cert.KBlock.out_eq]
  have e := (idx_facts t)
  have hT : t.val < 64 := t.isLt.trans_eq N_0
  funext j
  have hj0 : (j 0).val < 4 := (j 0).isLt
  have hj1 : (j 1).val < 196 := (j 1).isLt
  have hj2 : (j 2).val < 576 := (j 2).isLt
  have key := point_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Cert.KHost.biasK (m ((c : Thread nD τ).loc main_arg7)) (m ((c : Thread nD τ).loc main_arg8)))
    (iblk m c 0 t) (iblk m c 1 t) (iblk m c 2 t) (iblk m c 3 t) (iblk m c 4 t) (iblk m c 5 t) (iblk m c 6 t) (iblk m c 7 t)
    ⟨t.val, hT⟩ (blk_x m c t) (blk_lnw m c t) (blk_lnb m c t) (blk_wq m c t) (blk_bq m c t) (blk_wp m c t) (blk_bp m c t) (blk_bias m c t)
    ⟨(j 0).val, hj0⟩ ⟨(j 1).val, hj1⟩ ⟨(j 2).val, hj2⟩
  have q0 : gb ⟨t.val, hT⟩ ⟨(j 0).val, hj0⟩ = ((cfg0.win 8).blk t).view.emb j 0 :=
    Fin.ext (by show t.val * 4 + (j 0).val = win0_8.index t (0 : Fin 3) * 4 + 1 * (j 0).val; omega)
  have q1 : (⟨(j 1).val, hj1⟩ : Fin 196) = ((cfg0.win 8).blk t).view.emb j 1 :=
    Fin.ext (by show (j 1).val = win0_8.index t (1 : Fin 3) * 196 + 1 * (j 1).val; omega)
  have q2 : (⟨(j 2).val, hj2⟩ : Fin 576) = ((cfg0.win 8).blk t).view.emb j 2 :=
    Fin.ext (by show (j 2).val = win0_8.index t (2 : Fin 3) * 576 + 1 * (j 2).val; omega)
  have hjj : (j : S4x196x576.Idx) = ix3 ⟨(j 0).val, hj0⟩ ⟨(j 1).val, hj1⟩ ⟨(j 2).val, hj2⟩ := funext fun a => by
    match a with
    | ⟨0, _⟩ => rfl
    | ⟨1, _⟩ => rfl
    | ⟨2, _⟩ => rfl
  show Cert.KBlock.blockFn (F := Ideal) (iblk m c 0 t) (iblk m c 1 t) (iblk m c 2 t) (iblk m c 3 t) (iblk m c 4 t) (iblk m c 5 t) (iblk m c 6 t) (iblk m c 7 t) j
    = G m c (((cfg0.win 8).blk t).view.emb j)
  rw [hjj, key]
  unfold G
  exact congr (congr (congrArg _ q0) q1) q2

/-- An index of the result is in point `t`'s tile iff each coordinate is in the tile's range on its axis. -/
theorem mem_blk (t : Fin cfg0.N) (i : S256x196x576.Idx) :
    i ∈ ((cfg0.win 8).blk t).view.set ↔ ∀ a : Fin 3, win0_8.index t a * S4x196x576.size a ≤ (i a).val ∧ (i a).val < win0_8.index t a * S4x196x576.size a + S4x196x576.size a := by
  show i ∈ ((View.whole main_v11).slice (win0_8.rect t)).set ↔ _
  rw [View.set_slice_whole, Rect.mem_set_unit]
  exact Iff.rfl

/-- The 64 tiles of four batch elements fill the result: batch element r lies in tile r / 4. -/
theorem cover (i : S256x196x576.Idx) : ∃ t : Fin cfg0.N, (cfg0.win 8).flush t = true ∧ i ∈ ((cfg0.win 8).blk t).view.set := by
  have hi0 : (i 0).val < 256 := (i 0).isLt
  have hi1 : (i 1).val < 196 := (i 1).isLt
  have hi2 : (i 2).val < 576 := (i 2).isLt
  obtain ⟨t, ht⟩ := idx_onto ⟨(i 0).val / 4, by omega⟩
  have p0 : win0_8.index t (0 : Fin 3) = (i 0).val / 4 := congrFun ht 0
  have p1 : win0_8.index t (1 : Fin 3) = 0 := congrFun ht 1
  have p2 : win0_8.index t (2 : Fin 3) = 0 := congrFun ht 2
  refine ⟨t, flush8 t, ?_⟩
  rw [mem_blk]
  intro a
  match a with
  | ⟨0, _⟩ => show win0_8.index t (0 : Fin 3) * 4 ≤ (i 0).val ∧ (i 0).val < win0_8.index t (0 : Fin 3) * 4 + 4; omega
  | ⟨1, _⟩ => show win0_8.index t (1 : Fin 3) * 196 ≤ (i 1).val ∧ (i 1).val < win0_8.index t (1 : Fin 3) * 196 + 196; omega
  | ⟨2, _⟩ => show win0_8.index t (2 : Fin 3) * 576 ≤ (i 2).val ∧ (i 2).val < win0_8.index t (2 : Fin 3) * 576 + 576; omega

/-- THE RESULT ARRAY after the run is the specification at the argument arrays. -/
theorem final (c : Dev nD) : (dats m 0 c).arrAt 8 cfg0.N = G m c :=
  (dats m 0 c).arrAt_eq_of_cover 8 (G m c) (fun t _ => flushed_eq m c t) (cover)

/-- The program's run re-posted: the result at the specification, the arguments unchanged. -/
theorem run : θ_run defs (onTc (τ := τ) (main (F := Ideal))) ⟨m, fun _ => 0, ρ⟩ fun r => ∀ c : Dev nD,
      r.2.mem ((c : Thread nD τ).loc main_v11) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KFinal

end
-- ==== Proof.lean ====
/-
  The claim: the kernel program, its reading over the extended reals and the reference's reading over the extended
  reals each run to the end from any memory whose float inputs are finite, leaving their arguments unchanged; the
  kernel's reading over the extended reals is the program's own text (nothing was rewritten); and the two readings,
  run from memories that agree on the arguments, end with the same result array.

  Both results are ONE function of the nine arguments (Proof/Spec.lean): every token row normalised, projected to
  queries, keys and values head by head, each head's softmax attention over the 196 tokens of its batch element
  with a gathered bias, and the attended features projected back.  The kernel computes it tile by tile, four batch
  elements per grid point, with the projection's columns rearranged by sections and the eighteen heads taken six
  at a time (Proof/KBlock … KFinal); the reference computes it in one pass over whole arrays (Proof/RefSide).
  The bias gather, the same host operations in both programs, is never opened.  Only re-indexing of sums is used:
  no finiteness of the inputs is needed for the equality.
-/
import proofs.«115814_j15985868275953_2_alg».proof.Defs
import proofs.«115814_j15985868275953_2_alg».proof.Proof.Gen.Kernel
import proofs.«115814_j15985868275953_2_alg».proof.Proof.Gen.Kernel.Skeleton
import proofs.«115814_j15985868275953_2_alg».proof.Proof.Gen.Kernel.Launch
import proofs.«115814_j15985868275953_2_alg».proof.Proof.Gen.Kernel.Points
import proofs.«115814_j15985868275953_2_alg».proof.Proof.Gen.Kernel.Frame
import proofs.«115814_j15985868275953_2_alg».proof.Proof.Gen.KernelIdeal
import proofs.«115814_j15985868275953_2_alg».proof.Proof.Gen.KernelIdeal.Skeleton
import proofs.«115814_j15985868275953_2_alg».proof.Proof.Gen.KernelIdeal.Launch
import proofs.«115814_j15985868275953_2_alg».proof.Proof.Gen.KernelIdeal.Points
import proofs.«115814_j15985868275953_2_alg».proof.Proof.Gen.KernelIdeal.Frame
import proofs.«115814_j15985868275953_2_alg».proof.Proof.Gen.ReferenceIdeal
import proofs.«115814_j15985868275953_2_alg».proof.Proof.Gen.Pre_finite_inputs
import proofs.«115814_j15985868275953_2_alg».proof.Proof.Gen.KernelIdeal.Value
import proofs.«115814_j15985868275953_2_alg».proof.Proof.Gen.ReferenceIdeal.Run
import proofs.«115814_j15985868275953_2_alg».proof.Proof.Gen.ReferenceIdeal.Read
import proofs.«115814_j15985868275953_2_alg».proof.Proof.RefSide
import proofs.«115814_j15985868275953_2_alg».proof.Proof.KFinal
import Idealize.ShloMosaic.Adequacy
import Idealize.ShloMosaic.Init

noncomputable section

namespace Cert.Proof

open Idealize.ShloMosaic Idealize.ShloMosaic.TcCoe Idealize.SL.Sem

/-- The kernel program runs and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- So does the reference's: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- The two programs gather the bias planes by the same operations. -/
theorem bias_same (ab : (⟨Cert.KernelIdeal.S18x196, .f32⟩ : BufTy).Contents (Elt Ideal))
    (idx : (⟨Cert.KernelIdeal.S196x196, .i32⟩ : BufTy).Contents (Elt Ideal)) :
    Cert.KHost.biasK ab idx = Cert.ReferenceIdeal.Read.val_main_v39 (F := Ideal) ab idx := rfl

/-- The specification at the kernel's arguments, its bias planes written as the reference gathers them. -/
theorem G_ref (m : (ℓ : Loc Cert.KernelIdeal.nD Cert.KernelIdeal.τ Cert.KernelIdeal.sig) → Buf (Elt Ideal) ℓ) (c : Dev Cert.KernelIdeal.nD) :
    Cert.KFinal.G m c = fun i =>
      Cert.Spec.out (Cert.Spec.cur3 (n0 := 256) (n1 := 196) (n2 := 576) (m ((c : Thread Cert.KernelIdeal.nD Cert.KernelIdeal.τ).loc Cert.KernelIdeal.main_arg0)))
        (Cert.Spec.cur1 (n := 576) (m ((c : Thread Cert.KernelIdeal.nD Cert.KernelIdeal.τ).loc Cert.KernelIdeal.main_arg1)))
        (Cert.Spec.cur1 (n := 576) (m ((c : Thread Cert.KernelIdeal.nD Cert.KernelIdeal.τ).loc Cert.KernelIdeal.main_arg2)))
        (Cert.Spec.cur2 (n0 := 576) (n1 := 3456) (m ((c : Thread Cert.KernelIdeal.nD Cert.KernelIdeal.τ).loc Cert.KernelIdeal.main_arg3)))
        (Cert.Spec.cur1 (n := 3456) (m ((c : Thread Cert.KernelIdeal.nD Cert.KernelIdeal.τ).loc Cert.KernelIdeal.main_arg4)))
        (Cert.Spec.cur2 (n0 := 2304) (n1 := 576) (m ((c : Thread Cert.KernelIdeal.nD Cert.KernelIdeal.τ).loc Cert.KernelIdeal.main_arg5)))
        (Cert.Spec.cur1 (n := 576) (m ((c : Thread Cert.KernelIdeal.nD Cert.KernelIdeal.τ).loc Cert.KernelIdeal.main_arg6)))
        (Cert.Spec.cur3 (n0 := 18) (n1 := 196) (n2 := 196) (Cert.ReferenceIdeal.Read.val_main_v39 (F := Ideal)
          (m ((c : Thread Cert.KernelIdeal.nD Cert.KernelIdeal.τ).loc Cert.KernelIdeal.main_arg7))
          (m ((c : Thread Cert.KernelIdeal.nD Cert.KernelIdeal.τ).loc Cert.KernelIdeal.main_arg8))))
        (i 0) (i 1) (i 2) := by
  unfold Cert.KFinal.G
  rw [bias_same]

/-- Over the extended reals the kernel's result array ends at the specification of its arguments (the tiles put
    together), the reference's at the specification of its own; the arguments agree. -/
theorem algebraic : Cert.algebraic_KernelIdeal_ReferenceIdeal := by
  intro m ρ m' ρ' _ hagree
  refine ⟨fun c => Cert.KFinal.G m c, Cert.KFinal.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v63_eq, a0, a1, a2, a3, a4, a5, a6, a7, a8, Cert.RefSide.ref_eq]
  exact (G_ref m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
